-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S512x3 : S_.BroadcastsInDim S512x3 (![] : Fin 0 → Fin S512x3.rank)
  reducesTo_S512x3_S_d0_1 : S512x3.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S16x32 .f32) (main_arg5 : FVec F S32 .f32) (main_arg6 : FVec F S32x64 .f32) (main_arg7 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S512x3 .f32) (main_arg2 : FVec F S3x16 .f32) (main_arg3 : FVec F S16 .f32) (main_arg4 : FVec F S16x32 .f32) (main_arg5 : FVec F S32 .f32) (main_arg6 : FVec F S32x64 .f32) (main_arg7 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S3x16 .f32 := Host.absf main_arg2
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S1x16 : Shape := ⟨2, ![1, 16]⟩
abbrev S1x32 : Shape := ⟨2, ![1, 32]⟩
abbrev S1x64 : Shape := ⟨2, ![1, 64]⟩
abbrev S8x1x64 : Shape := ⟨3, ![8, 1, 64]⟩
abbrev S8x64 : Shape := ⟨2, ![8, 64]⟩
abbrev S4x512x512 : Shape := ⟨3, ![4, 512, 512]⟩
abbrev S4x1x64 : Shape := ⟨3, ![4, 1, 64]⟩
abbrev S512x16 : Shape := ⟨2, ![512, 16]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x32 : Shape := ⟨2, ![512, 32]⟩
abbrev S4x32 : Shape := ⟨2, ![4, 32]⟩
abbrev S4x64 : Shape := ⟨2, ![4, 64]⟩
abbrev S4 : Shape := ⟨1, ![4]⟩
abbrev S4x1 : Shape := ⟨2, ![4, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x512x512, .f32⟩
  | .hbm, ⟨1, _⟩ => ⟨S512x3, .f32⟩
  | .hbm, ⟨2, _⟩ => ⟨S3x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x16, .f32⟩
  | .hbm, ⟨9, _⟩ => ⟨S1x32, .f32⟩
  | .hbm, ⟨10, _⟩ => ⟨S1x64, .f32⟩
  | .hbm, ⟨11, _⟩ => ⟨S8x1x64, .f32⟩
  | .hbm, ⟨12, _⟩ => ⟨S8x64, .f32⟩
  | .local _ .vmem, ⟨0, _⟩ => ⟨S4x512x512, .f32⟩
  | .local _ .vmem, ⟨1, _⟩ => ⟨S4x512x512, .f32⟩
  | .local _ .vmem, ⟨2, _⟩ => ⟨S512x3, .f32⟩
  | .local _ .vmem, ⟨3, _⟩ => ⟨S3x16, .f32⟩
  | .local _ .vmem, ⟨4, _⟩ => ⟨S1x16, .f32⟩
  | .local _ .vmem, ⟨5, _⟩ => ⟨S16x32, .f32⟩
  | .local _ .vmem, ⟨6, _⟩ => ⟨S1x32, .f32⟩
  | .local _ .vmem, ⟨7, _⟩ => ⟨S32x64, .f32⟩
  | .local _ .vmem, ⟨8, _⟩ => ⟨S1x64, .f32⟩
  | .local _ .vmem, ⟨9, _⟩ => ⟨S4x1x64, .f32⟩
  | .local _ .vmem, ⟨10, _⟩ => ⟨S4x1x64, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S16_S1x16 : S16.ShapeCasts S1x16
  shapeCasts_S32_S1x32 : S32.ShapeCasts S1x32
  shapeCasts_S64_S1x64 : S64.ShapeCasts S1x64
  shapeCasts_S8x1x64_S8x64 : S8x1x64.ShapeCasts S8x64
  inb_S512x3_S512x3_0_0 : ∀ a, (![0, 0] : Fin 2 → Nat) a + S512x3.size a ≤ S512x3.size a
  h_S512x3 : 0 < S512x3.numel
  inb_S3x16_S3x16_0_0 : ∀ a, (![0, 0] : Fin 2 → Nat) a + S3x16.size a ≤ S3x16.size a
  h_S3x16 : 0 < S3x16.numel
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  reduces_S512x512_S512 : S512x512.Reduces [0] S512
  shapeCasts_S512_S512x1 : S512.ShapeCasts S512x1
  broadcasts_S512x1_S512x16 : S512x1.Broadcasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S16x32_S16x32_0_0 : ∀ a, (![0, 0] : Fin 2 → Nat) a + S16x32.size a ≤ S16x32.size a
  h_S16x32 : 0 < S16x32.numel
  broadcasts_S512x1_S512x32 : S512x1.Broadcasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S32 : S512x32.Reduces [0] S32
  concatenates_S1x32_S1x32_S1x32_S1x32_S4x32_d0 : Shape.Concatenates [S1x32, S1x32, S1x32, S1x32] S4x32 0
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4x64 : S1x64.Broadcasts S4x64
  reduces_S4x64_S4 : S4x64.Reduces [1] S4
  shapeCasts_S4_S4x1 : S4.ShapeCasts S4x1
  broadcasts_S4x1_S4x64 : S4x1.Broadcasts S4x64
  shapeCasts_S4x64_S4x1x64 : S4x64.ShapeCasts S4x1x64
  inb_S4x1x64_S4x1x64_0_0_0 : ∀ a, (![0, 0, 0] : Fin 3 → Nat) a + S4x1x64.size a ≤ S4x1x64.size a
  h_S4x1x64 : 0 < S4x1x64.numel
  dot_S512x3_S3x16_S512x16_1_0_0_1_n_n_wf : DotDims.WF S512x3 S3x16 S512x16 [1] [0] [0] [1] [] []
  dot_S512x512_S512x16_S512x16_0_0_1_1_n_n_wf : DotDims.WF S512x512 S512x16 S512x16 [0] [0] [1] [1] [] []
  dot_S512x16_S16x32_S512x32_1_0_0_1_n_n_wf : DotDims.WF S512x16 S16x32 S512x32 [1] [0] [0] [1] [] []
  dot_S512x512_S512x32_S512x32_0_0_1_1_n_n_wf : DotDims.WF S512x512 S512x32 S512x32 [0] [0] [1] [1] [] []
  dot_S512x512_S512x1_S512x1_1_0_0_1_n_n_wf : DotDims.WF S512x512 S512x1 S512x1 [1] [0] [0] [1] [] []
  dot_S4x32_S32x64_S4x64_1_0_0_1_n_n_wf : DotDims.WF S4x32 S32x64 S4x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S8x512x512.size a
  hwx0_0 : ∀ i : grid0.Coords, EltTy.bits .f32 = 32 ∨ (Rect.block (s := S8x512x512) S4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S512x3.size a
  hwx0_1 : ∀ i : grid0.Coords, EltTy.bits .f32 = 32 ∨ (Rect.block (s := S512x3) S512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x16.size a ≤ S3x16.size a
  hwx0_2 : ∀ i : grid0.Coords, EltTy.bits .f32 = 32 ∨ (Rect.block (s := S3x16) S3x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1x64.size a ≤ S8x1x64.size a
  hwx0_8 : ∀ i : grid0.Coords, EltTy.bits .f32 = 32 ∨ (Rect.block (s := S8x1x64) S4x1x64.size (cc0_transform_8 i) (hinb0_8 i)).WholeWords (EltTy.packing .f32)

variable [Facts₀]

def dot_S512x3_S3x16_S512x16_1_0_0_1_n_n : DotDims S512x3 S3x16 S512x16 where
  lhsContracting := [1]
  rhsContracting := [0]
  lhsNonContracting := [0]
  rhsNonContracting := [1]
  lhsBatch := []
  rhsBatch := []
  wf := dot_S512x3_S3x16_S512x16_1_0_0_1_n_n_wf
def dot_S512x512_S512x16_S512x16_0_0_1_1_n_n : DotDims S512x512 S512x16 S512x16 where
  lhsContracting := [0]
  rhsContracting := [0]
  lhsNonContracting := [1]
  rhsNonContracting := [1]
  lhsBatch := []
  rhsBatch := []
  wf := dot_S512x512_S512x16_S512x16_0_0_1_1_n_n_wf
def dot_S512x16_S16x32_S512x32_1_0_0_1_n_n : DotDims S512x16 S16x32 S512x32 where
  lhsContracting := [1]
  rhsContracting := [0]
  lhsNonContracting := [0]
  rhsNonContracting := [1]
  lhsBatch := []
  rhsBatch := []
  wf := dot_S512x16_S16x32_S512x32_1_0_0_1_n_n_wf
def dot_S512x512_S512x32_S512x32_0_0_1_1_n_n : DotDims S512x512 S512x32 S512x32 where
  lhsContracting := [0]
  rhsContracting := [0]
  lhsNonContracting := [1]
  rhsNonContracting := [1]
  lhsBatch := []
  rhsBatch := []
  wf := dot_S512x512_S512x32_S512x32_0_0_1_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S4x32_S32x64_S4x64_1_0_0_1_n_n : DotDims S4x32 S32x64 S4x64 where
  lhsContracting := [1]
  rhsContracting := [0]
  lhsNonContracting := [0]
  rhsNonContracting := [1]
  lhsBatch := []
  rhsBatch := []
  wf := dot_S4x32_S32x64_S4x64_1_0_0_1_n_n_wf

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S4x1x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S512x3 : Shape := ⟨2, ![512, 3]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S_ : Shape := ⟨0, ![]⟩
abbrev S1x512x512 : Shape := ⟨3, ![1, 512, 512]⟩
abbrev S2097152 : Shape := ⟨1, ![2097152]⟩
abbrev S1x512x1x3 : Shape := ⟨4, ![1, 512, 1, 3]⟩
abbrev S8x512x1x3 : Shape := ⟨4, ![8, 512, 1, 3]⟩
abbrev S4096x3 : Shape := ⟨2, ![4096, 3]⟩
abbrev S4096x16 : Shape := ⟨2, ![4096, 16]⟩
abbrev S4096 : Shape := ⟨1, ![4096]⟩
abbrev S2101248 : Shape := ⟨1, ![2101248]⟩
abbrev S2101248x1 : Shape := ⟨2, ![2101248, 1]⟩
abbrev S2101248x16 : Shape := ⟨2, ![2101248, 16]⟩
abbrev S1x16 : Shape := ⟨2, ![1, 16]⟩
abbrev S4096x32 : Shape := ⟨2, ![4096, 32]⟩
abbrev S2101248x32 : Shape := ⟨2, ![2101248, 32]⟩
abbrev S1x32 : Shape := ⟨2, ![1, 32]⟩
abbrev S4096x64 : Shape := ⟨2, ![4096, 64]⟩
abbrev S2101248x64 : Shape := ⟨2, ![2101248, 64]⟩
abbrev S1x64 : Shape := ⟨2, ![1, 64]⟩
abbrev S8 : Shape := ⟨1, ![8]⟩
abbrev S8x512 : Shape := ⟨2, ![8, 512]⟩
abbrev S8x64 : Shape := ⟨2, ![8, 64]⟩
abbrev S4096x1 : Shape := ⟨2, ![4096, 1]⟩
abbrev S8x1 : Shape := ⟨2, ![8, 1]⟩

abbrev nBuf : Space → Nat
  | .hbm => 299
  | .vmem => 0
  | .smem => 0
  | _ => 0

abbrev hbmTy0_0 (i : Nat) : BufTy := match i % 128 with
  | 0 => ⟨S8x512x512, .f32⟩
  | 1 => ⟨S512x3, .f32⟩
  | 2 => ⟨S3x16, .f32⟩
  | 3 => ⟨S16, .f32⟩
  | 4 => ⟨S16x32, .f32⟩
  | 5 => ⟨S32, .f32⟩
  | 6 => ⟨S32x64, .f32⟩
  | 7 => ⟨S64, .f32⟩
  | 8 => ⟨S512, .i32⟩
  | 9 => ⟨S512x512, .i32⟩
  | 10 => ⟨S262144, .i32⟩
  | 11 => ⟨S512, .i32⟩
  | 12 => ⟨S1x512, .i32⟩
  | 13 => ⟨S512x512, .i32⟩
  | 14 => ⟨S262144, .i32⟩
  | 15 => ⟨S_, .i32⟩
  | 16 => ⟨S262144, .i32⟩
  | 17 => ⟨S262144, .i32⟩
  | 18 => ⟨S_, .i32⟩
  | 19 => ⟨S262144, .i32⟩
  | 20 => ⟨S262144, .i32⟩
  | 21 => ⟨S1x512x512, .f32⟩
  | 22 => ⟨S512x512, .f32⟩
  | 23 => ⟨S262144, .f32⟩
  | 24 => ⟨S_, .i32⟩
  | 25 => ⟨S262144, .i32⟩
  | 26 => ⟨S262144, .i32⟩
  | 27 => ⟨S_, .i32⟩
  | 28 => ⟨S262144, .i32⟩
  | 29 => ⟨S262144, .i32⟩
  | 30 => ⟨S1x512x512, .f32⟩
  | 31 => ⟨S512x512, .f32⟩
  | 32 => ⟨S262144, .f32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S1x512x512, .f32⟩
  | 40 => ⟨S512x512, .f32⟩
  | 41 => ⟨S262144, .f32⟩
  | 42 => ⟨S_, .i32⟩
  | 43 => ⟨S262144, .i32⟩
  | 44 => ⟨S262144, .i32⟩
  | 45 => ⟨S_, .i32⟩
  | 46 => ⟨S262144, .i32⟩
  | 47 => ⟨S262144, .i32⟩
  | 48 => ⟨S1x512x512, .f32⟩
  | 49 => ⟨S512x512, .f32⟩
  | 50 => ⟨S262144, .f32⟩
  | 51 => ⟨S_, .i32⟩
  | 52 => ⟨S262144, .i32⟩
  | 53 => ⟨S262144, .i32⟩
  | 54 => ⟨S_, .i32⟩
  | 55 => ⟨S262144, .i32⟩
  | 56 => ⟨S262144, .i32⟩
  | 57 => ⟨S1x512x512, .f32⟩
  | 58 => ⟨S512x512, .f32⟩
  | 59 => ⟨S262144, .f32⟩
  | 60 => ⟨S_, .i32⟩
  | 61 => ⟨S262144, .i32⟩
  | 62 => ⟨S262144, .i32⟩
  | 63 => ⟨S_, .i32⟩
  | 64 => ⟨S262144, .i32⟩
  | 65 => ⟨S262144, .i32⟩
  | 66 => ⟨S1x512x512, .f32⟩
  | 67 => ⟨S512x512, .f32⟩
  | 68 => ⟨S262144, .f32⟩
  | 69 => ⟨S_, .i32⟩
  | 70 => ⟨S262144, .i32⟩
  | 71 => ⟨S262144, .i32⟩
  | 72 => ⟨S_, .i32⟩
  | 73 => ⟨S262144, .i32⟩
  | 74 => ⟨S262144, .i32⟩
  | 75 => ⟨S1x512x512, .f32⟩
  | 76 => ⟨S512x512, .f32⟩
  | 77 => ⟨S262144, .f32⟩
  | 78 => ⟨S_, .i32⟩
  | 79 => ⟨S262144, .i32⟩
  | 80 => ⟨S262144, .i32⟩
  | 81 => ⟨S_, .i32⟩
  | 82 => ⟨S262144, .i32⟩
  | 83 => ⟨S262144, .i32⟩
  | 84 => ⟨S1x512x512, .f32⟩
  | 85 => ⟨S512x512, .f32⟩
  | 86 => ⟨S262144, .f32⟩
  | 87 => ⟨S2097152, .i32⟩
  | 88 => ⟨S2097152, .i32⟩
  | 89 => ⟨S2097152, .f32⟩
  | 90 => ⟨S1x512x1x3, .f32⟩
  | 91 => ⟨S8x512x1x3, .f32⟩
  | 92 => ⟨S4096x3, .f32⟩
  | 93 => ⟨S4096x16, .f32⟩
  | 94 => ⟨S4096, .i32⟩
  | 95 => ⟨S2101248, .i32⟩
  | 96 => ⟨S2101248, .i32⟩
  | 97 => ⟨S_, .f32⟩
  | 98 => ⟨S4096, .f32⟩
  | 99 => ⟨S2101248, .f32⟩
  | 100 => ⟨S_, .f32⟩
  | 101 => ⟨S4096, .f32⟩
  | 102 => ⟨S2101248x1, .i32⟩
  | 103 => ⟨S4096, .f32⟩
  | 104 => ⟨S_, .f32⟩
  | 105 => ⟨S4096, .f32⟩
  | 106 => ⟨S4096, .i1⟩
  | 107 => ⟨S_, .f32⟩
  | 108 => ⟨S4096, .f32⟩
  | 109 => ⟨S4096, .f32⟩
  | 110 => ⟨S_, .f32⟩
  | 111 => ⟨S_, .f32⟩
  | 112 => ⟨S4096, .f32⟩
  | 113 => ⟨S4096, .f32⟩
  | 114 => ⟨S_, .i32⟩
  | 115 => ⟨S2101248, .i32⟩
  | 116 => ⟨S2101248, .i1⟩
  | 117 => ⟨S_, .i32⟩
  | 118 => ⟨S2101248, .i32⟩
  | 119 => ⟨S2101248, .i32⟩
  | 120 => ⟨S2101248, .i32⟩
  | 121 => ⟨S2101248x1, .i32⟩
  | 122 => ⟨S2101248, .f32⟩
  | 123 => ⟨S_, .i32⟩
  | 124 => ⟨S2101248, .i32⟩
  | 125 => ⟨S2101248, .i1⟩
  | 126 => ⟨S_, .i32⟩
  | 127 => ⟨S2101248, .i32⟩
  | _ => ⟨S8x512x512, .f32⟩

abbrev hbmTy0_1 (i : Nat) : BufTy := match i % 128 with
  | 0 => ⟨S2101248, .i32⟩
  | 1 => ⟨S2101248, .i32⟩
  | 2 => ⟨S2101248x1, .i32⟩
  | 3 => ⟨S2101248, .f32⟩
  | 4 => ⟨S2101248, .f32⟩
  | 5 => ⟨S_, .i32⟩
  | 6 => ⟨S2101248, .i32⟩
  | 7 => ⟨S2101248, .i1⟩
  | 8 => ⟨S_, .i32⟩
  | 9 => ⟨S2101248, .i32⟩
  | 10 => ⟨S2101248, .i32⟩
  | 11 => ⟨S2101248, .i32⟩
  | 12 => ⟨S2101248x1, .i32⟩
  | 13 => ⟨S2101248x16, .f32⟩
  | 14 => ⟨S2101248, .f32⟩
  | 15 => ⟨S2101248x1, .f32⟩
  | 16 => ⟨S2101248x16, .f32⟩
  | 17 => ⟨S2101248x16, .f32⟩
  | 18 => ⟨S_, .f32⟩
  | 19 => ⟨S4096x16, .f32⟩
  | 20 => ⟨S2101248x1, .i32⟩
  | 21 => ⟨S4096x16, .f32⟩
  | 22 => ⟨S1x16, .f32⟩
  | 23 => ⟨S4096x16, .f32⟩
  | 24 => ⟨S4096x16, .f32⟩
  | 25 => ⟨S_, .f32⟩
  | 26 => ⟨S4096x16, .f32⟩
  | 27 => ⟨S4096x16, .f32⟩
  | 28 => ⟨S4096x32, .f32⟩
  | 29 => ⟨S4096, .i32⟩
  | 30 => ⟨S2101248, .i32⟩
  | 31 => ⟨S2101248, .i32⟩
  | 32 => ⟨S_, .f32⟩
  | 33 => ⟨S4096, .f32⟩
  | 34 => ⟨S2101248, .f32⟩
  | 35 => ⟨S_, .f32⟩
  | 36 => ⟨S4096, .f32⟩
  | 37 => ⟨S2101248x1, .i32⟩
  | 38 => ⟨S4096, .f32⟩
  | 39 => ⟨S_, .f32⟩
  | 40 => ⟨S4096, .f32⟩
  | 41 => ⟨S4096, .i1⟩
  | 42 => ⟨S_, .f32⟩
  | 43 => ⟨S4096, .f32⟩
  | 44 => ⟨S4096, .f32⟩
  | 45 => ⟨S_, .f32⟩
  | 46 => ⟨S_, .f32⟩
  | 47 => ⟨S4096, .f32⟩
  | 48 => ⟨S4096, .f32⟩
  | 49 => ⟨S_, .i32⟩
  | 50 => ⟨S2101248, .i32⟩
  | 51 => ⟨S2101248, .i1⟩
  | 52 => ⟨S_, .i32⟩
  | 53 => ⟨S2101248, .i32⟩
  | 54 => ⟨S2101248, .i32⟩
  | 55 => ⟨S2101248, .i32⟩
  | 56 => ⟨S2101248x1, .i32⟩
  | 57 => ⟨S2101248, .f32⟩
  | 58 => ⟨S_, .i32⟩
  | 59 => ⟨S2101248, .i32⟩
  | 60 => ⟨S2101248, .i1⟩
  | 61 => ⟨S_, .i32⟩
  | 62 => ⟨S2101248, .i32⟩
  | 63 => ⟨S2101248, .i32⟩
  | 64 => ⟨S2101248, .i32⟩
  | 65 => ⟨S2101248x1, .i32⟩
  | 66 => ⟨S2101248, .f32⟩
  | 67 => ⟨S2101248, .f32⟩
  | 68 => ⟨S_, .i32⟩
  | 69 => ⟨S2101248, .i32⟩
  | 70 => ⟨S2101248, .i1⟩
  | 71 => ⟨S_, .i32⟩
  | 72 => ⟨S2101248, .i32⟩
  | 73 => ⟨S2101248, .i32⟩
  | 74 => ⟨S2101248, .i32⟩
  | 75 => ⟨S2101248x1, .i32⟩
  | 76 => ⟨S2101248x32, .f32⟩
  | 77 => ⟨S2101248, .f32⟩
  | 78 => ⟨S2101248x1, .f32⟩
  | 79 => ⟨S2101248x32, .f32⟩
  | 80 => ⟨S2101248x32, .f32⟩
  | 81 => ⟨S_, .f32⟩
  | 82 => ⟨S4096x32, .f32⟩
  | 83 => ⟨S2101248x1, .i32⟩
  | 84 => ⟨S4096x32, .f32⟩
  | 85 => ⟨S1x32, .f32⟩
  | 86 => ⟨S4096x32, .f32⟩
  | 87 => ⟨S4096x32, .f32⟩
  | 88 => ⟨S_, .f32⟩
  | 89 => ⟨S4096x32, .f32⟩
  | 90 => ⟨S4096x32, .f32⟩
  | 91 => ⟨S4096x64, .f32⟩
  | 92 => ⟨S4096, .i32⟩
  | 93 => ⟨S2101248, .i32⟩
  | 94 => ⟨S2101248, .i32⟩
  | 95 => ⟨S_, .f32⟩
  | 96 => ⟨S4096, .f32⟩
  | 97 => ⟨S2101248, .f32⟩
  | 98 => ⟨S_, .f32⟩
  | 99 => ⟨S4096, .f32⟩
  | 100 => ⟨S2101248x1, .i32⟩
  | 101 => ⟨S4096, .f32⟩
  | 102 => ⟨S_, .f32⟩
  | 103 => ⟨S4096, .f32⟩
  | 104 => ⟨S4096, .i1⟩
  | 105 => ⟨S_, .f32⟩
  | 106 => ⟨S4096, .f32⟩
  | 107 => ⟨S4096, .f32⟩
  | 108 => ⟨S_, .f32⟩
  | 109 => ⟨S_, .f32⟩
  | 110 => ⟨S4096, .f32⟩
  | 111 => ⟨S4096, .f32⟩
  | 112 => ⟨S_, .i32⟩
  | 113 => ⟨S2101248, .i32⟩
  | 114 => ⟨S2101248, .i1⟩
  | 115 => ⟨S_, .i32⟩
  | 116 => ⟨S2101248, .i32⟩
  | 117 => ⟨S2101248, .i32⟩
  | 118 => ⟨S2101248, .i32⟩
  | 119 => ⟨S2101248x1, .i32⟩
  | 120 => ⟨S2101248, .f32⟩
  | 121 => ⟨S_, .i32⟩
  | 122 => ⟨S2101248, .i32⟩
  | 123 => ⟨S2101248, .i1⟩
  | 124 => ⟨S_, .i32⟩
  | 125 => ⟨S2101248, .i32⟩
  | 126 => ⟨S2101248, .i32⟩
  | 127 => ⟨S2101248, .i32⟩
  | _ => ⟨S8x512x512, .f32⟩

abbrev hbmTy0_2 (i : Nat) : BufTy := match i % 128 with
  | 0 => ⟨S2101248x1, .i32⟩
  | 1 => ⟨S2101248, .f32⟩
  | 2 => ⟨S2101248, .f32⟩
  | 3 => ⟨S_, .i32⟩
  | 4 => ⟨S2101248, .i32⟩
  | 5 => ⟨S2101248, .i1⟩
  | 6 => ⟨S_, .i32⟩
  | 7 => ⟨S2101248, .i32⟩
  | 8 => ⟨S2101248, .i32⟩
  | 9 => ⟨S2101248, .i32⟩
  | 10 => ⟨S2101248x1, .i32⟩
  | 11 => ⟨S2101248x64, .f32⟩
  | 12 => ⟨S2101248, .f32⟩
  | 13 => ⟨S2101248x1, .f32⟩
  | 14 => ⟨S2101248x64, .f32⟩
  | 15 => ⟨S2101248x64, .f32⟩
  | 16 => ⟨S_, .f32⟩
  | 17 => ⟨S4096x64, .f32⟩
  | 18 => ⟨S2101248x1, .i32⟩
  | 19 => ⟨S4096x64, .f32⟩
  | 20 => ⟨S1x64, .f32⟩
  | 21 => ⟨S4096x64, .f32⟩
  | 22 => ⟨S4096x64, .f32⟩
  | 23 => ⟨S8, .i32⟩
  | 24 => ⟨S8x512, .i32⟩
  | 25 => ⟨S4096, .i32⟩
  | 26 => ⟨S_, .f32⟩
  | 27 => ⟨S8x64, .f32⟩
  | 28 => ⟨S4096x1, .i32⟩
  | 29 => ⟨S8x64, .f32⟩
  | 30 => ⟨S_, .f32⟩
  | 31 => ⟨S8x64, .f32⟩
  | 32 => ⟨S8x64, .f32⟩
  | 33 => ⟨S8x64, .f32⟩
  | 34 => ⟨S_, .f32⟩
  | 35 => ⟨S8, .f32⟩
  | 36 => ⟨S8x1, .f32⟩
  | 37 => ⟨S8x1, .f32⟩
  | 38 => ⟨S_, .f32⟩
  | 39 => ⟨S8x1, .f32⟩
  | 40 => ⟨S8x1, .f32⟩
  | 41 => ⟨S8x64, .f32⟩
  | 42 => ⟨S8x64, .f32⟩
  | _ => ⟨S8x512x512, .f32⟩

abbrev hbmTy (i : Nat) : BufTy := match i / 128 with
  | 0 => hbmTy0_0 i
  | 1 => hbmTy0_1 i
  | 2 => hbmTy0_2 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_call0_v0 : Ref sig .tc := ⟨.hbm, 111, rfl⟩
abbrev main_call0_v1 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_21 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_23 : Ref sig .tc := ⟨.hbm, 133, rfl⟩
abbrev main_v98 : Ref sig .tc := ⟨.hbm, 134, rfl⟩
abbrev main_v99 : Ref sig .tc := ⟨.hbm, 135, rfl⟩
abbrev main_c_24 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call1_cst : Ref sig .tc := ⟨.hbm, 153, rfl⟩
abbrev main_call1_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_28 : Ref sig .tc := ⟨.hbm, 167, rfl⟩
abbrev main_v125 : Ref sig .tc := ⟨.hbm, 168, rfl⟩
abbrev main_v126 : Ref sig .tc := ⟨.hbm, 169, rfl⟩
abbrev main_cst_29 : Ref sig .tc := ⟨.hbm, 170, rfl⟩
abbrev main_v127 : Ref sig .tc := ⟨.hbm, 171, rfl⟩
abbrev main_v128 : Ref sig .tc := ⟨.hbm, 172, rfl⟩
abbrev main_cst_30 : Ref sig .tc := ⟨.hbm, 173, rfl⟩
abbrev main_call2_v0 : Ref sig .tc := ⟨.hbm, 174, rfl⟩
abbrev main_call2_v1 : Ref sig .tc := ⟨.hbm, 175, rfl⟩
abbrev main_v129 : Ref sig .tc := ⟨.hbm, 176, rfl⟩
abbrev main_c_31 : Ref sig .tc := ⟨.hbm, 177, rfl⟩
abbrev main_v130 : Ref sig .tc := ⟨.hbm, 178, rfl⟩
abbrev main_v131 : Ref sig .tc := ⟨.hbm, 179, rfl⟩
abbrev main_c_32 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_33 : Ref sig .tc := ⟨.hbm, 186, rfl⟩
abbrev main_v137 : Ref sig .tc := ⟨.hbm, 187, rfl⟩
abbrev main_v138 : Ref sig .tc := ⟨.hbm, 188, rfl⟩
abbrev main_c_34 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_35 : Ref sig .tc := ⟨.hbm, 196, rfl⟩
abbrev main_v145 : Ref sig .tc := ⟨.hbm, 197, rfl⟩
abbrev main_v146 : Ref sig .tc := ⟨.hbm, 198, rfl⟩
abbrev main_c_36 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_37 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_call3_cst : Ref sig .tc := ⟨.hbm, 216, rfl⟩
abbrev main_call3_v0 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_38 : Ref sig .tc := ⟨.hbm, 223, rfl⟩
abbrev main_v167 : Ref sig .tc := ⟨.hbm, 224, rfl⟩
abbrev main_v168 : Ref sig .tc := ⟨.hbm, 225, rfl⟩
abbrev main_cst_39 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_40 : Ref sig .tc := ⟨.hbm, 230, rfl⟩
abbrev main_v172 : Ref sig .tc := ⟨.hbm, 231, rfl⟩
abbrev main_v173 : Ref sig .tc := ⟨.hbm, 232, rfl⟩
abbrev main_cst_41 : Ref sig .tc := ⟨.hbm, 233, rfl⟩
abbrev main_v174 : Ref sig .tc := ⟨.hbm, 234, rfl⟩
abbrev main_v175 : Ref sig .tc := ⟨.hbm, 235, rfl⟩
abbrev main_cst_42 : Ref sig .tc := ⟨.hbm, 236, rfl⟩
abbrev main_call4_v0 : Ref sig .tc := ⟨.hbm, 237, rfl⟩
abbrev main_call4_v1 : Ref sig .tc := ⟨.hbm, 238, rfl⟩
abbrev main_v176 : Ref sig .tc := ⟨.hbm, 239, rfl⟩
abbrev main_c_43 : Ref sig .tc := ⟨.hbm, 240, rfl⟩
abbrev main_v177 : Ref sig .tc := ⟨.hbm, 241, rfl⟩
abbrev main_v178 : Ref sig .tc := ⟨.hbm, 242, rfl⟩
abbrev main_c_44 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_c_45 : Ref sig .tc := ⟨.hbm, 249, rfl⟩
abbrev main_v184 : Ref sig .tc := ⟨.hbm, 250, rfl⟩
abbrev main_v185 : Ref sig .tc := ⟨.hbm, 251, rfl⟩
abbrev main_c_46 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_c_47 : Ref sig .tc := ⟨.hbm, 259, rfl⟩
abbrev main_v192 : Ref sig .tc := ⟨.hbm, 260, rfl⟩
abbrev main_v193 : Ref sig .tc := ⟨.hbm, 261, rfl⟩
abbrev main_c_48 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_49 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_cst_50 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_cst_51 : Ref sig .tc := ⟨.hbm, 286, rfl⟩
abbrev main_v215 : Ref sig .tc := ⟨.hbm, 287, rfl⟩
abbrev main_v216 : Ref sig .tc := ⟨.hbm, 288, rfl⟩
abbrev main_call5_v0 : Ref sig .tc := ⟨.hbm, 289, rfl⟩
abbrev main_call5_cst : Ref sig .tc := ⟨.hbm, 290, rfl⟩
abbrev main_call5_v1 : Ref sig .tc := ⟨.hbm, 291, rfl⟩
abbrev main_call5_v2 : Ref sig .tc := ⟨.hbm, 292, rfl⟩
abbrev main_v217 : Ref sig .tc := ⟨.hbm, 293, rfl⟩
abbrev main_cst_52 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  bcast_S_S262144 : S_.BroadcastsInDim S262144 (![] : Fin 0 → Fin S262144.rank)
  slices_S8x512x512_S1x512x512_0_0_0 : S8x512x512.Slices ![0, 0, 0] S1x512x512
  shapeCasts_S1x512x512_S512x512 : S1x512x512.ShapeCasts S512x512
  slices_S8x512x512_S1x512x512_1_0_0 : S8x512x512.Slices ![1, 0, 0] S1x512x512
  slices_S8x512x512_S1x512x512_2_0_0 : S8x512x512.Slices ![2, 0, 0] S1x512x512
  slices_S8x512x512_S1x512x512_3_0_0 : S8x512x512.Slices ![3, 0, 0] S1x512x512
  slices_S8x512x512_S1x512x512_4_0_0 : S8x512x512.Slices ![4, 0, 0] S1x512x512
  slices_S8x512x512_S1x512x512_5_0_0 : S8x512x512.Slices ![5, 0, 0] S1x512x512
  slices_S8x512x512_S1x512x512_6_0_0 : S8x512x512.Slices ![6, 0, 0] S1x512x512
  slices_S8x512x512_S1x512x512_7_0_0 : S8x512x512.Slices ![7, 0, 0] S1x512x512
  concatenates_S262144_S262144_S262144_S262144_S262144_S262144_S262144_S262144_S2097152_d0 : Shape.Concatenates [S262144, S262144, S262144, S262144, S262144, S262144, S262144, S262144] S2097152 0
  shapeCasts_S512x3_S1x512x1x3 : S512x3.ShapeCasts S1x512x1x3
  bcast_S1x512x1x3_S8x512x1x3_0_1_2_3 : S1x512x1x3.BroadcastsInDim S8x512x1x3 (![0, 1, 2, 3] : Fin 4 → Fin S8x512x1x3.rank)
  shapeCasts_S8x512x1x3_S4096x3 : S8x512x1x3.ShapeCasts S4096x3
  concatenates_S2097152_S4096_S2101248_d0 : Shape.Concatenates [S2097152, S4096] S2101248 0
  bcast_S_S4096 : S_.BroadcastsInDim S4096 (![] : Fin 0 → Fin S4096.rank)
  bcast_S2101248_S2101248x1_0 : S2101248.BroadcastsInDim S2101248x1 (![0] : Fin 1 → Fin S2101248x1.rank)
  bcast_S_S2101248 : S_.BroadcastsInDim S2101248 (![] : Fin 0 → Fin S2101248.rank)
  bcast_S2101248x1_S2101248x16_0_1 : S2101248x1.BroadcastsInDim S2101248x16 (![0, 1] : Fin 2 → Fin S2101248x16.rank)
  bcast_S_S4096x16 : S_.BroadcastsInDim S4096x16 (![] : Fin 0 → Fin S4096x16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S2101248x1_S2101248x32_0_1 : S2101248x1.BroadcastsInDim S2101248x32 (![0, 1] : Fin 2 → Fin S2101248x32.rank)
  bcast_S_S4096x32 : S_.BroadcastsInDim S4096x32 (![] : Fin 0 → Fin S4096x32.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S2101248x1_S2101248x64_0_1 : S2101248x1.BroadcastsInDim S2101248x64 (![0, 1] : Fin 2 → Fin S2101248x64.rank)
  bcast_S_S4096x64 : S_.BroadcastsInDim S4096x64 (![] : Fin 0 → Fin S4096x64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S8_S8x512_0 : S8.BroadcastsInDim S8x512 (![0] : Fin 1 → Fin S8x512.rank)
  shapeCasts_S8x512_S4096 : S8x512.ShapeCasts S4096
  bcast_S_S8x64 : S_.BroadcastsInDim S8x64 (![] : Fin 0 → Fin S8x64.rank)
  bcast_S4096_S4096x1_0 : S4096.BroadcastsInDim S4096x1 (![0] : Fin 1 → Fin S4096x1.rank)
  reducesTo_S8x64_S8_d1 : S8x64.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  dot_S4096x3_S3x16_S4096x16_1_0_0_1_n_n_wf : DotDims.WF S4096x3 S3x16 S4096x16 [1] [0] [0] [1] [] []
  scatter_S4096_S2101248x1_S2101248_n_0_0_1_wf : ScatterDims.WF S4096 S2101248x1 S2101248 [] [0] [0] 1
  gather_S4096_S2101248x1_S2101248_n_0_n_n_0_1_1_wf : GatherDims.WF S4096 S2101248x1 S2101248 [] [0] [] [0] [] 1 ![1]
  gather_S4096x16_S2101248x1_S2101248x16_1_0_n_n_0_1_116_wf : GatherDims.WF S4096x16 S2101248x1 S2101248x16 [1] [0] [] [0] [] 1 ![1, 16]
  scatter_S4096x16_S2101248x1_S2101248x16_1_0_0_1_wf : ScatterDims.WF S4096x16 S2101248x1 S2101248x16 [1] [0] [0] 1
  dot_S4096x16_S16x32_S4096x32_1_0_0_1_n_n_wf : DotDims.WF S4096x16 S16x32 S4096x32 [1] [0] [0] [1] [] []
  gather_S4096x32_S2101248x1_S2101248x32_1_0_n_n_0_1_132_wf : GatherDims.WF S4096x32 S2101248x1 S2101248x32 [1] [0] [] [0] [] 1 ![1, 32]
  scatter_S4096x32_S2101248x1_S2101248x32_1_0_0_1_wf : ScatterDims.WF S4096x32 S2101248x1 S2101248x32 [1] [0] [0] 1
  dot_S4096x32_S32x64_S4096x64_1_0_0_1_n_n_wf : DotDims.WF S4096x32 S32x64 S4096x64 [1] [0] [0] [1] [] []
  gather_S4096x64_S2101248x1_S2101248x64_1_0_n_n_0_1_164_wf : GatherDims.WF S4096x64 S2101248x1 S2101248x64 [1] [0] [] [0] [] 1 ![1, 64]
  scatter_S4096x64_S2101248x1_S2101248x64_1_0_0_1_wf : ScatterDims.WF S4096x64 S2101248x1 S2101248x64 [1] [0] [0] 1
  scatter_S8x64_S4096x1_S4096x64_1_0_0_1_wf : ScatterDims.WF S8x64 S4096x1 S4096x64 [1] [0] [0] 1

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def scatter_S4096_S2101248x1_S2101248_n_0_0_1 : ScatterDims S4096 S2101248x1 S2101248 where
  updateWindowDims := []
  insertedWindowDims := [0]
  scatterDimsToOperandDims := [0]
  indexVectorDim := 1
  wf := scatter_S4096_S2101248x1_S2101248_n_0_0_1_wf
def gather_S4096_S2101248x1_S2101248_n_0_n_n_0_1_1 : GatherDims S4096 S2101248x1 S2101248 where
  offsetDims := []
  collapsedSliceDims := [0]
  operandBatchingDims := []
  startIndicesBatchingDims := []
  startIndexMap := [0]
  indexVectorDim := 1
  sliceSizes := ![1]
  wf := gather_S4096_S2101248x1_S2101248_n_0_n_n_0_1_1_wf
def gather_S4096x16_S2101248x1_S2101248x16_1_0_n_n_0_1_116 : GatherDims S4096x16 S2101248x1 S2101248x16 where
  offsetDims := [1]
  collapsedSliceDims := [0]
  operandBatchingDims := []
  startIndicesBatchingDims := []
  startIndexMap := [0]
  indexVectorDim := 1
  sliceSizes := ![1, 16]
  wf := gather_S4096x16_S2101248x1_S2101248x16_1_0_n_n_0_1_116_wf
def scatter_S4096x16_S2101248x1_S2101248x16_1_0_0_1 : ScatterDims S4096x16 S2101248x1 S2101248x16 where
  updateWindowDims := [1]
  insertedWindowDims := [0]
  scatterDimsToOperandDims := [0]
  indexVectorDim := 1
  wf := scatter_S4096x16_S2101248x1_S2101248x16_1_0_0_1_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def gather_S4096x32_S2101248x1_S2101248x32_1_0_n_n_0_1_132 : GatherDims S4096x32 S2101248x1 S2101248x32 where
  offsetDims := [1]
  collapsedSliceDims := [0]
  operandBatchingDims := []
  startIndicesBatchingDims := []
  startIndexMap := [0]
  indexVectorDim := 1
  sliceSizes := ![1, 32]
  wf := gather_S4096x32_S2101248x1_S2101248x32_1_0_n_n_0_1_132_wf
def scatter_S4096x32_S2101248x1_S2101248x32_1_0_0_1 : ScatterDims S4096x32 S2101248x1 S2101248x32 where
  updateWindowDims := [1]
  insertedWindowDims := [0]
  scatterDimsToOperandDims := [0]
  indexVectorDim := 1
  wf := scatter_S4096x32_S2101248x1_S2101248x32_1_0_0_1_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def gather_S4096x64_S2101248x1_S2101248x64_1_0_n_n_0_1_164 : GatherDims S4096x64 S2101248x1 S2101248x64 where
  offsetDims := [1]
  collapsedSliceDims := [0]
  operandBatchingDims := []
  startIndicesBatchingDims := []
  startIndexMap := [0]
  indexVectorDim := 1
  sliceSizes := ![1, 64]
  wf := gather_S4096x64_S2101248x1_S2101248x64_1_0_n_n_0_1_164_wf
def scatter_S4096x64_S2101248x1_S2101248x64_1_0_0_1 : ScatterDims S4096x64 S2101248x1 S2101248x64 where
  updateWindowDims := [1]
  insertedWindowDims := [0]
  scatterDimsToOperandDims := [0]
  indexVectorDim := 1
  wf := scatter_S4096x64_S2101248x1_S2101248x64_1_0_0_1_wf
def scatter_S8x64_S4096x1_S4096x64_1_0_0_1 : ScatterDims S8x64 S4096x1 S4096x64 where
  updateWindowDims := [1]
  insertedWindowDims := [0]
  scatterDimsToOperandDims := [0]
  indexVectorDim := 1
  wf := scatter_S8x64_S4096x1_S4096x64_1_0_0_1_wf

class Facts : Prop extends Facts₀ where

variable [Facts]
-- ==== Proof.KVec.lean ====
/-
  The body of the idealized kernel, graph by graph.

  One grid point holds four adjacency blocks.  For one 512 × 512 block `a` the body forms the column sums plus one (the
  degrees), their inverse square roots `d` where positive, and then: the first propagation
  `max (d · (aᵀ u + u) + b, 0)` of the pre-scaled features `u = d · y`, the second one of `u = d · (h W)`, the pooling
  weights `w = d · (a d + d)`, and the 32 weighted column sums `t = ∑ r, w r · h r`.  The four rows `t` are stacked,
  multiplied by the last weight matrix, divided by 512, shifted by the last bias and scaled to unit length.  The four
  graphs' operations are interleaved in the program text; here they are collected as one function of the block, used four
  times.
-/
import proofs.«181092_g44908178047564_cont_sun_c4_353_28_alg».proof.Proof.Gen.KernelIdeal.Frame

noncomputable section

namespace Cert.KernelIdeal.KVec

open Idealize.ShloMosaic Idealize.SL.Sem Cert.KernelIdeal Cert.KernelIdeal.Gen

variable {F : FTy → Type} [FloatOps F]

/-- The inverse square roots of the degrees of a block, as a column: column sums, plus one, `rsqrt` where positive. -/
def dinv (a : FVec F S512x512 .f32) : FVec F S512x1 .f32 :=
  have s : FVec F S512x1 .f32 :=
    addf (shapeCast S512x1 (multiReduction .add [0] S512 a 0x00000000#32 reduces_S512x512_S512 (.inl rfl) rfl) shapeCasts_S512_S512x1)
      (broadcast S512x1 (Scalar.ofBits .f32 0x3F800000#32))
  select (cmpf .ogt s (broadcast S512x1 (Scalar.ofBits .f32 0x00000000#32))) (rsqrt s)
    (broadcast S512x1 (Scalar.ofBits .f32 0x00000000#32))

/-- The node features times the first weight matrix. -/
def y0 (x : Vec F S512x3 .f32) (w1 : Vec F S3x16 .f32) : FVec F S512x16 .f32 :=
  matmul dot_S512x3_S3x16_S512x16_1_0_0_1_n_n none x w1 (constant S512x16 .f32 0x00000000#32)

/-- A column `d` times a 16-wide matrix, row by row. -/
def scale16 (d : FVec F S512x1 .f32) (y : FVec F S512x16 .f32) : FVec F S512x16 .f32 :=
  mulf (broadcastTo S512x16 d broadcasts_S512x1_S512x16) y

/-- One propagation of 16-wide pre-scaled features `u`: `max (d · (aᵀ u + u) + b, 0)`. -/
def prop16 (a : FVec F S512x512 .f32) (d : FVec F S512x1 .f32) (u : FVec F S512x16 .f32) (b : Vec F S1x16 .f32) :
    FVec F S512x16 .f32 :=
  maximumf
    (addf
      (mulf (broadcastTo S512x16 d broadcasts_S512x1_S512x16)
        (addf (matmul dot_S512x512_S512x16_S512x16_0_0_1_1_n_n none a u (constant S512x16 .f32 0x00000000#32)) u))
      (broadcastTo S512x16 (shapeCast S1x16 b shapeCasts_S1x16_S1x16) broadcasts_S1x16_S512x16))
    (broadcast S512x16 (Scalar.ofBits .f32 0x00000000#32))

/-- The first layer on a block. -/
def h1 (a : FVec F S512x512 .f32) (y : FVec F S512x16 .f32) (b1 : Vec F S1x16 .f32) : FVec F S512x16 .f32 :=
  prop16 a (dinv a) (scale16 (dinv a) y) b1

/-- The second layer's pre-scaled features: `d · (h W)`. -/
def u2 (d : FVec F S512x1 .f32) (h : FVec F S512x16 .f32) (w2 : Vec F S16x32 .f32) : FVec F S512x32 .f32 :=
  mulf (broadcastTo S512x32 d broadcasts_S512x1_S512x32)
    (matmul dot_S512x16_S16x32_S512x32_1_0_0_1_n_n none h w2 (constant S512x32 .f32 0x00000000#32))

/-- One propagation of 32-wide pre-scaled features. -/
def prop32 (a : FVec F S512x512 .f32) (d : FVec F S512x1 .f32) (u : FVec F S512x32 .f32) (b : Vec F S1x32 .f32) :
    FVec F S512x32 .f32 :=
  maximumf
    (addf
      (mulf (broadcastTo S512x32 d broadcasts_S512x1_S512x32)
        (addf (matmul dot_S512x512_S512x32_S512x32_0_0_1_1_n_n none a u (constant S512x32 .f32 0x00000000#32)) u))
      (broadcastTo S512x32 (shapeCast S1x32 b shapeCasts_S1x32_S1x32) broadcasts_S1x32_S512x32))
    (broadcast S512x32 (Scalar.ofBits .f32 0x00000000#32))

/-- The second layer on a block. -/
def h2 (a : FVec F S512x512 .f32) (y : FVec F S512x16 .f32) (b1 : Vec F S1x16 .f32) (w2 : Vec F S16x32 .f32)
    (b2 : Vec F S1x32 .f32) : FVec F S512x32 .f32 :=
  prop32 a (dinv a) (u2 (dinv a) (h1 a y b1) w2) b2

/-- The pooling weights of a block: `d · (a d + d)`. -/
def wcol (a : FVec F S512x512 .f32) : FVec F S512x1 .f32 :=
  mulf (dinv a)
    (addf (matmul dot_S512x512_S512x1_S512x1_1_0_0_1_n_n none a (dinv a) (constant S512x1 .f32 0x00000000#32)) (dinv a))

/-- The weighted column sums of the second layer's output, as one row. -/
def trow (a : FVec F S512x512 .f32) (y : FVec F S512x16 .f32) (b1 : Vec F S1x16 .f32) (w2 : Vec F S16x32 .f32)
    (b2 : Vec F S1x32 .f32) : FVec F S1x32 .f32 :=
  shapeCast S1x32
    (multiReduction .add [0] S32 (mulf (broadcastTo S512x32 (wcol a) broadcasts_S512x1_S512x32) (h2 a y b1 w2 b2))
      0x00000000#32 reduces_S512x32_S32 (.inl rfl) rfl)
    shapeCasts_S32_S1x32

/-- The four rows stacked, times the last weights, over 512, plus the last bias: the pooled means of the four graphs. -/
def pooled (t0 t1 t2 t3 : FVec F S1x32 .f32) (w3 : Vec F S32x64 .f32) (b3 : Vec F S1x64 .f32) : FVec F S4x64 .f32 :=
  addf
    (divf
      (matmul dot_S4x32_S32x64_S4x64_1_0_0_1_n_n none
        (concatenate S4x32 0 [⟨S1x32, t0⟩, ⟨S1x32, t1⟩, ⟨S1x32, t2⟩, ⟨S1x32, t3⟩] concatenates_S1x32_S1x32_S1x32_S1x32_S4x32_d0)
        w3 (constant S4x64 .f32 0x00000000#32))
      (broadcast S4x64 (Scalar.ofBits .f32 0x44000000#32)))
    (broadcastTo S4x64 (shapeCast S1x64 b3 shapeCasts_S1x64_S1x64) broadcasts_S1x64_S4x64)

/-- Rows scaled to unit length, the length bounded below by the small constant. -/
def unitRows (p : FVec F S4x64 .f32) : FVec F S4x1x64 .f32 :=
  shapeCast S4x1x64
    (divf p
      (broadcastTo S4x64
        (maximumf
          (sqrt (shapeCast S4x1 (multiReduction .add [1] S4 (mulf p p) 0x00000000#32 reduces_S4x64_S4 (.inl rfl) rfl) shapeCasts_S4_S4x1))
          (broadcast S4x1 (Scalar.ofBits .f32 0x2B8CBCCC#32)))
        broadcasts_S4x1_S4x64))
    shapeCasts_S4x64_S4x1x64

/-- Block `l` of the four, as a matrix. -/
abbrev blockOf (v : Vec F S1x512x512 .f32) : FVec F S512x512 .f32 := shapeCast S512x512 v shapeCasts_S1x512x512_S512x512

/-- What one grid point stores, as a function of its eight input blocks. -/
def body (x0 : Vec F S4x512x512 .f32) (x1 : Vec F S512x3 .f32) (x2 : Vec F S3x16 .f32) (x3 : Vec F S1x16 .f32)
    (x4 : Vec F S16x32 .f32) (x5 : Vec F S1x32 .f32) (x6 : Vec F S32x64 .f32) (x7 : Vec F S1x64 .f32) : FVec F S4x1x64 .f32 :=
  have y : FVec F S512x16 .f32 := y0 (View.ld x1 r0_0) (View.ld x2 r0_1)
  have t : Vec F S1x512x512 .f32 → FVec F S1x32 .f32 := fun v =>
    trow (blockOf v) y (View.ld x3 r0_6) (View.ld x4 r0_7) (View.ld x5 r0_8)
  unitRows (pooled (t (View.ld x0 r0_2)) (t (View.ld x0 r0_3)) (t (View.ld x0 r0_4)) (t (View.ld x0 r0_5))
    (View.ld x6 r0_9) (View.ld x7 r0_10))

/-- The staging buffer after the body holds `body` of the input blocks. -/
theorem out0_8_eq (x0 : Vec F S4x512x512 .f32) (x1 : Vec F S512x3 .f32) (x2 : Vec F S3x16 .f32) (x3 : Vec F S1x16 .f32)
    (x4 : Vec F S16x32 .f32) (x5 : Vec F S1x32 .f32) (x6 : Vec F S32x64 .f32) (x7 : Vec F S1x64 .f32) :
    out0_8 x0 x1 x2 x3 x4 x5 x6 x7 = View.canon [⟨r0_11, body x0 x1 x2 x3 x4 x5 x6 x7⟩] := rfl

end Cert.KernelIdeal.KVec

end
-- ==== Proof.Spec.lean ====
/-
  The mathematics both programs compute, over the real numbers.

  Eight graphs on 512 nodes each; `a g r c` is the weight of the edge r → c of graph g, and every node also
  carries a self loop of weight one.  A node's degree counts what arrives at it:
  `deg g c = (∑ r, a g r c) + 1`, and `dinv = deg^(-1/2)` where the degree is positive, zero elsewhere.
  One propagation sends features `h` through a weight matrix `W`, sums over the arriving edges with the symmetric
  normalisation `dinv r · dinv c`, adds the self loop's term and a bias.  Two propagations with a positive part, a
  third without, the mean over the nodes of each graph, and each graph's 64 means scaled to unit length (with the
  length bounded below by a small positive `eps`).
-/
import Mathlib.Analysis.SpecialFunctions.Pow.Real
import Mathlib.Analysis.SpecialFunctions.Sqrt

noncomputable section

namespace Cert.Spec

open Finset

variable (a : Fin 8 → Fin 512 → Fin 512 → ℝ)

/-- What arrives at node `c` of graph `g`: the column sum of the adjacency block, and the self loop. -/
def deg (g : Fin 8) (c : Fin 512) : ℝ := (∑ r, a g r c) + 1

/-- The inverse square root of the degree, zero where the degree is not positive. -/
def dinv (g : Fin 8) (c : Fin 512) : ℝ := if 0 < deg a g c then (Real.sqrt (deg a g c))⁻¹ else 0

/-- One normalised propagation on graph `g`: the features `h` times `W`, summed over the edges arriving at `c`
    with weight `a g r c · (dinv r · dinv c)`, plus the self loop's `dinv c · dinv c` share, plus the bias. -/
def conv {Din Dout : ℕ} (h : Fin 512 → Fin Din → ℝ) (W : Fin Din → Fin Dout → ℝ) (b : Fin Dout → ℝ)
    (g : Fin 8) (c : Fin 512) (k : Fin Dout) : ℝ :=
  (∑ r, (∑ j, h r j * W j k) * (a g r c * (dinv a g r * dinv a g c)))
    + (∑ j, h c j * W j k) * (dinv a g c * dinv a g c) + b k

variable (x : Fin 512 → Fin 3 → ℝ) (w1 : Fin 3 → Fin 16 → ℝ) (b1 : Fin 16 → ℝ)
  (w2 : Fin 16 → Fin 32 → ℝ) (b2 : Fin 32 → ℝ) (w3 : Fin 32 → Fin 64 → ℝ) (b3 : Fin 64 → ℝ)

/-- First layer: propagation of the node features, positive part. -/
def h1 (g : Fin 8) (c : Fin 512) (k : Fin 16) : ℝ := max (conv a x w1 b1 g c k) 0

/-- Second layer. -/
def h2 (g : Fin 8) (c : Fin 512) (k : Fin 32) : ℝ := max (conv a (h1 a x w1 b1 g) w2 b2 g c k) 0

/-- Third layer, no positive part. -/
def x3 (g : Fin 8) (c : Fin 512) (o : Fin 64) : ℝ := conv a (h2 a x w1 b1 w2 b2 g) w3 b3 g c o

/-- The mean over the 512 nodes of graph `g`. -/
def pooled (g : Fin 8) (o : Fin 64) : ℝ := (∑ c, x3 a x w1 b1 w2 b2 w3 b3 g c o) / 512

/-- Each graph's means, divided by their Euclidean length bounded below by `eps`. -/
def out (eps : ℝ) (g : Fin 8) (o : Fin 64) : ℝ :=
  pooled a x w1 b1 w2 b2 w3 b3 g o
    / max (Real.sqrt (∑ o', pooled a x w1 b1 w2 b2 w3 b3 g o' * pooled a x w1 b1 w2 b2 w3 b3 g o')) eps

end Cert.Spec

end
-- ==== Proof.KReal.lean ====
/-
  The kernel's arithmetic over the real numbers, and that it is the specification.

  For one adjacency block `a` the kernel scales the features before and after the product with `aᵀ`:
  `d c · ((∑ r, a r c · (d r · y r k)) + d c · y c k) + b k`, which is the edge sum
  `∑ r, y r k · (a r c · (d r · d c)) + y c k · (d c · d c) + b k` with the factor `d c` moved inside.  For the last layer
  only the sum over the nodes is needed: exchanging the two sums turns `∑ c, ∑ r, z r · (a r c · (d r · d c))` into
  `∑ r, z r · d r · (∑ c, a r c · d c)`, so the node sum is `∑ r, z r · w r` with `w r = d r · ((∑ c, a r c · d c) + d r)`,
  the 512 copies of the bias add up to `512 · b`, and dividing by 512 gives the mean.
-/
import proofs.«181092_g44908178047564_cont_sun_c4_353_28_alg».proof.Proof.Spec

noncomputable section

namespace Cert.KReal

open Finset

variable (a : Fin 512 → Fin 512 → ℝ)

/-- Column sum plus one. -/
def deg (c : Fin 512) : ℝ := (∑ r, a r c) + 1

/-- Inverse square root of the degree where positive. -/
def dinv (c : Fin 512) : ℝ := if 0 < deg a c then (Real.sqrt (deg a c))⁻¹ else 0

/-- One propagation of pre-scaled features `u`, positive part. -/
def prop {D : ℕ} (u : Fin 512 → Fin D → ℝ) (b : Fin D → ℝ) (c : Fin 512) (k : Fin D) : ℝ :=
  max (dinv a c * ((∑ r, a r c * u r k) + u c k) + b k) 0

variable (x : Fin 512 → Fin 3 → ℝ) (w1 : Fin 3 → Fin 16 → ℝ) (b1 : Fin 16 → ℝ)
  (w2 : Fin 16 → Fin 32 → ℝ) (b2 : Fin 32 → ℝ) (w3 : Fin 32 → Fin 64 → ℝ) (b3 : Fin 64 → ℝ)

/-- First layer. -/
def h1 : Fin 512 → Fin 16 → ℝ := prop a (fun r k => dinv a r * ∑ j, x r j * w1 j k) b1

/-- Second layer. -/
def h2 : Fin 512 → Fin 32 → ℝ := prop a (fun r k => dinv a r * ∑ j, h1 a x w1 b1 r j * w2 j k) b2

/-- Pooling weights. -/
def w (r : Fin 512) : ℝ := dinv a r * ((∑ c, a r c * dinv a c) + dinv a r)

/-- Weighted column sums of the second layer. -/
def t (j : Fin 32) : ℝ := ∑ r, w a r * h2 a x w1 b1 w2 b2 r j

/-- Pooled means. -/
def pooled (o : Fin 64) : ℝ := (∑ j, t a x w1 b1 w2 b2 j * w3 j o) / 512 + b3 o

/-- Unit rows. -/
def out (eps : ℝ) (o : Fin 64) : ℝ :=
  pooled a x w1 b1 w2 b2 w3 b3 o
    / max (Real.sqrt (∑ o', pooled a x w1 b1 w2 b2 w3 b3 o' * pooled a x w1 b1 w2 b2 w3 b3 o')) eps

end Cert.KReal

namespace Cert.KReal

open Finset

variable (a : Fin 8 → Fin 512 → Fin 512 → ℝ) (g : Fin 8)

theorem deg_eq (c : Fin 512) : deg (a g) c = Cert.Spec.deg a g c := rfl

theorem dinv_eq (c : Fin 512) : dinv (a g) c = Cert.Spec.dinv a g c := rfl

/-- Scaling before and after the product with the block is the normalised edge sum. -/
theorem prop_eq {Din D : ℕ} (h : Fin 512 → Fin Din → ℝ) (W : Fin Din → Fin D → ℝ) (b : Fin D → ℝ) (c : Fin 512) (k : Fin D) :
    prop (a g) (fun r k => dinv (a g) r * ∑ j, h r j * W j k) b c k = max (Cert.Spec.conv a h W b g c k) 0 := by
  unfold prop Cert.Spec.conv
  simp only [dinv_eq]
  congr 1
  rw [mul_add, Finset.mul_sum]
  congr 1
  congr 1
  · exact Finset.sum_congr rfl fun r _ => by ring
  · ring

variable (x : Fin 512 → Fin 3 → ℝ) (w1 : Fin 3 → Fin 16 → ℝ) (b1 : Fin 16 → ℝ)
  (w2 : Fin 16 → Fin 32 → ℝ) (b2 : Fin 32 → ℝ) (w3 : Fin 32 → Fin 64 → ℝ) (b3 : Fin 64 → ℝ)

theorem h1_eq : h1 (a g) x w1 b1 = Cert.Spec.h1 a x w1 b1 g := by
  funext c k
  exact prop_eq a g x w1 b1 c k

theorem h2_eq : h2 (a g) x w1 b1 w2 b2 = Cert.Spec.h2 a x w1 b1 w2 b2 g := by
  funext c k
  unfold h2
  rw [h1_eq]
  exact prop_eq a g (Cert.Spec.h1 a x w1 b1 g) w2 b2 c k

/-- The node sum of the third propagation, through the pooling weights. -/
theorem sum_x3 (o : Fin 64) :
    ∑ c, Cert.Spec.x3 a x w1 b1 w2 b2 w3 b3 g c o = (∑ j, t (a g) x w1 b1 w2 b2 j * w3 j o) + 512 * b3 o := by
  unfold Cert.Spec.x3 Cert.Spec.conv
  rw [Finset.sum_add_distrib, Finset.sum_add_distrib, Finset.sum_const, Finset.card_univ, Fintype.card_fin, nsmul_eq_mul]
  congr 1
  · rw [Finset.sum_comm, ← Finset.sum_add_distrib]
    have ht : ∀ j, t (a g) x w1 b1 w2 b2 j * w3 j o = ∑ r, w (a g) r * h2 (a g) x w1 b1 w2 b2 r j * w3 j o := by
      intro j; unfold t; rw [Finset.sum_mul]
    simp_rw [ht]
    rw [Finset.sum_comm]
    refine Finset.sum_congr rfl fun r _ => ?_
    rw [h2_eq]
    have hz : ∑ j, w (a g) r * Cert.Spec.h2 a x w1 b1 w2 b2 g r j * w3 j o
        = w (a g) r * ∑ j, Cert.Spec.h2 a x w1 b1 w2 b2 g r j * w3 j o := by
      rw [Finset.mul_sum]; exact Finset.sum_congr rfl fun j _ => by ring
    rw [hz]
    unfold w
    simp only [dinv_eq]
    generalize (∑ j, Cert.Spec.h2 a x w1 b1 w2 b2 g r j * w3 j o) = Z
    rw [mul_add, add_mul, Finset.mul_sum, Finset.sum_mul]
    congr 1
    · exact Finset.sum_congr rfl fun c _ => by ring
    · ring

theorem pooled_eq (o : Fin 64) : pooled (a g) x w1 b1 w2 b2 w3 b3 o = Cert.Spec.pooled a x w1 b1 w2 b2 w3 b3 g o := by
  unfold pooled Cert.Spec.pooled
  rw [sum_x3]
  field_simp

theorem out_eq (eps : ℝ) (o : Fin 64) :
    out (a g) x w1 b1 w2 b2 w3 b3 eps o = Cert.Spec.out a x w1 b1 w2 b2 w3 b3 eps g o := by
  unfold out Cert.Spec.out
  simp only [pooled_eq]

end Cert.KReal

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.LibColsDot.lean ====
/-
  A matrix product against a transposed left operand, read at an index.

  The dimension numbers of `[K, a] × [K, b] → [a, b]` — contract the left operand's axis 0 with the right operand's axis 0, no
  batch axis — are those of `lᵀ · r` written without a transpose. On the extended reals the product, read at `(p, q)`, is the
  sum over `k` of `l (k, p) · r (k, q)`: column `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of columns with columns `[K, a] × [K, b] → [a, b]`, over any witness of their
    well-formedness. -/
abbrev colsDot (wf : DotDims.WF ⟨2, ![K, a]⟩ ⟨2, ![K, b]⟩ ⟨2, ![a, b]⟩ [0] [0] [1] [1] [] []) :
    DotDims ⟨2, ![K, a]⟩ ⟨2, ![K, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![K, a]⟩ ⟨2, ![K, b]⟩ ⟨2, ![a, b]⟩ [0] [0] [1] [1] [] [])

/-- Off the contracted axis the left operand is read at the column the result's row names, -/
theorem colsDot_lhs_col (i : (⟨2, ![a, b]⟩ : Shape).Idx) (κ : (colsDot wf).contr.Idx) :
    ((colsDot wf).lhsIdx i κ 1).val = (i 0).val := by
  unfold DotDims.lhsIdx
  rw [dif_neg (show ¬(1 : Fin (Shape.rank ⟨2, ![K, a]⟩)) ∈ (colsDot wf).lhsBatch from List.not_mem_nil),
    dif_pos (show (1 : Fin (Shape.rank ⟨2, ![K, a]⟩)) ∈ (colsDot wf).lhsNonContracting from List.mem_singleton.mpr rfl)]
  rfl

/-- and the right operand at the result's column. -/
theorem colsDot_rhs_col (i : (⟨2, ![a, b]⟩ : Shape).Idx) (κ : (colsDot wf).contr.Idx) :
    ((colsDot wf).rhsIdx i κ 1).val = (i 1).val := by
  unfold DotDims.rhsIdx
  rw [dif_neg (show ¬(1 : Fin (Shape.rank ⟨2, ![K, b]⟩)) ∈ (colsDot wf).rhsBatch from List.not_mem_nil),
    dif_pos (show (1 : Fin (Shape.rank ⟨2, ![K, b]⟩)) ∈ (colsDot wf).rhsNonContracting from List.mem_singleton.mpr rfl)]
  rfl

/-- At result index `(p, q)` and contraction position `k` the left operand is read at `(k, p)`. -/
theorem colsDot_lhsIdx (p : Fin a) (q : Fin b) (k : Fin K) :
    (colsDot wf).lhsIdx (ix2 p q) ((contrEquiv1 (colsDot wf) K rfl rfl).symm k) = ix2 k p :=
  funext fun ax => Fin.ext (by
    match ax with
    | ⟨0, _⟩ =>
      exact ((colsDot wf).lhsIdx_val_of_single rfl _ _).trans (contrEquiv1_symm_val (colsDot wf) K rfl rfl k)
    | ⟨1, _⟩ => exact colsDot_lhs_col wf _ _)

/-- … and the right operand at `(k, q)`. -/
theorem colsDot_rhsIdx (p : Fin a) (q : Fin b) (k : Fin K) :
    (colsDot wf).rhsIdx (ix2 p q) ((contrEquiv1 (colsDot wf) K rfl rfl).symm k) = ix2 k q :=
  funext fun ax => Fin.ext (by
    match ax with
    | ⟨0, _⟩ =>
      exact ((colsDot wf).rhsIdx_val_of_single rfl _ _).trans (contrEquiv1_symm_val (colsDot wf) K rfl rfl k)
    | ⟨1, _⟩ => exact colsDot_rhs_col wf _ _)

/-- The contraction of a product of columns with columns at `(p, q)`, re-indexed by the contracted coordinate. -/
theorem colsDot_sum {φ₁ φ₂ : FTy} (l : FVec Ideal ⟨2, ![K, a]⟩ φ₁) (r : FVec Ideal ⟨2, ![K, b]⟩ φ₂) (p : Fin a) (q : Fin b) :
    (∑ k : (colsDot wf).contr.Idx, l ((colsDot wf).lhsIdx (ix2 p q) k) * r ((colsDot wf).rhsIdx (ix2 p q) k))
      = ∑ k : Fin K, l (ix2 k p) * r (ix2 k q) := by
  rw [← Equiv.sum_comp (contrEquiv1 (colsDot wf) K rfl rfl).symm]
  refine Finset.sum_congr rfl fun k _ => ?_
  rw [colsDot_lhsIdx, colsDot_rhsIdx]

/-- A `tpu.matmul` of columns with columns at `(p, q)`: the accumulator's entry plus the column-by-column sum. -/
theorem matmul_cols_apply {φ₁ φ₂ : FTy} (prec : Option ContractPrecision) (l : FVec Ideal ⟨2, ![K, a]⟩ φ₁)
    (r : FVec Ideal ⟨2, ![K, b]⟩ φ₂) (acc : FVec Ideal ⟨2, ![a, b]⟩ .f32) (p : Fin a) (q : Fin b) :
    FloatOps.matmul (colsDot wf) prec l r acc (ix2 p q) = acc (ix2 p q) + ∑ k : Fin K, l (ix2 k p) * r (ix2 k q) := by
  rw [Ideal.matmul_apply, colsDot_sum]

/-- Into the zero accumulator: the column-by-column sum alone. -/
theorem matmul_cols_zero_apply {φ₁ φ₂ : FTy} (prec : Option ContractPrecision) (l : FVec Ideal ⟨2, ![K, a]⟩ φ₁)
    (r : FVec Ideal ⟨2, ![K, b]⟩ φ₂) (p : Fin a) (q : Fin b) :
    FloatOps.matmul (colsDot wf) prec l r (constant ⟨2, ![a, b]⟩ .f32 0x00000000#32) (ix2 p q)
      = ∑ k : Fin K, l (ix2 k p) * r (ix2 k q) := by
  rw [Ideal.matmul_constant_zero_apply, colsDot_sum]

/-- The host's `dot_general` of columns with columns at `(p, q)`: the same sum. -/
theorem dotGeneral_cols_apply {φ₁ φ₂ : FTy} (prec : Option ContractPrecision) (sched : HostSchedule)
    (l : FVec Ideal ⟨2, ![K, a]⟩ φ₁) (r : FVec Ideal ⟨2, ![K, b]⟩ φ₂) (p : Fin a) (q : Fin b) :
    FloatOps.dotGeneral (colsDot wf) prec sched l r (ix2 p q) = ∑ k : Fin K, l (ix2 k p) * r (ix2 k q) := by
  rw [Ideal.dotGeneral_apply, colsDot_sum]

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.KIdx.lean ====
/-
  The kernel's block functions read at an index, for real data.

  When the adjacency block, the features, the weights and the biases hold real numbers, every intermediate array of the
  body holds real numbers, and at each index it is the coercion of the corresponding real function: the degrees are
  column sums plus one, a matrix product is a finite sum of products, a column or a row spread over a matrix reads the
  column's or the row's entry.
-/
import proofs.«181092_g44908178047564_cont_sun_c4_353_28_alg».proof.Proof.KVec
import proofs.«181092_g44908178047564_cont_sun_c4_353_28_alg».proof.Proof.KReal
import proofs.«181092_g44908178047564_cont_sun_c4_353_28_alg».proof.Proof.LibColSum
import proofs.«181092_g44908178047564_cont_sun_c4_353_28_alg».proof.Proof.LibColsDot
import proofs.«181092_g44908178047564_cont_sun_c4_353_28_alg».proof.Proof.LibMatDot
import proofs.«181092_g44908178047564_cont_sun_c4_353_28_alg».proof.Proof.LibColumn
import proofs.«181092_g44908178047564_cont_sun_c4_353_28_alg».proof.Proof.LibAggLinear
import proofs.«181092_g44908178047564_cont_sun_c4_353_28_alg».proof.Proof.LibNodeMean
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.KIdx

open Idealize.ShloMosaic Idealize.ShloMosaic.ValueIdx Cert.KernelIdeal Cert.KernelIdeal.Gen Cert.Lib
open scoped BigOperators

/-- The word of one. -/
theorem one_word : Ideal.ofBits .f32 0x3F800000#32 = ((1 : ℝ) : EReal) := by
  rw [one_word_f32, EReal.coe_one]

/-- The coercion of the reals commutes with `max`. -/
theorem coe_max' (x y : ℝ) : max (x : EReal) (y : EReal) = ((max x y : ℝ) : EReal) :=
  (EReal.coe_strictMono.monotone.map_max).symm

/-- The inverse square root of a column, entry by entry. -/
theorem rsqrt_apply' {s : Shape} (v : FVec Ideal s .f32) (i : s.Idx) : rsqrt v i = Ideal.rsqrt (v i) := rfl

/-- On a real degree: `rsqrt` where positive, zero elsewhere, is the real inverse square root guarded the same way. -/
theorem dinv_scalar (d : ℝ) :
    Scalar.select (Ideal.cmp .ogt (d : EReal) (0 : EReal)) (Ideal.rsqrt (d : EReal)) (0 : EReal)
      = (((if 0 < d then (Real.sqrt d)⁻¹ else 0 : ℝ)) : EReal) := by
  by_cases h : 0 < d
  · have hc : Ideal.cmp .ogt (d : EReal) (0 : EReal) = 1#1 := by
      simp [Ideal.cmp, h]
    have h1 : ¬ d < 0 := not_lt.mpr h.le
    have h2 : d ≠ 0 := ne_of_gt h
    rw [hc, if_pos h]
    simp [Scalar.select, Ideal.rsqrt_coe, h1, h2]
  · have hc : Ideal.cmp .ogt (d : EReal) (0 : EReal) = 0#1 := by
      simp [Ideal.cmp, h]
    rw [hc, if_neg h]
    simp [Scalar.select]

variable (a : FVec Ideal S512x512 .f32) (ar : Fin 512 → Fin 512 → ℝ)

/-- The degree column of a real block. -/
theorem deg_apply (ha : ∀ r c, a (ix2 r c) = ((ar r c : ℝ) : EReal)) (c : Fin 512) (u : Fin 1) :
    addf (shapeCast S512x1 (multiReduction .add [0] S512 a 0x00000000#32 reduces_S512x512_S512 (.inl rfl) rfl) shapeCasts_S512_S512x1)
      (broadcast S512x1 (Scalar.ofBits .f32 0x3F800000#32)) (ix2 c u) = ((Cert.KReal.deg ar c : ℝ) : EReal) := by
  rw [addf_apply, broadcast_apply, shapeCast_a_a1_apply]
  have hs : multiReduction .add [0] S512 a 0x00000000#32 reduces_S512x512_S512 (.inl rfl) rfl (ix1 c)
      = ((∑ r, ar r c : ℝ) : EReal) := by
    refine (multiReduction_add_cols a _ _ _ _ c).trans ?_
    simp only [ha]
    rw [← ereal_coe_sum]
  rw [hs]
  show _ + Ideal.ofBits .f32 0x3F800000#32 = _
  rw [one_word, ← EReal.coe_add]
  rfl

/-- The inverse-square-root column of a real block. -/
theorem dinv_apply (ha : ∀ r c, a (ix2 r c) = ((ar r c : ℝ) : EReal)) (c : Fin 512) (u : Fin 1) :
    KVec.dinv a (ix2 c u) = ((Cert.KReal.dinv ar c : ℝ) : EReal) := by
  unfold KVec.dinv
  dsimp only
  rw [select_apply, cmpf_apply, rsqrt_apply', deg_apply a ar ha c u, broadcast_apply]
  show Scalar.select (Ideal.cmp .ogt _ (Ideal.ofBits .f32 0x00000000#32)) _ (Ideal.ofBits .f32 0x00000000#32) = _
  rw [Ideal.ofBits_zero_f32]
  exact dinv_scalar _

/-- The node features times the first weights, for real data. -/
theorem y0_apply (x : Vec Ideal S512x3 .f32) (w1 : Vec Ideal S3x16 .f32) (xr : Fin 512 → Fin 3 → ℝ) (w1r : Fin 3 → Fin 16 → ℝ)
    (hx : ∀ r j, x (ix2 r j) = ((xr r j : ℝ) : EReal)) (hw : ∀ j k, w1 (ix2 j k) = ((w1r j k : ℝ) : EReal))
    (r : Fin 512) (k : Fin 16) :
    KVec.y0 x w1 (ix2 r k) = ((∑ j, xr r j * w1r j k : ℝ) : EReal) := by
  unfold KVec.y0
  have e : dot_S512x3_S3x16_S512x16_1_0_0_1_n_n
      = matDot (a := 512) (K := 3) (b := 16) dot_S512x3_S3x16_S512x16_1_0_0_1_n_n_wf := rfl
  rw [e]
  refine (matmul_plain_zero_apply _ none x w1 r k).trans ?_
  simp only [hx, hw, ← EReal.coe_mul]
  rw [← ereal_coe_sum]

variable (d : FVec Ideal S512x1 .f32) (dr : Fin 512 → ℝ)

/-- A real column times a real 16-wide matrix. -/
theorem scale16_apply (hd : ∀ c u, d (ix2 c u) = ((dr c : ℝ) : EReal)) (y : FVec Ideal S512x16 .f32) (yr : Fin 512 → Fin 16 → ℝ)
    (hy : ∀ r k, y (ix2 r k) = ((yr r k : ℝ) : EReal)) (r : Fin 512) (k : Fin 16) :
    KVec.scale16 d y (ix2 r k) = ((dr r * yr r k : ℝ) : EReal) := by
  unfold KVec.scale16
  rw [mulf_apply, broadcastTo_a1_ab_apply, hd, hy, ← EReal.coe_mul]

/-- One 16-wide propagation on real data. -/
theorem prop16_apply (ha : ∀ r c, a (ix2 r c) = ((ar r c : ℝ) : EReal)) (hd : ∀ c u, d (ix2 c u) = ((dr c : ℝ) : EReal))
    (u : FVec Ideal S512x16 .f32) (ur : Fin 512 → Fin 16 → ℝ) (hu : ∀ r k, u (ix2 r k) = ((ur r k : ℝ) : EReal))
    (b : Vec Ideal S1x16 .f32) (br : Fin 16 → ℝ) (hb : ∀ z k, b (ix2 z k) = ((br k : ℝ) : EReal)) (c : Fin 512) (k : Fin 16) :
    KVec.prop16 a d u b (ix2 c k) = ((max (dr c * ((∑ r, ar r c * ur r k) + ur c k) + br k) 0 : ℝ) : EReal) := by
  unfold KVec.prop16
  have e : dot_S512x512_S512x16_S512x16_0_0_1_1_n_n
      = colsDot (K := 512) (a := 512) (b := 16) dot_S512x512_S512x16_S512x16_0_0_1_1_n_n_wf := rfl
  rw [maximumf_apply, addf_apply, mulf_apply, addf_apply, broadcast_apply, broadcastTo_a1_ab_apply,
    broadcastTo_1b_ab_apply, shapeCast_self, e]
  have hm : matmul (colsDot dot_S512x512_S512x16_S512x16_0_0_1_1_n_n_wf) none a u (constant S512x16 .f32 0x00000000#32) (ix2 c k)
      = ∑ r : Fin 512, a (ix2 r c) * u (ix2 r k) := matmul_cols_zero_apply _ none a u c k
  rw [hm]
  show max _ (Ideal.ofBits .f32 0x00000000#32) = _
  rw [Ideal.ofBits_zero_f32]
  simp only [ha, hd, hu, hb, ← EReal.coe_mul]
  rw [← ereal_coe_sum, ← EReal.coe_add, ← EReal.coe_mul, ← EReal.coe_add, ← EReal.coe_zero, coe_max']

/-- The second layer's pre-scaled features on real data. -/
theorem u2_apply (hd : ∀ c u, d (ix2 c u) = ((dr c : ℝ) : EReal)) (h : FVec Ideal S512x16 .f32) (hr : Fin 512 → Fin 16 → ℝ)
    (hh : ∀ r j, h (ix2 r j) = ((hr r j : ℝ) : EReal)) (w2 : Vec Ideal S16x32 .f32) (w2r : Fin 16 → Fin 32 → ℝ)
    (hw : ∀ j k, w2 (ix2 j k) = ((w2r j k : ℝ) : EReal)) (r : Fin 512) (k : Fin 32) :
    KVec.u2 d h w2 (ix2 r k) = ((dr r * ∑ j, hr r j * w2r j k : ℝ) : EReal) := by
  unfold KVec.u2
  have e : dot_S512x16_S16x32_S512x32_1_0_0_1_n_n
      = matDot (a := 512) (K := 16) (b := 32) dot_S512x16_S16x32_S512x32_1_0_0_1_n_n_wf := rfl
  rw [mulf_apply, broadcastTo_a1_ab_apply, e]
  refine (congrArg (fun v : EReal => d (ix2 r 0) * v) (matmul_plain_zero_apply (φ₂ := .f32) _ none h w2 r k)).trans ?_
  simp only [hd, hh, hw, ← EReal.coe_mul]
  rw [← ereal_coe_sum, ← EReal.coe_mul]

/-- One 32-wide propagation on real data. -/
theorem prop32_apply (ha : ∀ r c, a (ix2 r c) = ((ar r c : ℝ) : EReal)) (hd : ∀ c u, d (ix2 c u) = ((dr c : ℝ) : EReal))
    (u : FVec Ideal S512x32 .f32) (ur : Fin 512 → Fin 32 → ℝ) (hu : ∀ r k, u (ix2 r k) = ((ur r k : ℝ) : EReal))
    (b : Vec Ideal S1x32 .f32) (br : Fin 32 → ℝ) (hb : ∀ z k, b (ix2 z k) = ((br k : ℝ) : EReal)) (c : Fin 512) (k : Fin 32) :
    KVec.prop32 a d u b (ix2 c k) = ((max (dr c * ((∑ r, ar r c * ur r k) + ur c k) + br k) 0 : ℝ) : EReal) := by
  unfold KVec.prop32
  have e : dot_S512x512_S512x32_S512x32_0_0_1_1_n_n
      = colsDot (K := 512) (a := 512) (b := 32) dot_S512x512_S512x32_S512x32_0_0_1_1_n_n_wf := rfl
  rw [maximumf_apply, addf_apply, mulf_apply, addf_apply, broadcast_apply, broadcastTo_a1_ab_apply,
    broadcastTo_1b_ab_apply, shapeCast_self, e]
  have hm : matmul (colsDot dot_S512x512_S512x32_S512x32_0_0_1_1_n_n_wf) none a u (constant S512x32 .f32 0x00000000#32) (ix2 c k)
      = ∑ r : Fin 512, a (ix2 r c) * u (ix2 r k) := matmul_cols_zero_apply _ none a u c k
  rw [hm]
  show max _ (Ideal.ofBits .f32 0x00000000#32) = _
  rw [Ideal.ofBits_zero_f32]
  simp only [ha, hd, hu, hb, ← EReal.coe_mul]
  rw [← ereal_coe_sum, ← EReal.coe_add, ← EReal.coe_mul, ← EReal.coe_add, ← EReal.coe_zero, coe_max']

/-- The first layer of a real block. -/
theorem h1_apply (ha : ∀ r c, a (ix2 r c) = ((ar r c : ℝ) : EReal)) (y : FVec Ideal S512x16 .f32) (yr : Fin 512 → Fin 16 → ℝ)
    (hy : ∀ r k, y (ix2 r k) = ((yr r k : ℝ) : EReal)) (b1 : Vec Ideal S1x16 .f32) (b1r : Fin 16 → ℝ)
    (hb : ∀ z k, b1 (ix2 z k) = ((b1r k : ℝ) : EReal)) (c : Fin 512) (k : Fin 16) :
    KVec.h1 a y b1 (ix2 c k)
      = ((Cert.KReal.prop ar (fun r k => Cert.KReal.dinv ar r * yr r k) b1r c k : ℝ) : EReal) := by
  unfold KVec.h1
  exact prop16_apply a ar (KVec.dinv a) (Cert.KReal.dinv ar) ha (dinv_apply a ar ha) (KVec.scale16 (KVec.dinv a) y)
    (fun r k => Cert.KReal.dinv ar r * yr r k) (scale16_apply (KVec.dinv a) (Cert.KReal.dinv ar) (dinv_apply a ar ha) y yr hy)
    b1 b1r hb c k

/-- The second layer of a real block. -/
theorem h2_apply (ha : ∀ r c, a (ix2 r c) = ((ar r c : ℝ) : EReal)) (y : FVec Ideal S512x16 .f32) (yr : Fin 512 → Fin 16 → ℝ)
    (hy : ∀ r k, y (ix2 r k) = ((yr r k : ℝ) : EReal)) (b1 : Vec Ideal S1x16 .f32) (b1r : Fin 16 → ℝ)
    (hb1 : ∀ z k, b1 (ix2 z k) = ((b1r k : ℝ) : EReal)) (w2 : Vec Ideal S16x32 .f32) (w2r : Fin 16 → Fin 32 → ℝ)
    (hw2 : ∀ j k, w2 (ix2 j k) = ((w2r j k : ℝ) : EReal)) (b2 : Vec Ideal S1x32 .f32) (b2r : Fin 32 → ℝ)
    (hb2 : ∀ z k, b2 (ix2 z k) = ((b2r k : ℝ) : EReal)) (c : Fin 512) (k : Fin 32) :
    KVec.h2 a y b1 w2 b2 (ix2 c k)
      = ((Cert.KReal.prop ar (fun r k => Cert.KReal.dinv ar r
          * ∑ j, Cert.KReal.prop ar (fun r k => Cert.KReal.dinv ar r * yr r k) b1r r j * w2r j k) b2r c k : ℝ) : EReal) := by
  unfold KVec.h2
  exact prop32_apply a ar (KVec.dinv a) (Cert.KReal.dinv ar) ha (dinv_apply a ar ha) _ _
    (u2_apply (KVec.dinv a) (Cert.KReal.dinv ar) (dinv_apply a ar ha) (KVec.h1 a y b1) _ (h1_apply a ar ha y yr hy b1 b1r hb1) w2 w2r hw2)
    b2 b2r hb2 c k

/-- The pooling weights of a real block. -/
theorem wcol_apply (ha : ∀ r c, a (ix2 r c) = ((ar r c : ℝ) : EReal)) (r : Fin 512) (u : Fin 1) :
    KVec.wcol a (ix2 r u) = ((Cert.KReal.w ar r : ℝ) : EReal) := by
  unfold KVec.wcol
  have e : dot_S512x512_S512x1_S512x1_1_0_0_1_n_n
      = matDot (a := 512) (K := 512) (b := 1) dot_S512x512_S512x1_S512x1_1_0_0_1_n_n_wf := rfl
  rw [mulf_apply, addf_apply, e]
  have hm : matmul (matDot dot_S512x512_S512x1_S512x1_1_0_0_1_n_n_wf) none a (KVec.dinv a) (constant S512x1 .f32 0x00000000#32) (ix2 r u)
      = ∑ k : Fin 512, a (ix2 r k) * KVec.dinv a (ix2 k u) := matmul_plain_zero_apply _ none a (KVec.dinv a) r u
  rw [hm]
  simp only [ha, dinv_apply a ar ha, ← EReal.coe_mul]
  rw [← ereal_coe_sum, ← EReal.coe_add, ← EReal.coe_mul]
  rfl

/-- The weighted column sums of a real block's second layer. -/
theorem trow_apply (ha : ∀ r c, a (ix2 r c) = ((ar r c : ℝ) : EReal)) (y : FVec Ideal S512x16 .f32) (yr : Fin 512 → Fin 16 → ℝ)
    (hy : ∀ r k, y (ix2 r k) = ((yr r k : ℝ) : EReal)) (b1 : Vec Ideal S1x16 .f32) (b1r : Fin 16 → ℝ)
    (hb1 : ∀ z k, b1 (ix2 z k) = ((b1r k : ℝ) : EReal)) (w2 : Vec Ideal S16x32 .f32) (w2r : Fin 16 → Fin 32 → ℝ)
    (hw2 : ∀ j k, w2 (ix2 j k) = ((w2r j k : ℝ) : EReal)) (b2 : Vec Ideal S1x32 .f32) (b2r : Fin 32 → ℝ)
    (hb2 : ∀ z k, b2 (ix2 z k) = ((b2r k : ℝ) : EReal)) (z : Fin 1) (j : Fin 32) :
    KVec.trow a y b1 w2 b2 (ix2 z j)
      = ((∑ r, Cert.KReal.w ar r * Cert.KReal.prop ar (fun r k => Cert.KReal.dinv ar r
          * ∑ j, Cert.KReal.prop ar (fun r k => Cert.KReal.dinv ar r * yr r k) b1r r j * w2r j k) b2r r j : ℝ) : EReal) := by
  unfold KVec.trow
  rw [shapeCast_a_1a_apply]
  refine (multiReduction_add_cols _ _ _ _ _ j).trans ?_
  simp only [mulf_apply, broadcastTo_a1_ab_apply, wcol_apply a ar ha, h2_apply a ar ha y yr hy b1 b1r hb1 w2 w2r hw2 b2 b2r hb2,
    ← EReal.coe_mul]
  rw [← ereal_coe_sum]

end Cert.KernelIdeal.KIdx

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«181092_g44908178047564_cont_sun_c4_353_28_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.Eps.lean ====
/-
  The small positive bound under the length of a row of means: the number the word `0x2B8CBCCC` denotes,
  `9223372 · 2^(-63)` (the single-precision neighbour of `10^(-12)`).
-/
import Idealize.ShloMosaic.PureOps.Ideal.Laws

noncomputable section

namespace Cert.Eps

open Idealize.ShloMosaic

/-- The lower bound of the length: `(2^23 + 834764) · 2^(87 - 127 - 23)`. -/
def eps : ℝ := 9223372 * (2 : ℝ) ^ (-63 : ℤ)

theorem eps_pos : 0 < eps := by
  unfold eps
  positivity

/-- The word `0x2B8CBCCC` (sign 0, exponent field 87, fraction field 834764) denotes `eps`. -/
theorem eps_word : Ideal.ofBits .f32 0x2B8CBCCC#32 = ((eps : ℝ) : EReal) := by
  unfold eps
  simp [Ideal.ofBits, Ideal.ieee, -EReal.coe_mul]

end Cert.Eps

end
-- ==== Proof.KIdxB.lean ====
/-
  The pooled means, the unit rows and the whole body of one grid point, read at an index for real data.

  The four weighted column-sum rows are stacked; row `l` of the stack is graph `l`'s row.  The pooled mean is the stack
  times the last weights over 512 plus the last bias; a row of real means has a real sum of squares, which is not negative,
  so its square root is real, the bounded length is at least the positive constant, and the quotient is the real quotient.
-/
import proofs.«181092_g44908178047564_cont_sun_c4_353_28_alg».proof.Proof.KIdx
import proofs.«181092_g44908178047564_cont_sun_c4_353_28_alg».proof.Proof.LibRowSum
import proofs.«181092_g44908178047564_cont_sun_c4_353_28_alg».proof.Proof.LibSlabs
import proofs.«181092_g44908178047564_cont_sun_c4_353_28_alg».proof.Proof.Eps

noncomputable section

namespace Cert.KernelIdeal.KIdx

open Idealize.ShloMosaic Idealize.ShloMosaic.ValueIdx Cert.KernelIdeal Cert.KernelIdeal.Gen Cert.Lib
open scoped BigOperators

/-- The word of 512. -/
theorem w512 : Ideal.ofBits .f32 0x44000000#32 = ((512 : ℝ) : EReal) := by
  simp [Ideal.ofBits, Ideal.ieee, -EReal.coe_mul]; norm_num

/-- An `[a, b]` array cast to `[a, 1, b]` reads, at `(p, u, q)`, the operand at `(p, q)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    simp [hu])

/-- Row `l` of the four stacked rows. -/
theorem stack_apply (t0 t1 t2 t3 : FVec Ideal S1x32 .f32) (tr : Fin 4 → Fin 32 → ℝ)
    (h0 : ∀ z j, t0 (ix2 z j) = ((tr 0 j : ℝ) : EReal)) (h1 : ∀ z j, t1 (ix2 z j) = ((tr 1 j : ℝ) : EReal))
    (h2 : ∀ z j, t2 (ix2 z j) = ((tr 2 j : ℝ) : EReal)) (h3 : ∀ z j, t3 (ix2 z j) = ((tr 3 j : ℝ) : EReal))
    (l : Fin 4) (j : Fin 32) :
    concatenate S4x32 0 [⟨S1x32, t0⟩, ⟨S1x32, t1⟩, ⟨S1x32, t2⟩, ⟨S1x32, t3⟩] concatenates_S1x32_S1x32_S1x32_S1x32_S4x32_d0 (ix2 l j)
      = ((tr l j : ℝ) : EReal) := by
  have hi : ∀ (l : Fin 4) (b : Fin S1x32.rank), b.cast (rfl : S1x32.rank = S4x32.rank) ≠ (0 : Fin 2) →
      ((ix2 (0 : Fin 1) j : S1x32.Idx) b).val = ((ix2 l j : S4x32.Idx) (b.cast rfl)).val := by
    intro l b hb
    match b with
    | ⟨0, _⟩ => exact absurd rfl hb
    | ⟨1, _⟩ => rfl
  match l with
  | ⟨0, _⟩ =>
    exact (concatenate_apply_piece (t := S4x32) (0 : Fin 2) [⟨S1x32, t0⟩, ⟨S1x32, t1⟩, ⟨S1x32, t2⟩, ⟨S1x32, t3⟩]
      concatenates_S1x32_S1x32_S1x32_S1x32_S4x32_d0 (ix2 _ j) 0 (by simp) S1x32 t0 rfl rfl 0 rfl (ix2 (0 : Fin 1) j) (hi _) rfl).trans (h0 0 j)
  | ⟨1, _⟩ =>
    exact (concatenate_apply_piece (t := S4x32) (0 : Fin 2) [⟨S1x32, t0⟩, ⟨S1x32, t1⟩, ⟨S1x32, t2⟩, ⟨S1x32, t3⟩]
      concatenates_S1x32_S1x32_S1x32_S1x32_S4x32_d0 (ix2 _ j) 1 (by simp) S1x32 t1 rfl rfl 1 rfl (ix2 (0 : Fin 1) j) (hi _) rfl).trans (h1 0 j)
  | ⟨2, _⟩ =>
    exact (concatenate_apply_piece (t := S4x32) (0 : Fin 2) [⟨S1x32, t0⟩, ⟨S1x32, t1⟩, ⟨S1x32, t2⟩, ⟨S1x32, t3⟩]
      concatenates_S1x32_S1x32_S1x32_S1x32_S4x32_d0 (ix2 _ j) 2 (by simp) S1x32 t2 rfl rfl 2 rfl (ix2 (0 : Fin 1) j) (hi _) rfl).trans (h2 0 j)
  | ⟨3, _⟩ =>
    exact (concatenate_apply_piece (t := S4x32) (0 : Fin 2) [⟨S1x32, t0⟩, ⟨S1x32, t1⟩, ⟨S1x32, t2⟩, ⟨S1x32, t3⟩]
      concatenates_S1x32_S1x32_S1x32_S1x32_S4x32_d0 (ix2 _ j) 3 (by simp) S1x32 t3 rfl rfl 3 rfl (ix2 (0 : Fin 1) j) (hi _) rfl).trans (h3 0 j)

/-- The pooled means of four real rows. -/
theorem pooled_apply (t0 t1 t2 t3 : FVec Ideal S1x32 .f32) (tr : Fin 4 → Fin 32 → ℝ)
    (h0 : ∀ z j, t0 (ix2 z j) = ((tr 0 j : ℝ) : EReal)) (h1 : ∀ z j, t1 (ix2 z j) = ((tr 1 j : ℝ) : EReal))
    (h2 : ∀ z j, t2 (ix2 z j) = ((tr 2 j : ℝ) : EReal)) (h3 : ∀ z j, t3 (ix2 z j) = ((tr 3 j : ℝ) : EReal))
    (w3 : Vec Ideal S32x64 .f32) (w3r : Fin 32 → Fin 64 → ℝ) (hw3 : ∀ j o, w3 (ix2 j o) = ((w3r j o : ℝ) : EReal))
    (b3 : Vec Ideal S1x64 .f32) (b3r : Fin 64 → ℝ) (hb3 : ∀ z o, b3 (ix2 z o) = ((b3r o : ℝ) : EReal))
    (l : Fin 4) (o : Fin 64) :
    KVec.pooled t0 t1 t2 t3 w3 b3 (ix2 l o) = (((∑ j, tr l j * w3r j o) / 512 + b3r o : ℝ) : EReal) := by
  unfold KVec.pooled
  have e : dot_S4x32_S32x64_S4x64_1_0_0_1_n_n
      = matDot (a := 4) (K := 32) (b := 64) dot_S4x32_S32x64_S4x64_1_0_0_1_n_n_wf := rfl
  rw [addf_apply, divf_apply, broadcast_apply, broadcastTo_1b_ab_apply, shapeCast_self, e]
  have hsum : (∑ j : Fin 32, concatenate S4x32 0 [⟨S1x32, t0⟩, ⟨S1x32, t1⟩, ⟨S1x32, t2⟩, ⟨S1x32, t3⟩]
        concatenates_S1x32_S1x32_S1x32_S1x32_S4x32_d0 (ix2 l j) * w3 (ix2 j o))
      = ((∑ j, tr l j * w3r j o : ℝ) : EReal) := by
    simp only [stack_apply t0 t1 t2 t3 tr h0 h1 h2 h3, hw3, ← EReal.coe_mul]
    rw [← ereal_coe_sum]
  refine (congrArg (fun v : EReal => Ideal.div v (Ideal.ofBits .f32 0x44000000#32) + b3 (ix2 0 o))
    ((matmul_plain_zero_apply (φ₂ := .f32) _ none _ w3 l o).trans hsum)).trans ?_
  show Ideal.div _ (Ideal.ofBits .f32 0x44000000#32) + _ = _
  rw [w512, Ideal.div_coe (by norm_num : (512 : ℝ) ≠ 0), hb3, ← EReal.coe_mul, ← EReal.coe_add, mul_one_div]

set_option backward.isDefEq.respectTransparency.types false in
/-- Real rows scaled to unit length. -/
theorem unitRows_apply (p : FVec Ideal S4x64 .f32) (pr : Fin 4 → Fin 64 → ℝ)
    (hp : ∀ l o, p (ix2 l o) = ((pr l o : ℝ) : EReal)) (l : Fin 4) (z : Fin 1) (o : Fin 64) :
    KVec.unitRows p (ix3 l z o)
      = ((pr l o / max (Real.sqrt (∑ o', pr l o' * pr l o')) Cert.Eps.eps : ℝ) : EReal) := by
  unfold KVec.unitRows
  have hne : max (Real.sqrt (∑ o', pr l o' * pr l o')) Cert.Eps.eps ≠ 0 :=
    ne_of_gt (lt_of_lt_of_le Cert.Eps.eps_pos (le_max_right _ _))
  rw [shapeCast_ab_a1b_apply, divf_apply, broadcastTo_a1_ab_apply, maximumf_apply, broadcast_apply]
  show Ideal.div (p (ix2 l o)) (max (Ideal.sqrt (shapeCast S4x1 _ _ (ix2 l (0 : Fin 1)))) (Ideal.ofBits .f32 0x2B8CBCCC#32)) = _
  rw [shapeCast_a_a1_apply, multiReduction_add_rows]
  simp only [mulf_apply, hp, ← EReal.coe_mul]
  rw [← ereal_coe_sum, Ideal.sqrt_coe, if_neg (not_lt.mpr (Finset.sum_nonneg fun o' _ => mul_self_nonneg _)),
    Cert.Eps.eps_word, coe_max', Ideal.div_coe hne, ← EReal.coe_mul, mul_one_div]

end Cert.KernelIdeal.KIdx

end
-- ==== Proof.KBody.lean ====
/-
  One grid point's store, for real data: entry `(l, 0, o)` is graph `l`'s unit-length pooled mean `o`.

  Block `l` of the four adjacency blocks is read through the slab `[l, 0, 0]` of extent `[1, 512, 512]` and cast to a
  matrix; the other seven inputs are read whole.
-/
import proofs.«181092_g44908178047564_cont_sun_c4_353_28_alg».proof.Proof.KIdxB
import proofs.«181092_g44908178047564_cont_sun_c4_353_28_alg».proof.Proof.LibSlabs

noncomputable section

namespace Cert.KernelIdeal.KIdx

open Idealize.ShloMosaic Idealize.ShloMosaic.ValueIdx Cert.KernelIdeal Cert.KernelIdeal.Gen Cert.Lib
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- Block `l` of a stack of four real blocks, as a matrix. -/
theorem block_apply (x0 : Vec Ideal S4x512x512 .f32) (a4 : Fin 4 → Fin 512 → Fin 512 → ℝ)
    (h0 : ∀ (l : Fin 4) r c, x0 (ix3 l r c) = ((a4 l r c : ℝ) : EReal)) {l : ℕ} (hl : l < 4) {off : Fin 3 → ℕ}
    (ho : off = ![l, 0, 0]) (inb : ∀ ax, off ax + (![1, 512, 512] : Fin 3 → ℕ) ax ≤ S4x512x512.size ax) (r c : Fin 512) :
    KVec.blockOf (View.ld x0 (Rect.unit (s := S4x512x512) off ![1, 512, 512] inb)) (ix2 r c) = ((a4 ⟨l, hl⟩ r c : ℝ) : EReal) := by
  unfold KVec.blockOf
  rw [shapeCast_1ab_ab_apply]
  show x0 ((Rect.unit (s := S4x512x512) off ![1, 512, 512] inb).emb (ix3 (0 : Fin 1) r c)) = _
  rw [ld_slab ho inb hl x0 0 r c]
  exact h0 ⟨l, hl⟩ r c

/-- What one grid point stores, for real input blocks. -/
theorem body_apply (x0 : Vec Ideal S4x512x512 .f32) (x1 : Vec Ideal S512x3 .f32) (x2 : Vec Ideal S3x16 .f32)
    (x3 : Vec Ideal S1x16 .f32) (x4 : Vec Ideal S16x32 .f32) (x5 : Vec Ideal S1x32 .f32) (x6 : Vec Ideal S32x64 .f32)
    (x7 : Vec Ideal S1x64 .f32)
    (a4 : Fin 4 → Fin 512 → Fin 512 → ℝ) (xr : Fin 512 → Fin 3 → ℝ) (w1r : Fin 3 → Fin 16 → ℝ) (b1r : Fin 16 → ℝ)
    (w2r : Fin 16 → Fin 32 → ℝ) (b2r : Fin 32 → ℝ) (w3r : Fin 32 → Fin 64 → ℝ) (b3r : Fin 64 → ℝ)
    (h0 : ∀ (l : Fin 4) r c, x0 (ix3 l r c) = ((a4 l r c : ℝ) : EReal))
    (h1 : ∀ r j, x1 (ix2 r j) = ((xr r j : ℝ) : EReal)) (h2 : ∀ j k, x2 (ix2 j k) = ((w1r j k : ℝ) : EReal))
    (h3 : ∀ z k, x3 (ix2 z k) = ((b1r k : ℝ) : EReal)) (h4 : ∀ j k, x4 (ix2 j k) = ((w2r j k : ℝ) : EReal))
    (h5 : ∀ z k, x5 (ix2 z k) = ((b2r k : ℝ) : EReal)) (h6 : ∀ j o, x6 (ix2 j o) = ((w3r j o : ℝ) : EReal))
    (h7 : ∀ z o, x7 (ix2 z o) = ((b3r o : ℝ) : EReal)) (l : Fin 4) (z : Fin 1) (o : Fin 64) :
    KVec.body x0 x1 x2 x3 x4 x5 x6 x7 (ix3 l z o)
      = ((Cert.KReal.out (a4 l) xr w1r b1r w2r b2r w3r b3r Cert.Eps.eps o : ℝ) : EReal) := by
  unfold KVec.body
  dsimp only
  simp only [r0_0, r0_1, r0_6, r0_7, r0_8, r0_9, r0_10, View.ld_unit_zero (S := S512x3) hz2, View.ld_unit_zero (S := S3x16) hz2,
    View.ld_unit_zero (S := S1x16) hz2, View.ld_unit_zero (S := S16x32) hz2, View.ld_unit_zero (S := S1x32) hz2,
    View.ld_unit_zero (S := S32x64) hz2, View.ld_unit_zero (S := S1x64) hz2]
  have hy := y0_apply x1 x2 xr w1r h1 h2
  have ht : ∀ (k : ℕ) (hk : k < 4) (off : Fin 3 → ℕ) (ho : off = ![k, 0, 0])
      (inb : ∀ ax, off ax + (![1, 512, 512] : Fin 3 → ℕ) ax ≤ S4x512x512.size ax) (z : Fin 1) (j : Fin 32),
      KVec.trow (KVec.blockOf (View.ld x0 (Rect.unit (s := S4x512x512) off ![1, 512, 512] inb))) (KVec.y0 x1 x2) x3 x4 x5 (ix2 z j)
        = ((Cert.KReal.t (a4 ⟨k, hk⟩) xr w1r b1r w2r b2r j : ℝ) : EReal) := by
    intro k hk off ho inb z j
    exact trow_apply _ (a4 ⟨k, hk⟩) (block_apply x0 a4 h0 hk ho inb) (KVec.y0 x1 x2) _ hy x3 b1r h3 x4 w2r h4 x5 b2r h5 z j
  refine (unitRows_apply _ (fun l o => Cert.KReal.pooled (a4 l) xr w1r b1r w2r b2r w3r b3r o) (fun l' o' => ?_) l z o).trans rfl
  exact pooled_apply _ _ _ _ (fun l j => Cert.KReal.t (a4 l) xr w1r b1r w2r b2r j)
    (ht 0 (by norm_num) _ rfl _) (ht 1 (by norm_num) _ rfl _) (ht 2 (by norm_num) _ rfl _) (ht 3 (by norm_num) _ rfl _)
    x6 w3r h6 x7 b3r h7 l' o'

end Cert.KernelIdeal.KIdx

end
-- ==== Proof.KValue.lean ====
/-
  The idealized kernel's run, read for real inputs: its result array holds the specification.

  Grid point `t` of two works on graphs `4t .. 4t+3`: its adjacency block is rows `4t .. 4t+3` of the stack of eight, the
  other inputs are whole arrays (the three biases laid as one-row matrices before the launch), and it writes back rows
  `4t .. 4t+3` of the `[8, 1, 64]` output.  The two blocks tile the output, so after the run entry `(g, 0, o)` is graph `g`'s
  unit-length pooled mean `o`; the reshape after the launch drops the middle axis.
-/
import proofs.«181092_g44908178047564_cont_sun_c4_353_28_alg».proof.Proof.KBody
import Idealize.ShloMosaic.Lib.Pipeline.Value
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.KIdx Cert.Lib
open Idealize.ShloMosaic.Pipeline (Dat Cfg Window)

variable (m : (ℓ : Loc nD τ sig) → Buf (Elt Ideal) ℓ) (ρ : Dev nD → PrngReg)

/-- Real contents of the eight argument arrays on one core. -/
structure RealArgs (c : Dev nD) where
  a : Fin 8 → Fin 512 → Fin 512 → ℝ
  x : Fin 512 → Fin 3 → ℝ
  w1 : Fin 3 → Fin 16 → ℝ
  b1 : Fin 16 → ℝ
  w2 : Fin 16 → Fin 32 → ℝ
  b2 : Fin 32 → ℝ
  w3 : Fin 32 → Fin 64 → ℝ
  b3 : Fin 64 → ℝ
  ha : ∀ g r cc, (m ((c : Thread nD τ).loc main_arg0) : S8x512x512.Idx → EReal) (ix3 g r cc) = ((a g r cc : ℝ) : EReal)
  hx : ∀ r j, (m ((c : Thread nD τ).loc main_arg1) : S512x3.Idx → EReal) (ix2 r j) = ((x r j : ℝ) : EReal)
  hw1 : ∀ j k, (m ((c : Thread nD τ).loc main_arg2) : S3x16.Idx → EReal) (ix2 j k) = ((w1 j k : ℝ) : EReal)
  hb1 : ∀ k, (m ((c : Thread nD τ).loc main_arg3) : S16.Idx → EReal) (ix1 k) = ((b1 k : ℝ) : EReal)
  hw2 : ∀ j k, (m ((c : Thread nD τ).loc main_arg4) : S16x32.Idx → EReal) (ix2 j k) = ((w2 j k : ℝ) : EReal)
  hb2 : ∀ k, (m ((c : Thread nD τ).loc main_arg5) : S32.Idx → EReal) (ix1 k) = ((b2 k : ℝ) : EReal)
  hw3 : ∀ j k, (m ((c : Thread nD τ).loc main_arg6) : S32x64.Idx → EReal) (ix2 j k) = ((w3 j k : ℝ) : EReal)
  hb3 : ∀ k, (m ((c : Thread nD τ).loc main_arg7) : S64.Idx → EReal) (ix1 k) = ((b3 k : ℝ) : EReal)

variable {m}

/-- The specification laid out as the `[8, 1, 64]` output array. -/
def G3 {c : Dev nD} (R : RealArgs m c) : S8x1x64.Idx → EReal :=
  fun i => ((Cert.Spec.out R.a R.x R.w1 R.b1 R.w2 R.b2 R.w3 R.b3 Cert.Eps.eps (i 0) (i 2) : ℝ) : EReal)

/-- The specification laid out as the `[8, 64]` result. -/
def G2 {c : Dev nD} (R : RealArgs m c) : S8x64.Idx → EReal :=
  fun i => ((Cert.Spec.out R.a R.x R.w1 R.b1 R.w2 R.b2 R.w3 R.b3 Cert.Eps.eps (i 0) (i 1) : ℝ) : EReal)

variable (m)

/-- The printed index maps over the two grid points: the adjacency and output windows move with the point along
    their first axis, every other window stays at the origin. -/
theorem idx_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The bias rows as the region finds them: the host's reshapes of the bias vectors. -/
theorem V_b1 (c : Dev nD) : (V m c main_call0_v0 : S1x16.Idx → EReal)
    = shapeCast S1x16 (m ((c : Thread nD τ).loc main_arg3) : S16.Idx → EReal) shapeCasts_S16_S1x16 := by
  show StableHlo.after hostOps0 (fun b => m (c, b)) (Proc.devRef .tc main_call0_v0) = _
  after_results
  rfl

theorem V_b2 (c : Dev nD) : (V m c main_call0_v1 : S1x32.Idx → EReal)
    = shapeCast S1x32 (m ((c : Thread nD τ).loc main_arg5) : S32.Idx → EReal) shapeCasts_S32_S1x32 := by
  show StableHlo.after hostOps0 (fun b => m (c, b)) (Proc.devRef .tc main_call0_v1) = _
  after_results
  rfl

theorem V_b3 (c : Dev nD) : (V m c main_call0_v2 : S1x64.Idx → EReal)
    = shapeCast S1x64 (m ((c : Thread nD τ).loc main_arg7) : S64.Idx → EReal) shapeCasts_S64_S1x64 := by
  show StableHlo.after hostOps0 (fun b => m (c, b)) (Proc.devRef .tc main_call0_v2) = _
  after_results
  rfl

/-- An `[a, 1, b]` array cast to `[a, b]` reads, at `(p, q)`, the operand at `(p, 0, q)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + (0 : Fin 1).val) * b + q.val = p.val * b + q.val
    simp)

/-- WHAT POINT `t` WRITES BACK is block `t` of the specification. -/
theorem flushed_eq (c : Dev nD) (R : RealArgs m c) (t : Fin cfg0.N) :
    (dats m 0 c).flushed 8 t = ((cfg0.win 8).blk t).view.read (Elt Ideal) (G3 R) := by
  show (cfg0.win 8).cut (grid0.coords t) ((dats m 0 c).after 8 t) = _
  rw [after0_8, KVec.out0_8_eq, View.canon_unit_zero hz3]
  obtain ⟨e00, e01, e02, e80, e81, e82, e10, e11, e20, e21, e30, e31, e40, e41, e50, e51, e60, e61, e70, e71⟩ := idx_facts t
  have ht : t.val < 2 := t.isLt
  funext j
  obtain ⟨l, z, o, rfl⟩ : ∃ (l : Fin 4) (z : Fin 1) (o : Fin 64), j = ix3 l z o := ⟨j 0, j 1, j 2, eq_ix3 j⟩
  have hg : ∀ l : Fin 4, 4 * t.val + l.val < 8 := fun l => by have := l.isLt; omega
  refine (body_apply (iblk m c 0 t) (iblk m c 1 t) (iblk m c 2 t) (iblk m c 3 t) (iblk m c 4 t) (iblk m c 5 t) (iblk m c 6 t)
    (iblk m c 7 t) (fun l r cc => R.a ⟨4 * t.val + l.val, hg l⟩ r cc) R.x R.w1 R.b1 R.w2 R.b2 R.w3 R.b3
    ?_ ?_ ?_ ?_ ?_ ?_ ?_ ?_ l z o).trans ?_
  · intro l r cc
    show V m c main_arg0 (((cfg0.win 0).blk t).view.emb (ix3 l r cc)) = _
    have he : ((cfg0.win 0).blk t).view.emb (ix3 l r cc) = ix3 (⟨4 * t.val + l.val, hg l⟩ : Fin 8) r cc := by
      funext a; apply Fin.ext
      match a with
      | ⟨0, _⟩ => show win0_0.index t (0 : Fin 3) * 4 + 1 * l.val = 4 * t.val + l.val; omega
      | ⟨1, _⟩ => show win0_0.index t (1 : Fin 3) * 512 + 1 * r.val = r.val; omega
      | ⟨2, _⟩ => show win0_0.index t (2 : Fin 3) * 512 + 1 * cc.val = cc.val; omega
    rw [he, V_main_arg0]
    exact R.ha _ r cc
  · intro r j
    show V m c main_arg1 (((cfg0.win 1).blk t).view.emb (ix2 r j)) = _
    have he : ((cfg0.win 1).blk t).view.emb (ix2 r j) = ix2 r j := by
      funext a; apply Fin.ext
      match a with
      | ⟨0, _⟩ => show win0_1.index t (0 : Fin 2) * 512 + 1 * r.val = r.val; omega
      | ⟨1, _⟩ => show win0_1.index t (1 : Fin 2) * 3 + 1 * j.val = j.val; omega
    rw [he, V_main_arg1]
    exact R.hx r j
  · intro j k
    show V m c main_arg2 (((cfg0.win 2).blk t).view.emb (ix2 j k)) = _
    have he : ((cfg0.win 2).blk t).view.emb (ix2 j k) = ix2 j k := by
      funext a; apply Fin.ext
      match a with
      | ⟨0, _⟩ => show win0_2.index t (0 : Fin 2) * 3 + 1 * j.val = j.val; omega
      | ⟨1, _⟩ => show win0_2.index t (1 : Fin 2) * 16 + 1 * k.val = k.val; omega
    rw [he, V_main_arg2]
    exact R.hw1 j k
  · intro z k
    show V m c main_call0_v0 (((cfg0.win 3).blk t).view.emb (ix2 z k)) = _
    have he : ((cfg0.win 3).blk t).view.emb (ix2 z k) = ix2 z k := by
      funext a; apply Fin.ext
      match a with
      | ⟨0, _⟩ => show win0_3.index t (0 : Fin 2) * 1 + 1 * z.val = z.val; omega
      | ⟨1, _⟩ => show win0_3.index t (1 : Fin 2) * 16 + 1 * k.val = k.val; omega
    rw [he]
    refine (congrFun (V_b1 m c) (ix2 z k)).trans ?_
    rw [shapeCast_a_1a_apply]
    exact R.hb1 k
  · intro j k
    show V m c main_arg4 (((cfg0.win 4).blk t).view.emb (ix2 j k)) = _
    have he : ((cfg0.win 4).blk t).view.emb (ix2 j k) = ix2 j k := by
      funext a; apply Fin.ext
      match a with
      | ⟨0, _⟩ => show win0_4.index t (0 : Fin 2) * 16 + 1 * j.val = j.val; omega
      | ⟨1, _⟩ => show win0_4.index t (1 : Fin 2) * 32 + 1 * k.val = k.val; omega
    rw [he, V_main_arg4]
    exact R.hw2 j k
  · intro z k
    show V m c main_call0_v1 (((cfg0.win 5).blk t).view.emb (ix2 z k)) = _
    have he : ((cfg0.win 5).blk t).view.emb (ix2 z k) = ix2 z k := by
      funext a; apply Fin.ext
      match a with
      | ⟨0, _⟩ => show win0_5.index t (0 : Fin 2) * 1 + 1 * z.val = z.val; omega
      | ⟨1, _⟩ => show win0_5.index t (1 : Fin 2) * 32 + 1 * k.val = k.val; omega
    rw [he]
    refine (congrFun (V_b2 m c) (ix2 z k)).trans ?_
    rw [shapeCast_a_1a_apply]
    exact R.hb2 k
  · intro j k
    show V m c main_arg6 (((cfg0.win 6).blk t).view.emb (ix2 j k)) = _
    have he : ((cfg0.win 6).blk t).view.emb (ix2 j k) = ix2 j k := by
      funext a; apply Fin.ext
      match a with
      | ⟨0, _⟩ => show win0_6.index t (0 : Fin 2) * 32 + 1 * j.val = j.val; omega
      | ⟨1, _⟩ => show win0_6.index t (1 : Fin 2) * 64 + 1 * k.val = k.val; omega
    rw [he, V_main_arg6]
    exact R.hw3 j k
  · intro z k
    show V m c main_call0_v2 (((cfg0.win 7).blk t).view.emb (ix2 z k)) = _
    have he : ((cfg0.win 7).blk t).view.emb (ix2 z k) = ix2 z k := by
      funext a; apply Fin.ext
      match a with
      | ⟨0, _⟩ => show win0_7.index t (0 : Fin 2) * 1 + 1 * z.val = z.val; omega
      | ⟨1, _⟩ => show win0_7.index t (1 : Fin 2) * 64 + 1 * k.val = k.val; omega
    rw [he]
    refine (congrFun (V_b3 m c) (ix2 z k)).trans ?_
    rw [shapeCast_a_1a_apply]
    exact R.hb3 k
  · have he : ((cfg0.win 8).blk t).view.emb (ix3 l z o) = ix3 (⟨4 * t.val + l.val, hg l⟩ : Fin 8) z o := by
      funext a; apply Fin.ext
      match a with
      | ⟨0, _⟩ => show win0_8.index t (0 : Fin 3) * 4 + 1 * l.val = 4 * t.val + l.val; omega
      | ⟨1, _⟩ => show win0_8.index t (1 : Fin 3) * 1 + 1 * z.val = z.val; omega
      | ⟨2, _⟩ => show win0_8.index t (2 : Fin 3) * 64 + 1 * o.val = o.val; omega
    show _ = G3 R (((cfg0.win 8).blk t).view.emb (ix3 l z o))
    rw [he]
    exact congrArg (fun v : ℝ => (v : EReal)) (Cert.KReal.out_eq R.a ⟨4 * t.val + l.val, hg l⟩ R.x R.w1 R.b1 R.w2 R.b2 R.w3 R.b3 Cert.Eps.eps o)

/-- An index of the output array is in point `t`'s block iff each coordinate is in the block's range on its axis. -/
theorem mem_blk (t : Fin cfg0.N) (i : S8x1x64.Idx) :
    i ∈ ((cfg0.win 8).blk t).view.set ↔ ∀ a : Fin 3, win0_8.index t a * S4x1x64.size a ≤ (i a).val
      ∧ (i a).val < win0_8.index t a * S4x1x64.size a + S4x1x64.size a := by
  show i ∈ ((View.whole main_call0_v3).slice (win0_8.rect t)).set ↔ _
  rw [View.set_slice_whole, Rect.mem_set_unit]
  exact Iff.rfl

/-- The two blocks cover the output array: row `g` is in the block of point `g / 4`. -/
theorem cover (i : S8x1x64.Idx) :
    ∃ t : Fin cfg0.N, (cfg0.win 8).flush t = true ∧ i ∈ ((cfg0.win 8).blk t).view.set := by
  have h0 : (i 0).val < 8 := (i 0).isLt
  have h1 : (i 1).val < 1 := (i 1).isLt
  have h2 : (i 2).val < 64 := (i 2).isLt
  have hN : (i 0).val / 4 < cfg0.N := by show (i 0).val / 4 < 2; omega
  refine ⟨⟨(i 0).val / 4, hN⟩, flush0_8 _, ?_⟩
  rw [mem_blk]
  obtain ⟨e00, e01, e02, e80, e81, e82, -⟩ := idx_facts ⟨(i 0).val / 4, hN⟩
  intro a
  match a with
  | ⟨0, _⟩ =>
    show win0_8.index _ (0 : Fin 3) * 4 ≤ (i 0).val ∧ (i 0).val < win0_8.index _ (0 : Fin 3) * 4 + 4
    rw [e80]; show (i 0).val / 4 * 4 ≤ (i 0).val ∧ (i 0).val < (i 0).val / 4 * 4 + 4; omega
  | ⟨1, _⟩ =>
    show win0_8.index _ (1 : Fin 3) * 1 ≤ (i 1).val ∧ (i 1).val < win0_8.index _ (1 : Fin 3) * 1 + 1
    rw [e81]; omega
  | ⟨2, _⟩ =>
    show win0_8.index _ (2 : Fin 3) * 64 ≤ (i 2).val ∧ (i 2).val < win0_8.index _ (2 : Fin 3) * 64 + 64
    rw [e82]; omega

/-- THE OUTPUT ARRAY after the run is the specification. -/
theorem final (c : Dev nD) (R : RealArgs m c) : (dats m 0 c).arrAt 8 cfg0.N = G3 R :=
  (dats m 0 c).arrAt_eq_of_cover 8 (G3 R) (fun t _ => flushed_eq m c R t) cover

/-- The result after the reshape that follows the launch. -/
theorem tail_eq (c : Dev nD) (R : RealArgs m c) :
    Pipeline.afterTail₀ cfgs (dats m) 0 (V0 m) [hostOps1] c main_v0 = G2 R := by
  unfold Pipeline.afterTail₀
  show StableHlo.after hostOps1 _ (Proc.devRef .tc main_v0) = _
  after_results
  have hw := (Pipeline.withArrays_arr spec0 launch0.win.arr_inj c (V0 m c) (fun w => (dats m 0 c).arrAt w cfg0.N) 8).trans (final m c R)
  funext i
  obtain ⟨g, o, rfl⟩ : ∃ (g : Fin 8) (o : Fin 64), i = ix2 g o := ⟨i 0, i 1, eq_ix2 i⟩
  refine (shapeCast_a1b_ab_apply _ _ g o).trans ?_
  exact congrFun hw (ix3 g (0 : Fin 1) o)

/-- THE RUN: the result holds the specification, the arguments end unchanged. -/
theorem run (R : ∀ c : Dev nD, RealArgs m c) :
    θ_run defs (onTc (τ := τ) (main (F := Ideal))) ⟨m, fun _ => 0, ρ⟩ (fun r => ∀ c : Dev nD,
      r.2.mem ((c.tc : Thread nD τ).loc main_v0) = G2 (R c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v0 (Pipeline.mem_restRefs_of main_v0 (by decide) (by decide))).trans (tail_eq m c (R c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.KValue

end
-- ==== Proof.RefRunOf.lean ====
/-
  The reference's run, with its result stated as the specification.

  Every weakly fair execution of the reference terminates with its result buffer at the composed term of the
  arguments and the arguments unchanged; that term is the last stage of the stage-by-stage reading of the program.
  So once the last stage, at every graph g and output feature o, is known to be (the coercion of) the real number
  the specification assigns, the run ends with the result buffer holding the specification, entry by entry.
  Forgetting the result gives the reference's frame claim: it runs and leaves its arguments as they were.
-/
import proofs.«181092_g44908178047564_cont_sun_c4_353_28_alg».proof.Defs
import proofs.«181092_g44908178047564_cont_sun_c4_353_28_alg».proof.Proof.Gen.ReferenceIdeal
import proofs.«181092_g44908178047564_cont_sun_c4_353_28_alg».proof.Proof.Gen.Pre_finite_inputs
import proofs.«181092_g44908178047564_cont_sun_c4_353_28_alg».proof.Proof.Gen.ReferenceIdeal.Run
import proofs.«181092_g44908178047564_cont_sun_c4_353_28_alg».proof.Proof.Gen.ReferenceIdeal.Read
import proofs.«181092_g44908178047564_cont_sun_c4_353_28_alg».proof.Proof.Spec
import proofs.«181092_g44908178047564_cont_sun_c4_353_28_alg».proof.Proof.Eps

noncomputable section

namespace Cert.RefRun

open Idealize.ShloMosaic Idealize.ShloMosaic.TcCoe Idealize.SL.Sem Idealize.ShloMosaic.ValueIdx
open Cert.ReferenceIdeal Cert.ReferenceIdeal.Gen

/-- The reference runs and ends with the specification in its result buffer, given that its last stage is the
    specification at every graph and output feature. -/
theorem ref_run_of_value (m : (ℓ : Loc nD τ sig) → Buf (Elt Ideal) ℓ) (ρ : Dev nD → PrngReg)
    (a : Dev nD → Fin 8 → Fin 512 → Fin 512 → ℝ) (x : Dev nD → Fin 512 → Fin 3 → ℝ)
    (w1 : Dev nD → Fin 3 → Fin 16 → ℝ) (b1 : Dev nD → Fin 16 → ℝ) (w2 : Dev nD → Fin 16 → Fin 32 → ℝ) (b2 : Dev nD → Fin 32 → ℝ)
    (w3 : Dev nD → Fin 32 → Fin 64 → ℝ) (b3 : Dev nD → Fin 64 → ℝ)
    (hv : ∀ (c : Dev nD) (g : Fin 8) (o : Fin 64),
      Read.val_main_v221 (F := Ideal) (m ((c.tc : Thread nD τ).loc main_arg0) : (⟨S8x512x512, .f32⟩ : BufTy).Contents (Elt Ideal)) (m ((c.tc : Thread nD τ).loc main_arg1) : (⟨S512x3, .f32⟩ : BufTy).Contents (Elt Ideal)) (m ((c.tc : Thread nD τ).loc main_arg2) : (⟨S3x16, .f32⟩ : BufTy).Contents (Elt Ideal)) (m ((c.tc : Thread nD τ).loc main_arg3) : (⟨S16, .f32⟩ : BufTy).Contents (Elt Ideal)) (m ((c.tc : Thread nD τ).loc main_arg4) : (⟨S16x32, .f32⟩ : BufTy).Contents (Elt Ideal)) (m ((c.tc : Thread nD τ).loc main_arg5) : (⟨S32, .f32⟩ : BufTy).Contents (Elt Ideal)) (m ((c.tc : Thread nD τ).loc main_arg6) : (⟨S32x64, .f32⟩ : BufTy).Contents (Elt Ideal)) (m ((c.tc : Thread nD τ).loc main_arg7) : (⟨S64, .f32⟩ : BufTy).Contents (Elt Ideal)) (ix2 g o)
        = ((Cert.Spec.out (a c) (x c) (w1 c) (b1 c) (w2 c) (b2 c) (w3 c) (b3 c) Cert.Eps.eps g o : ℝ) : EReal)) :
    θ_run (Cert.ReferenceIdeal.defs (F := Ideal)) (onTc (τ := τ) (Cert.ReferenceIdeal.main (F := Ideal))) ⟨m, fun _ => 0, ρ⟩
      (fun r => ∀ c : Dev nD,
      r.2.mem ((c.tc : Thread nD τ).loc main_v221) = (fun i : S8x64.Idx => ((Cert.Spec.out (a c) (x c) (w1 c) (b1 c) (w2 c) (b2 c) (w3 c) (b3 c) Cert.Eps.eps (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run Cert.ReferenceIdeal.defs _ _).mono (fun _ h c => ⟨(h c).1.trans ((Read.val_main_v221_eq m c).trans ?_), (h c).2⟩)
    (Cert.ReferenceIdeal.Value.run (F := Ideal) m ρ)
  funext i
  obtain ⟨g, o, rfl⟩ : ∃ (g : Fin 8) (o : Fin 64), i = ix2 g o := ⟨i 0, i 1, eq_ix2 i⟩
  exact hv c g o

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.RefRun

end
-- ==== Proof.EdgeDefs.lean ====
/-
  The reference's explicit edge list, as plain numbers.

  There are 8 · 512 · 512 = 2097152 grid edges followed by 4096 self loops, 2101248 in all.  Grid edge number
  `g · 262144 + r · 512 + c` runs from node `g · 512 + r` to node `g · 512 + c` of the 4096 batched nodes (graph `g`,
  local nodes `r` → `c`); self loop number `2097152 + p` runs from node `p` to itself.
-/
import Mathlib.Data.Fin.Basic
import Mathlib.Tactic

namespace Cert.Edges

/-- The grid edge r → c of graph g. -/
def edge (g : Fin 8) (r c : Fin 512) : Fin 2101248 := ⟨g.val * 262144 + r.val * 512 + c.val, by omega⟩

/-- The self loop at batched node p. -/
def loop (p : Fin 4096) : Fin 2101248 := ⟨2097152 + p.val, by omega⟩

/-- Batched node number of local node c of graph g. -/
def node (g : Fin 8) (c : Fin 512) : Fin 4096 := ⟨g.val * 512 + c.val, by omega⟩

/-- The node an edge leaves. -/
def srcNat (e : Fin 2101248) : ℕ :=
  if e.val < 2097152 then e.val / 262144 * 512 + e.val / 512 % 512 else e.val - 2097152

/-- The node an edge arrives at. -/
def tgtNat (e : Fin 2101248) : ℕ :=
  if e.val < 2097152 then e.val / 262144 * 512 + e.val % 512 else e.val - 2097152

theorem srcNat_lt (e : Fin 2101248) : srcNat e < 4096 := by
  unfold srcNat; split <;> omega

theorem tgtNat_lt (e : Fin 2101248) : tgtNat e < 4096 := by
  unfold tgtNat; split <;> omega

@[simp] theorem srcNat_edge (g : Fin 8) (r c : Fin 512) : srcNat (edge g r c) = g.val * 512 + r.val := by
  unfold srcNat edge; dsimp only; split <;> omega

@[simp] theorem tgtNat_edge (g : Fin 8) (r c : Fin 512) : tgtNat (edge g r c) = g.val * 512 + c.val := by
  unfold tgtNat edge; dsimp only; split <;> omega

@[simp] theorem srcNat_loop (p : Fin 4096) : srcNat (loop p) = p.val := by
  unfold srcNat loop; dsimp only; split <;> omega

@[simp] theorem tgtNat_loop (p : Fin 4096) : tgtNat (loop p) = p.val := by
  unfold tgtNat loop; dsimp only; split <;> omega

end Cert.Edges
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.EdgeJoin.lean ====
/-
  The edge list's three arrays, read at an edge number.

  Eight vectors of 262144 entries laid end to end read, at position g · 262144 + k, the g-th vector at k.  The edge
  arrays are such an eight-fold join (one block of 512 · 512 grid edges per graph) followed by 4096 entries for the
  self loops.  When block g holds at k the word of g · 512 + k / 512 (the source node of the grid edge) or of
  g · 512 + k % 512 (its target), and the tail holds at p the word of p, the joined array holds at every edge number
  the word of that edge's source (target) node.  When block g holds at k the entry (g, k / 512, k % 512) of a
  three-dimensional array and the tail holds a constant, the joined array holds that entry at a grid edge and the
  constant at a self loop.  32-bit words of numbers below 2 ^ 31 read back, signed or unsigned, as the number.
-/
import Idealize.ShloMosaic.Lib.Pipeline.Value
import Idealize.ShloMosaic.Lib.ValueIdx
import proofs.«181092_g44908178047564_cont_sun_c4_353_28_alg».proof.Proof.EdgeDefs
import proofs.«181092_g44908178047564_cont_sun_c4_353_28_alg».proof.Proof.LibPair

noncomputable section

namespace Cert.EdgeJoin

open Idealize.ShloMosaic Idealize.ShloMosaic.ValueIdx Cert.Edges

/-! ## Words -/

/-- Adding the words of two numbers gives the word of their sum. -/
theorem addi_ofNat (a c : ℕ) : IntOp.addi (BitVec.ofNat 32 a) (BitVec.ofNat 32 c) = BitVec.ofNat 32 (a + c) := by
  show BitVec.ofNat 32 a + BitVec.ofNat 32 c = BitVec.ofNat 32 (a + c)
  rw [BitVec.ofNat_add]

/-- The word of a number below 2 ^ 32 reads back unsigned as the number. -/
theorem toNat_ofNat32 (n : ℕ) (h : n < 2 ^ 32) : (BitVec.ofNat 32 n).toNat = n := by
  rw [BitVec.toNat_ofNat]; exact Nat.mod_eq_of_lt h

/-- The word of a number below 2 ^ 31 reads back signed as the number. -/
theorem toInt_ofNat32 (n : ℕ) (h : n < 2 ^ 31) : (BitVec.ofNat 32 n).toInt = (n : ℤ) := by
  rw [BitVec.toInt_eq_toNat_cond, toNat_ofNat32 n (by omega)]
  rw [if_pos (by omega)]

/-! ## Eight blocks end to end -/

/-- Eight vectors of 262144 entries end to end, read at position j: block j / 262144 at j % 262144. -/
theorem join8_apply' {α : Type} (x : Fin 8 → ((⟨1, ![262144]⟩ : Shape).Idx → α))
    (h : Shape.Concatenates [⟨1, ![262144]⟩, ⟨1, ![262144]⟩, ⟨1, ![262144]⟩, ⟨1, ![262144]⟩, ⟨1, ![262144]⟩, ⟨1, ![262144]⟩, ⟨1, ![262144]⟩, ⟨1, ![262144]⟩] ⟨1, ![2097152]⟩ 0) (j : Fin 2097152) :
    concatenate ⟨1, ![2097152]⟩ 0 [⟨⟨1, ![262144]⟩, x 0⟩, ⟨⟨1, ![262144]⟩, x 1⟩, ⟨⟨1, ![262144]⟩, x 2⟩, ⟨⟨1, ![262144]⟩, x 3⟩, ⟨⟨1, ![262144]⟩, x 4⟩, ⟨⟨1, ![262144]⟩, x 5⟩, ⟨⟨1, ![262144]⟩, x 6⟩, ⟨⟨1, ![262144]⟩, x 7⟩] h (ix1 j)
      = x ⟨j.val / 262144, by omega⟩ (ix1 ⟨j.val % 262144, Nat.mod_lt _ (by norm_num)⟩) :=
  concatenate_ofFn_apply (N := 8) (s₁ := ⟨1, ![262144]⟩) (t := ⟨1, ![2097152]⟩) 0 x h rfl 262144 rfl (ix1 j) ⟨j.val / 262144, by omega⟩ rfl
    (ix1 ⟨j.val % 262144, Nat.mod_lt _ (by norm_num)⟩) rfl (fun b hb => match b with | ⟨0, _⟩ => absurd rfl hb)

/-! ## The blocks followed by the self loops' entries -/

section Tail
variable {α : Type} (J : (⟨1, ![2097152]⟩ : Shape).Idx → α) (L : (⟨1, ![4096]⟩ : Shape).Idx → α)
  (h : Shape.Concatenates [⟨1, ![2097152]⟩, ⟨1, ![4096]⟩] ⟨1, ![2101248]⟩ 0)

/-- The joined array at a grid edge's number reads the blocks' part. -/
theorem tail_apply_grid (e : Fin 2101248) (he : e.val < 2097152) :
    concatenate ⟨1, ![2101248]⟩ 0 [⟨⟨1, ![2097152]⟩, J⟩, ⟨⟨1, ![4096]⟩, L⟩] h (ix1 e) = J (ix1 ⟨e.val, he⟩) :=
  Cert.Lib.pair_vec_left J L h ⟨e.val, he⟩ e.isLt

/-- The joined array at a self loop's number reads the tail. -/
theorem tail_apply_loop (e : Fin 2101248) (he : 2097152 ≤ e.val) :
    concatenate ⟨1, ![2101248]⟩ 0 [⟨⟨1, ![2097152]⟩, J⟩, ⟨⟨1, ![4096]⟩, L⟩] h (ix1 e)
      = L (ix1 ⟨e.val - 2097152, by omega⟩) := by
  have hj : 2097152 + (⟨e.val - 2097152, by omega⟩ : Fin 4096).val < 2101248 := by
    show 2097152 + (e.val - 2097152) < 2101248; omega
  have e' : e = ⟨2097152 + (⟨e.val - 2097152, by omega⟩ : Fin 4096).val, hj⟩ :=
    Fin.ext (by show e.val = 2097152 + (e.val - 2097152); omega)
  exact (congrArg (fun e => concatenate ⟨1, ![2101248]⟩ 0 [⟨⟨1, ![2097152]⟩, J⟩, ⟨⟨1, ![4096]⟩, L⟩] h (ix1 e)) e').trans
    (Cert.Lib.pair_vec_right J L h ⟨e.val - 2097152, by omega⟩ hj)

end Tail

/-! ## The node words -/

section Words
variable (x : Fin 8 → ((⟨1, ![262144]⟩ : Shape).Idx → BitVec 32)) (L : (⟨1, ![4096]⟩ : Shape).Idx → BitVec 32)
  (h8 : Shape.Concatenates [⟨1, ![262144]⟩, ⟨1, ![262144]⟩, ⟨1, ![262144]⟩, ⟨1, ![262144]⟩, ⟨1, ![262144]⟩, ⟨1, ![262144]⟩, ⟨1, ![262144]⟩, ⟨1, ![262144]⟩] ⟨1, ![2097152]⟩ 0)
  (h : Shape.Concatenates [⟨1, ![2097152]⟩, ⟨1, ![4096]⟩] ⟨1, ![2101248]⟩ 0)

/-- Blocks holding the source node's word and a tail holding p at p: the array holds every edge's source node. -/
theorem src_word (hx : ∀ (g : Fin 8) (k : Fin 262144), x g (ix1 k) = BitVec.ofNat 32 (g.val * 512 + k.val / 512))
    (hL : ∀ p : Fin 4096, L (ix1 p) = BitVec.ofNat 32 p.val) (e : Fin 2101248) :
    concatenate ⟨1, ![2101248]⟩ 0 [⟨⟨1, ![2097152]⟩, concatenate ⟨1, ![2097152]⟩ 0 [⟨⟨1, ![262144]⟩, x 0⟩, ⟨⟨1, ![262144]⟩, x 1⟩, ⟨⟨1, ![262144]⟩, x 2⟩, ⟨⟨1, ![262144]⟩, x 3⟩, ⟨⟨1, ![262144]⟩, x 4⟩, ⟨⟨1, ![262144]⟩, x 5⟩, ⟨⟨1, ![262144]⟩, x 6⟩, ⟨⟨1, ![262144]⟩, x 7⟩] h8⟩, ⟨⟨1, ![4096]⟩, L⟩] h (ix1 e)
      = BitVec.ofNat 32 (srcNat e) := by
  by_cases he : e.val < 2097152
  · rw [tail_apply_grid _ L h e he, join8_apply' x h8 ⟨e.val, he⟩, hx]
    refine congrArg (BitVec.ofNat 32) ?_
    show e.val / 262144 * 512 + e.val % 262144 / 512 = srcNat e
    unfold srcNat; rw [if_pos he]; omega
  · rw [tail_apply_loop _ L h e (by omega), hL]
    refine congrArg (BitVec.ofNat 32) ?_
    show e.val - 2097152 = srcNat e
    unfold srcNat; rw [if_neg he]

/-- Blocks holding the target node's word and a tail holding p at p: the array holds every edge's target node. -/
theorem tgt_word (hx : ∀ (g : Fin 8) (k : Fin 262144), x g (ix1 k) = BitVec.ofNat 32 (g.val * 512 + k.val % 512))
    (hL : ∀ p : Fin 4096, L (ix1 p) = BitVec.ofNat 32 p.val) (e : Fin 2101248) :
    concatenate ⟨1, ![2101248]⟩ 0 [⟨⟨1, ![2097152]⟩, concatenate ⟨1, ![2097152]⟩ 0 [⟨⟨1, ![262144]⟩, x 0⟩, ⟨⟨1, ![262144]⟩, x 1⟩, ⟨⟨1, ![262144]⟩, x 2⟩, ⟨⟨1, ![262144]⟩, x 3⟩, ⟨⟨1, ![262144]⟩, x 4⟩, ⟨⟨1, ![262144]⟩, x 5⟩, ⟨⟨1, ![262144]⟩, x 6⟩, ⟨⟨1, ![262144]⟩, x 7⟩] h8⟩, ⟨⟨1, ![4096]⟩, L⟩] h (ix1 e)
      = BitVec.ofNat 32 (tgtNat e) := by
  by_cases he : e.val < 2097152
  · rw [tail_apply_grid _ L h e he, join8_apply' x h8 ⟨e.val, he⟩, hx]
    refine congrArg (BitVec.ofNat 32) ?_
    show e.val / 262144 * 512 + e.val % 262144 % 512 = tgtNat e
    unfold tgtNat; rw [if_pos he]; omega
  · rw [tail_apply_loop _ L h e (by omega), hL]
    refine congrArg (BitVec.ofNat 32) ?_
    show e.val - 2097152 = tgtNat e
    unfold tgtNat; rw [if_neg he]

end Words

/-! ## The weights -/

section Weights
variable {α : Type} (x : Fin 8 → ((⟨1, ![262144]⟩ : Shape).Idx → α)) (L : (⟨1, ![4096]⟩ : Shape).Idx → α)
  (h8 : Shape.Concatenates [⟨1, ![262144]⟩, ⟨1, ![262144]⟩, ⟨1, ![262144]⟩, ⟨1, ![262144]⟩, ⟨1, ![262144]⟩, ⟨1, ![262144]⟩, ⟨1, ![262144]⟩, ⟨1, ![262144]⟩] ⟨1, ![2097152]⟩ 0)
  (h : Shape.Concatenates [⟨1, ![2097152]⟩, ⟨1, ![4096]⟩] ⟨1, ![2101248]⟩ 0)
  (A : (⟨3, ![8, 512, 512]⟩ : Shape).Idx → α)

/-- Blocks holding the adjacency entries: the array holds at the grid edge r → c of graph g the entry (g, r, c). -/
theorem weight_edge
    (hx : ∀ (g : Fin 8) (k : Fin 262144), x g (ix1 k)
      = A (ix3 g (⟨k.val / 512, by omega⟩ : Fin 512) (⟨k.val % 512, Nat.mod_lt _ (by norm_num)⟩ : Fin 512)))
    (g : Fin 8) (r c : Fin 512) :
    concatenate ⟨1, ![2101248]⟩ 0 [⟨⟨1, ![2097152]⟩, concatenate ⟨1, ![2097152]⟩ 0 [⟨⟨1, ![262144]⟩, x 0⟩, ⟨⟨1, ![262144]⟩, x 1⟩, ⟨⟨1, ![262144]⟩, x 2⟩, ⟨⟨1, ![262144]⟩, x 3⟩, ⟨⟨1, ![262144]⟩, x 4⟩, ⟨⟨1, ![262144]⟩, x 5⟩, ⟨⟨1, ![262144]⟩, x 6⟩, ⟨⟨1, ![262144]⟩, x 7⟩] h8⟩, ⟨⟨1, ![4096]⟩, L⟩] h (ix1 (edge g r c))
      = A (ix3 g r c) := by
  have he : (edge g r c).val < 2097152 := by show g.val * 262144 + r.val * 512 + c.val < 2097152; omega
  rw [tail_apply_grid _ L h _ he, join8_apply' x h8 ⟨(edge g r c).val, he⟩, hx]
  have e1 : (⟨(edge g r c).val / 262144, by omega⟩ : Fin 8) = g :=
    Fin.ext (by show (g.val * 262144 + r.val * 512 + c.val) / 262144 = g.val; omega)
  have e2 : (⟨(edge g r c).val % 262144 / 512, by omega⟩ : Fin 512) = r :=
    Fin.ext (by show (g.val * 262144 + r.val * 512 + c.val) % 262144 / 512 = r.val; omega)
  have e3 : (⟨(edge g r c).val % 262144 % 512, Nat.mod_lt _ (by norm_num)⟩ : Fin 512) = c :=
    Fin.ext (by show (g.val * 262144 + r.val * 512 + c.val) % 262144 % 512 = c.val; omega)
  exact congrArg A (by rw [e1, e2, e3])

/-- A constant tail: the array holds the constant at every self loop. -/
theorem weight_loop (one : α) (hL : ∀ p : Fin 4096, L (ix1 p) = one) (p : Fin 4096) :
    concatenate ⟨1, ![2101248]⟩ 0 [⟨⟨1, ![2097152]⟩, concatenate ⟨1, ![2097152]⟩ 0 [⟨⟨1, ![262144]⟩, x 0⟩, ⟨⟨1, ![262144]⟩, x 1⟩, ⟨⟨1, ![262144]⟩, x 2⟩, ⟨⟨1, ![262144]⟩, x 3⟩, ⟨⟨1, ![262144]⟩, x 4⟩, ⟨⟨1, ![262144]⟩, x 5⟩, ⟨⟨1, ![262144]⟩, x 6⟩, ⟨⟨1, ![262144]⟩, x 7⟩] h8⟩, ⟨⟨1, ![4096]⟩, L⟩] h (ix1 (loop p))
      = one := by
  rw [tail_apply_loop _ L h _ (by show 2097152 ≤ 2097152 + p.val; omega), hL]

end Weights

end Cert.EdgeJoin

end
-- ==== Proof.EdgeArrays.lean ====
/-
  The reference's edge list read at an edge number.

  The reference lays out 2101248 edges: for each of the eight graphs the 512 · 512 grid edges r → c (number
  g · 262144 + r · 512 + c), then one self loop per batched node.  Its source array is built from a row counter
  (k / 512 on a block of 262144), its target array from a column counter (k % 512), each shifted by g · 512 in
  block g, and both are followed by the numbers 0 … 4095; its weight array is the adjacency array flattened block
  by block, followed by 4096 ones.  Read at an edge number e these arrays hold the word of the edge's source node,
  the word of its target node, and the edge's weight: the adjacency entry (g, r, c) at a grid edge, one at a self
  loop.  The three layers rebuild the same arrays (only the final join is repeated), so the same statements hold
  for each copy.  The indices stay below 2 ^ 22, so the 32-bit additions never wrap.
-/
import proofs.«181092_g44908178047564_cont_sun_c4_353_28_alg».proof.Proof.Gen.ReferenceIdeal.Read
import proofs.«181092_g44908178047564_cont_sun_c4_353_28_alg».proof.Proof.EdgeJoin
import proofs.«181092_g44908178047564_cont_sun_c4_353_28_alg».proof.Proof.LibNodeMean

noncomputable section

namespace Cert.EdgeArrays

open Idealize.ShloMosaic Idealize.ShloMosaic.ValueIdx Cert.ReferenceIdeal Cert.ReferenceIdeal.Gen Cert.ReferenceIdeal.Read
open Cert.Edges Cert.EdgeJoin

variable {F : FTy → Type} [FloatOps F]

/-! ## One block of 512 · 512 grid edges -/

/-- The row counter of a block: entry k holds k / 512. -/
theorem v2_at (k : Fin 262144) : val_main_v2 (F := F) (ix1 k) = BitVec.ofNat 32 (k.val / 512) :=
  (val_main_v2_apply _).trans ((val_main_v1_apply _).trans (val_main_v0_apply _))

/-- The column counter of a block: entry k holds k % 512. -/
theorem v6_at (k : Fin 262144) : val_main_v6 (F := F) (ix1 k) = BitVec.ofNat 32 (k.val % 512) := by
  refine ((val_main_v6_apply _).trans ((val_main_v5_apply _).trans ((val_main_v4_apply _).trans (val_main_v3_apply _)))).trans ?_
  exact congrArg (BitVec.ofNat 32) (by show 0 * 512 + k.val % 512 = k.val % 512; omega)

/-- The eight source blocks. -/
def srcBlocks : Fin 8 → ((⟨S262144, .i32⟩ : BufTy).Contents (Elt F)) :=
  ![val_main_v8 (F := F), val_main_v15 (F := F), val_main_v22 (F := F), val_main_v29 (F := F), val_main_v36 (F := F), val_main_v43 (F := F), val_main_v50 (F := F), val_main_v57 (F := F)]

/-- The eight target blocks. -/
def tgtBlocks : Fin 8 → ((⟨S262144, .i32⟩ : BufTy).Contents (Elt F)) :=
  ![val_main_v10 (F := F), val_main_v17 (F := F), val_main_v24 (F := F), val_main_v31 (F := F), val_main_v38 (F := F), val_main_v45 (F := F), val_main_v52 (F := F), val_main_v59 (F := F)]

/-- The eight weight blocks. -/
def wBlocks (A : (⟨S8x512x512, .f32⟩ : BufTy).Contents (Elt F)) : Fin 8 → ((⟨S262144, .f32⟩ : BufTy).Contents (Elt F)) :=
  ![val_main_v13 (F := F) A, val_main_v20 (F := F) A, val_main_v27 (F := F) A, val_main_v34 (F := F) A, val_main_v41 (F := F) A, val_main_v48 (F := F) A, val_main_v55 (F := F) A, val_main_v62 (F := F) A]

/-- Source block g holds at k the word of g · 512 + k / 512. -/
theorem srcBlocks_at (g : Fin 8) (k : Fin 262144) :
    srcBlocks (F := F) g (ix1 k) = BitVec.ofNat 32 (g.val * 512 + k.val / 512) := by
  match g with
  | ⟨0, _⟩ =>
    show IntOp.addi (val_main_v2 (F := F) (ix1 k)) (val_main_v7 (F := F) (ix1 k)) = _
    rw [v2_at, show val_main_v7 (F := F) (ix1 k) = BitVec.ofNat 32 0 from (val_main_v7_apply _).trans rfl, addi_ofNat]
    exact congrArg (BitVec.ofNat 32) (by show k.val / 512 + 0 = 0 * 512 + k.val / 512; omega)
  | ⟨1, _⟩ =>
    show IntOp.addi (val_main_v2 (F := F) (ix1 k)) (val_main_v14 (F := F) (ix1 k)) = _
    rw [v2_at, show val_main_v14 (F := F) (ix1 k) = BitVec.ofNat 32 512 from (val_main_v14_apply _).trans rfl, addi_ofNat]
    exact congrArg (BitVec.ofNat 32) (by show k.val / 512 + 512 = 1 * 512 + k.val / 512; omega)
  | ⟨2, _⟩ =>
    show IntOp.addi (val_main_v2 (F := F) (ix1 k)) (val_main_v21 (F := F) (ix1 k)) = _
    rw [v2_at, show val_main_v21 (F := F) (ix1 k) = BitVec.ofNat 32 1024 from (val_main_v21_apply _).trans rfl, addi_ofNat]
    exact congrArg (BitVec.ofNat 32) (by show k.val / 512 + 1024 = 2 * 512 + k.val / 512; omega)
  | ⟨3, _⟩ =>
    show IntOp.addi (val_main_v2 (F := F) (ix1 k)) (val_main_v28 (F := F) (ix1 k)) = _
    rw [v2_at, show val_main_v28 (F := F) (ix1 k) = BitVec.ofNat 32 1536 from (val_main_v28_apply _).trans rfl, addi_ofNat]
    exact congrArg (BitVec.ofNat 32) (by show k.val / 512 + 1536 = 3 * 512 + k.val / 512; omega)
  | ⟨4, _⟩ =>
    show IntOp.addi (val_main_v2 (F := F) (ix1 k)) (val_main_v35 (F := F) (ix1 k)) = _
    rw [v2_at, show val_main_v35 (F := F) (ix1 k) = BitVec.ofNat 32 2048 from (val_main_v35_apply _).trans rfl, addi_ofNat]
    exact congrArg (BitVec.ofNat 32) (by show k.val / 512 + 2048 = 4 * 512 + k.val / 512; omega)
  | ⟨5, _⟩ =>
    show IntOp.addi (val_main_v2 (F := F) (ix1 k)) (val_main_v42 (F := F) (ix1 k)) = _
    rw [v2_at, show val_main_v42 (F := F) (ix1 k) = BitVec.ofNat 32 2560 from (val_main_v42_apply _).trans rfl, addi_ofNat]
    exact congrArg (BitVec.ofNat 32) (by show k.val / 512 + 2560 = 5 * 512 + k.val / 512; omega)
  | ⟨6, _⟩ =>
    show IntOp.addi (val_main_v2 (F := F) (ix1 k)) (val_main_v49 (F := F) (ix1 k)) = _
    rw [v2_at, show val_main_v49 (F := F) (ix1 k) = BitVec.ofNat 32 3072 from (val_main_v49_apply _).trans rfl, addi_ofNat]
    exact congrArg (BitVec.ofNat 32) (by show k.val / 512 + 3072 = 6 * 512 + k.val / 512; omega)
  | ⟨7, _⟩ =>
    show IntOp.addi (val_main_v2 (F := F) (ix1 k)) (val_main_v56 (F := F) (ix1 k)) = _
    rw [v2_at, show val_main_v56 (F := F) (ix1 k) = BitVec.ofNat 32 3584 from (val_main_v56_apply _).trans rfl, addi_ofNat]
    exact congrArg (BitVec.ofNat 32) (by show k.val / 512 + 3584 = 7 * 512 + k.val / 512; omega)

/-- Target block g holds at k the word of g · 512 + k % 512. -/
theorem tgtBlocks_at (g : Fin 8) (k : Fin 262144) :
    tgtBlocks (F := F) g (ix1 k) = BitVec.ofNat 32 (g.val * 512 + k.val % 512) := by
  match g with
  | ⟨0, _⟩ =>
    show IntOp.addi (val_main_v6 (F := F) (ix1 k)) (val_main_v9 (F := F) (ix1 k)) = _
    rw [v6_at, show val_main_v9 (F := F) (ix1 k) = BitVec.ofNat 32 0 from (val_main_v9_apply _).trans rfl, addi_ofNat]
    exact congrArg (BitVec.ofNat 32) (by show k.val % 512 + 0 = 0 * 512 + k.val % 512; omega)
  | ⟨1, _⟩ =>
    show IntOp.addi (val_main_v6 (F := F) (ix1 k)) (val_main_v16 (F := F) (ix1 k)) = _
    rw [v6_at, show val_main_v16 (F := F) (ix1 k) = BitVec.ofNat 32 512 from (val_main_v16_apply _).trans rfl, addi_ofNat]
    exact congrArg (BitVec.ofNat 32) (by show k.val % 512 + 512 = 1 * 512 + k.val % 512; omega)
  | ⟨2, _⟩ =>
    show IntOp.addi (val_main_v6 (F := F) (ix1 k)) (val_main_v23 (F := F) (ix1 k)) = _
    rw [v6_at, show val_main_v23 (F := F) (ix1 k) = BitVec.ofNat 32 1024 from (val_main_v23_apply _).trans rfl, addi_ofNat]
    exact congrArg (BitVec.ofNat 32) (by show k.val % 512 + 1024 = 2 * 512 + k.val % 512; omega)
  | ⟨3, _⟩ =>
    show IntOp.addi (val_main_v6 (F := F) (ix1 k)) (val_main_v30 (F := F) (ix1 k)) = _
    rw [v6_at, show val_main_v30 (F := F) (ix1 k) = BitVec.ofNat 32 1536 from (val_main_v30_apply _).trans rfl, addi_ofNat]
    exact congrArg (BitVec.ofNat 32) (by show k.val % 512 + 1536 = 3 * 512 + k.val % 512; omega)
  | ⟨4, _⟩ =>
    show IntOp.addi (val_main_v6 (F := F) (ix1 k)) (val_main_v37 (F := F) (ix1 k)) = _
    rw [v6_at, show val_main_v37 (F := F) (ix1 k) = BitVec.ofNat 32 2048 from (val_main_v37_apply _).trans rfl, addi_ofNat]
    exact congrArg (BitVec.ofNat 32) (by show k.val % 512 + 2048 = 4 * 512 + k.val % 512; omega)
  | ⟨5, _⟩ =>
    show IntOp.addi (val_main_v6 (F := F) (ix1 k)) (val_main_v44 (F := F) (ix1 k)) = _
    rw [v6_at, show val_main_v44 (F := F) (ix1 k) = BitVec.ofNat 32 2560 from (val_main_v44_apply _).trans rfl, addi_ofNat]
    exact congrArg (BitVec.ofNat 32) (by show k.val % 512 + 2560 = 5 * 512 + k.val % 512; omega)
  | ⟨6, _⟩ =>
    show IntOp.addi (val_main_v6 (F := F) (ix1 k)) (val_main_v51 (F := F) (ix1 k)) = _
    rw [v6_at, show val_main_v51 (F := F) (ix1 k) = BitVec.ofNat 32 3072 from (val_main_v51_apply _).trans rfl, addi_ofNat]
    exact congrArg (BitVec.ofNat 32) (by show k.val % 512 + 3072 = 6 * 512 + k.val % 512; omega)
  | ⟨7, _⟩ =>
    show IntOp.addi (val_main_v6 (F := F) (ix1 k)) (val_main_v58 (F := F) (ix1 k)) = _
    rw [v6_at, show val_main_v58 (F := F) (ix1 k) = BitVec.ofNat 32 3584 from (val_main_v58_apply _).trans rfl, addi_ofNat]
    exact congrArg (BitVec.ofNat 32) (by show k.val % 512 + 3584 = 7 * 512 + k.val % 512; omega)

/-- Weight block g holds at k the adjacency entry (g, k / 512, k % 512). -/
theorem wBlocks_at (A : (⟨S8x512x512, .f32⟩ : BufTy).Contents (Elt F)) (g : Fin 8) (k : Fin 262144) :
    wBlocks (F := F) A g (ix1 k)
      = A (ix3 g (⟨k.val / 512, by omega⟩ : Fin 512) (⟨k.val % 512, Nat.mod_lt _ (by norm_num)⟩ : Fin 512)) := by
  match g with
  | ⟨0, _⟩ =>
    refine ((val_main_v13_apply A _).trans ((val_main_v12_apply A _).trans (val_main_v11_apply A _))).trans (congrArg A ?_)
    funext a
    match a with
    | ⟨0, _⟩ => exact Fin.ext (by show 0 + 0 = 0; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨1, _⟩ =>
    refine ((val_main_v20_apply A _).trans ((val_main_v19_apply A _).trans (val_main_v18_apply A _))).trans (congrArg A ?_)
    funext a
    match a with
    | ⟨0, _⟩ => exact Fin.ext (by show 1 + 0 = 1; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨2, _⟩ =>
    refine ((val_main_v27_apply A _).trans ((val_main_v26_apply A _).trans (val_main_v25_apply A _))).trans (congrArg A ?_)
    funext a
    match a with
    | ⟨0, _⟩ => exact Fin.ext (by show 2 + 0 = 2; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨3, _⟩ =>
    refine ((val_main_v34_apply A _).trans ((val_main_v33_apply A _).trans (val_main_v32_apply A _))).trans (congrArg A ?_)
    funext a
    match a with
    | ⟨0, _⟩ => exact Fin.ext (by show 3 + 0 = 3; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨4, _⟩ =>
    refine ((val_main_v41_apply A _).trans ((val_main_v40_apply A _).trans (val_main_v39_apply A _))).trans (congrArg A ?_)
    funext a
    match a with
    | ⟨0, _⟩ => exact Fin.ext (by show 4 + 0 = 4; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨5, _⟩ =>
    refine ((val_main_v48_apply A _).trans ((val_main_v47_apply A _).trans (val_main_v46_apply A _))).trans (congrArg A ?_)
    funext a
    match a with
    | ⟨0, _⟩ => exact Fin.ext (by show 5 + 0 = 5; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨6, _⟩ =>
    refine ((val_main_v55_apply A _).trans ((val_main_v54_apply A _).trans (val_main_v53_apply A _))).trans (congrArg A ?_)
    funext a
    match a with
    | ⟨0, _⟩ => exact Fin.ext (by show 6 + 0 = 6; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)
  | ⟨7, _⟩ =>
    refine ((val_main_v62_apply A _).trans ((val_main_v61_apply A _).trans (val_main_v60_apply A _))).trans (congrArg A ?_)
    funext a
    match a with
    | ⟨0, _⟩ => exact Fin.ext (by show 7 + 0 = 7; omega)
    | ⟨1, _⟩ => exact Fin.ext (by show (k.val / 512 * 512 + k.val % 512) / 512 % 512 = k.val / 512; omega)
    | ⟨2, _⟩ => exact Fin.ext (by show (k.val / 512 * 512 + k.val % 512) % 512 = k.val % 512; omega)

/-! ## The three arrays, for each layer's copy -/

/-! ### Layer 1's copy -/

/-- The source array at an edge number holds the word of the edge's source node. -/
theorem src_v71 (e : Fin 2101248) : val_main_v71 (F := F) (ix1 e) = BitVec.ofNat 32 (srcNat e) :=
  src_word (srcBlocks (F := F)) (val_main_v70 (F := F)) concatenates_S262144_S262144_S262144_S262144_S262144_S262144_S262144_S262144_S2097152_d0 concatenates_S2097152_S4096_S2101248_d0 srcBlocks_at (fun _ => rfl) e

theorem src_v71_toInt (e : Fin 2101248) : (val_main_v71 (F := F) (ix1 e)).toInt = ((srcNat e : ℕ) : ℤ) := by
  rw [src_v71]; exact toInt_ofNat32 _ (by have := srcNat_lt e; omega)

theorem src_v71_toNat (e : Fin 2101248) : (val_main_v71 (F := F) (ix1 e)).toNat = srcNat e := by
  rw [src_v71]; exact toNat_ofNat32 _ (by have := srcNat_lt e; omega)

/-- The target array at an edge number holds the word of the edge's target node. -/
theorem tgt_v72 (e : Fin 2101248) : val_main_v72 (F := F) (ix1 e) = BitVec.ofNat 32 (tgtNat e) :=
  tgt_word (tgtBlocks (F := F)) (val_main_v70 (F := F)) concatenates_S262144_S262144_S262144_S262144_S262144_S262144_S262144_S262144_S2097152_d0 concatenates_S2097152_S4096_S2101248_d0 tgtBlocks_at (fun _ => rfl) e

theorem tgt_v72_toInt (e : Fin 2101248) : (val_main_v72 (F := F) (ix1 e)).toInt = ((tgtNat e : ℕ) : ℤ) := by
  rw [tgt_v72]; exact toInt_ofNat32 _ (by have := tgtNat_lt e; omega)

theorem tgt_v72_toNat (e : Fin 2101248) : (val_main_v72 (F := F) (ix1 e)).toNat = tgtNat e := by
  rw [tgt_v72]; exact toNat_ofNat32 _ (by have := tgtNat_lt e; omega)

/-- The weight array at the grid edge r → c of graph g holds the adjacency entry (g, r, c). -/
theorem w_v74_edge (A : (⟨S8x512x512, .f32⟩ : BufTy).Contents (Elt F)) (g : Fin 8) (r c : Fin 512) :
    val_main_v74 (F := F) A (ix1 (edge g r c)) = A (ix3 g r c) :=
  weight_edge (wBlocks (F := F) A) (val_main_v73 (F := F)) concatenates_S262144_S262144_S262144_S262144_S262144_S262144_S262144_S262144_S2097152_d0 concatenates_S2097152_S4096_S2101248_d0 A (wBlocks_at A) g r c

/-- The weight array at a self loop holds the constant of the word 0x3F800000. -/
theorem w_v74_loop_word (A : (⟨S8x512x512, .f32⟩ : BufTy).Contents (Elt F)) (p : Fin 4096) :
    val_main_v74 (F := F) A (ix1 (loop p)) = FloatOps.ofBits .f32 0x3F800000#32 :=
  weight_loop (wBlocks (F := F) A) (val_main_v73 (F := F)) concatenates_S262144_S262144_S262144_S262144_S262144_S262144_S262144_S262144_S2097152_d0 concatenates_S2097152_S4096_S2101248_d0 _ (fun p => (val_main_v73_apply _).trans rfl) p

/-- Over the extended reals the weight of a self loop is one. -/
theorem w_v74_loop (A : (⟨S8x512x512, .f32⟩ : BufTy).Contents (Elt Ideal)) (p : Fin 4096) :
    val_main_v74 (F := Ideal) A (ix1 (loop p)) = (1 : EReal) :=
  (w_v74_loop_word (F := Ideal) A p).trans Cert.Lib.one_word_f32

/-! ### Layer 2's copy -/

/-- The source array at an edge number holds the word of the edge's source node. -/
theorem src_v118 (e : Fin 2101248) : val_main_v118 (F := F) (ix1 e) = BitVec.ofNat 32 (srcNat e) :=
  src_word (srcBlocks (F := F)) (val_main_v117 (F := F)) concatenates_S262144_S262144_S262144_S262144_S262144_S262144_S262144_S262144_S2097152_d0 concatenates_S2097152_S4096_S2101248_d0 srcBlocks_at (fun _ => rfl) e

theorem src_v118_toInt (e : Fin 2101248) : (val_main_v118 (F := F) (ix1 e)).toInt = ((srcNat e : ℕ) : ℤ) := by
  rw [src_v118]; exact toInt_ofNat32 _ (by have := srcNat_lt e; omega)

theorem src_v118_toNat (e : Fin 2101248) : (val_main_v118 (F := F) (ix1 e)).toNat = srcNat e := by
  rw [src_v118]; exact toNat_ofNat32 _ (by have := srcNat_lt e; omega)

/-- The target array at an edge number holds the word of the edge's target node. -/
theorem tgt_v119 (e : Fin 2101248) : val_main_v119 (F := F) (ix1 e) = BitVec.ofNat 32 (tgtNat e) :=
  tgt_word (tgtBlocks (F := F)) (val_main_v117 (F := F)) concatenates_S262144_S262144_S262144_S262144_S262144_S262144_S262144_S262144_S2097152_d0 concatenates_S2097152_S4096_S2101248_d0 tgtBlocks_at (fun _ => rfl) e

theorem tgt_v119_toInt (e : Fin 2101248) : (val_main_v119 (F := F) (ix1 e)).toInt = ((tgtNat e : ℕ) : ℤ) := by
  rw [tgt_v119]; exact toInt_ofNat32 _ (by have := tgtNat_lt e; omega)

theorem tgt_v119_toNat (e : Fin 2101248) : (val_main_v119 (F := F) (ix1 e)).toNat = tgtNat e := by
  rw [tgt_v119]; exact toNat_ofNat32 _ (by have := tgtNat_lt e; omega)

/-- The weight array at the grid edge r → c of graph g holds the adjacency entry (g, r, c). -/
theorem w_v121_edge (A : (⟨S8x512x512, .f32⟩ : BufTy).Contents (Elt F)) (g : Fin 8) (r c : Fin 512) :
    val_main_v121 (F := F) A (ix1 (edge g r c)) = A (ix3 g r c) :=
  weight_edge (wBlocks (F := F) A) (val_main_v120 (F := F)) concatenates_S262144_S262144_S262144_S262144_S262144_S262144_S262144_S262144_S2097152_d0 concatenates_S2097152_S4096_S2101248_d0 A (wBlocks_at A) g r c

/-- The weight array at a self loop holds the constant of the word 0x3F800000. -/
theorem w_v121_loop_word (A : (⟨S8x512x512, .f32⟩ : BufTy).Contents (Elt F)) (p : Fin 4096) :
    val_main_v121 (F := F) A (ix1 (loop p)) = FloatOps.ofBits .f32 0x3F800000#32 :=
  weight_loop (wBlocks (F := F) A) (val_main_v120 (F := F)) concatenates_S262144_S262144_S262144_S262144_S262144_S262144_S262144_S262144_S2097152_d0 concatenates_S2097152_S4096_S2101248_d0 _ (fun p => (val_main_v120_apply _).trans rfl) p

/-- Over the extended reals the weight of a self loop is one. -/
theorem w_v121_loop (A : (⟨S8x512x512, .f32⟩ : BufTy).Contents (Elt Ideal)) (p : Fin 4096) :
    val_main_v121 (F := Ideal) A (ix1 (loop p)) = (1 : EReal) :=
  (w_v121_loop_word (F := Ideal) A p).trans Cert.Lib.one_word_f32

/-! ### Layer 3's copy -/

/-- The source array at an edge number holds the word of the edge's source node. -/
theorem src_v165 (e : Fin 2101248) : val_main_v165 (F := F) (ix1 e) = BitVec.ofNat 32 (srcNat e) :=
  src_word (srcBlocks (F := F)) (val_main_v164 (F := F)) concatenates_S262144_S262144_S262144_S262144_S262144_S262144_S262144_S262144_S2097152_d0 concatenates_S2097152_S4096_S2101248_d0 srcBlocks_at (fun _ => rfl) e

theorem src_v165_toInt (e : Fin 2101248) : (val_main_v165 (F := F) (ix1 e)).toInt = ((srcNat e : ℕ) : ℤ) := by
  rw [src_v165]; exact toInt_ofNat32 _ (by have := srcNat_lt e; omega)

theorem src_v165_toNat (e : Fin 2101248) : (val_main_v165 (F := F) (ix1 e)).toNat = srcNat e := by
  rw [src_v165]; exact toNat_ofNat32 _ (by have := srcNat_lt e; omega)

/-- The target array at an edge number holds the word of the edge's target node. -/
theorem tgt_v166 (e : Fin 2101248) : val_main_v166 (F := F) (ix1 e) = BitVec.ofNat 32 (tgtNat e) :=
  tgt_word (tgtBlocks (F := F)) (val_main_v164 (F := F)) concatenates_S262144_S262144_S262144_S262144_S262144_S262144_S262144_S262144_S2097152_d0 concatenates_S2097152_S4096_S2101248_d0 tgtBlocks_at (fun _ => rfl) e

theorem tgt_v166_toInt (e : Fin 2101248) : (val_main_v166 (F := F) (ix1 e)).toInt = ((tgtNat e : ℕ) : ℤ) := by
  rw [tgt_v166]; exact toInt_ofNat32 _ (by have := tgtNat_lt e; omega)

theorem tgt_v166_toNat (e : Fin 2101248) : (val_main_v166 (F := F) (ix1 e)).toNat = tgtNat e := by
  rw [tgt_v166]; exact toNat_ofNat32 _ (by have := tgtNat_lt e; omega)

/-- The weight array at the grid edge r → c of graph g holds the adjacency entry (g, r, c). -/
theorem w_v168_edge (A : (⟨S8x512x512, .f32⟩ : BufTy).Contents (Elt F)) (g : Fin 8) (r c : Fin 512) :
    val_main_v168 (F := F) A (ix1 (edge g r c)) = A (ix3 g r c) :=
  weight_edge (wBlocks (F := F) A) (val_main_v167 (F := F)) concatenates_S262144_S262144_S262144_S262144_S262144_S262144_S262144_S262144_S2097152_d0 concatenates_S2097152_S4096_S2101248_d0 A (wBlocks_at A) g r c

/-- The weight array at a self loop holds the constant of the word 0x3F800000. -/
theorem w_v168_loop_word (A : (⟨S8x512x512, .f32⟩ : BufTy).Contents (Elt F)) (p : Fin 4096) :
    val_main_v168 (F := F) A (ix1 (loop p)) = FloatOps.ofBits .f32 0x3F800000#32 :=
  weight_loop (wBlocks (F := F) A) (val_main_v167 (F := F)) concatenates_S262144_S262144_S262144_S262144_S262144_S262144_S262144_S262144_S2097152_d0 concatenates_S2097152_S4096_S2101248_d0 _ (fun p => (val_main_v167_apply _).trans rfl) p

/-- Over the extended reals the weight of a self loop is one. -/
theorem w_v168_loop (A : (⟨S8x512x512, .f32⟩ : BufTy).Contents (Elt Ideal)) (p : Fin 4096) :
    val_main_v168 (F := Ideal) A (ix1 (loop p)) = (1 : EReal) :=
  (w_v168_loop_word (F := Ideal) A p).trans Cert.Lib.one_word_f32

end Cert.EdgeArrays

end
-- ==== Proof.EdgeIndex.lean ====
/-
  The index words the gathers and the pooling scatter read.

  Before each gather the reference replaces a negative index i by i + 4096 (an index counted from the end).  The
  source and target words of the edge list are words of node numbers below 4096, so read signed they are not
  negative and the replacement leaves every one of them as it is: after it, the word at edge e is still the word of
  the edge's source (target) node.  The pooling scatter's index at batched node q is the word of the node's graph,
  q / 512: a counter over the eight graphs repeated 512 times and flattened.
-/
import proofs.«181092_g44908178047564_cont_sun_c4_353_28_alg».proof.Proof.EdgeArrays

noncomputable section

namespace Cert.EdgeIndex

open Idealize.ShloMosaic Idealize.ShloMosaic.ValueIdx Cert.ReferenceIdeal Cert.ReferenceIdeal.Gen Cert.ReferenceIdeal.Read
open Cert.Edges Cert.EdgeJoin Cert.EdgeArrays

variable {F : FTy → Type} [FloatOps F]

/-- The word of a number below 2 ^ 31 is not negative, so "add if negative" leaves it alone. -/
theorem wrap_ofNat (n : ℕ) (hn : n < 2 ^ 31) (z add : BitVec 32) (hz : z = 0#32) :
    Scalar.select (IntOp.cmpi .slt (BitVec.ofNat 32 n) z) (IntOp.addi (BitVec.ofNat 32 n) add) (BitVec.ofNat 32 n)
      = BitVec.ofNat 32 n := by
  have hc : IntOp.cmpi .slt (BitVec.ofNat 32 n) z = 0#1 := by
    apply eq_zero_of_ne_one
    rw [IntOp.cmpi_slt, toInt_ofNat32 n hn, hz, BitVec.toInt_zero]
    omega
  rw [hc, select_zero]

/-- Layer 1: the source words after the wrap of negative indices (none is negative). -/
theorem wrap_v87 (e : Fin 2101248) : val_main_v87 (F := F) (ix1 e) = BitVec.ofNat 32 (srcNat e) := by
  show Scalar.select (IntOp.cmpi .slt (val_main_v71 (F := F) (ix1 e)) (val_main_v83 (F := F) (ix1 e)))
      (IntOp.addi (val_main_v71 (F := F) (ix1 e)) (val_main_v85 (F := F) (ix1 e))) (val_main_v71 (F := F) (ix1 e)) = _
  rw [src_v71 e]
  exact wrap_ofNat _ (by have := srcNat_lt e; omega) _ _ ((val_main_v83_apply _).trans rfl)

theorem wrap_v87_toInt (e : Fin 2101248) : (val_main_v87 (F := F) (ix1 e)).toInt = ((srcNat e : ℕ) : ℤ) := by
  rw [wrap_v87]; exact toInt_ofNat32 _ (by have := srcNat_lt e; omega)

/-- Layer 1: the target words after the wrap of negative indices (none is negative). -/
theorem wrap_v94 (e : Fin 2101248) : val_main_v94 (F := F) (ix1 e) = BitVec.ofNat 32 (tgtNat e) := by
  show Scalar.select (IntOp.cmpi .slt (val_main_v72 (F := F) (ix1 e)) (val_main_v90 (F := F) (ix1 e)))
      (IntOp.addi (val_main_v72 (F := F) (ix1 e)) (val_main_v92 (F := F) (ix1 e))) (val_main_v72 (F := F) (ix1 e)) = _
  rw [tgt_v72 e]
  exact wrap_ofNat _ (by have := tgtNat_lt e; omega) _ _ ((val_main_v90_apply _).trans rfl)

theorem wrap_v94_toInt (e : Fin 2101248) : (val_main_v94 (F := F) (ix1 e)).toInt = ((tgtNat e : ℕ) : ℤ) := by
  rw [wrap_v94]; exact toInt_ofNat32 _ (by have := tgtNat_lt e; omega)

/-- Layer 1: the source words after the wrap of negative indices (none is negative). -/
theorem wrap_v102 (e : Fin 2101248) : val_main_v102 (F := F) (ix1 e) = BitVec.ofNat 32 (srcNat e) := by
  show Scalar.select (IntOp.cmpi .slt (val_main_v71 (F := F) (ix1 e)) (val_main_v98 (F := F) (ix1 e)))
      (IntOp.addi (val_main_v71 (F := F) (ix1 e)) (val_main_v100 (F := F) (ix1 e))) (val_main_v71 (F := F) (ix1 e)) = _
  rw [src_v71 e]
  exact wrap_ofNat _ (by have := srcNat_lt e; omega) _ _ ((val_main_v98_apply _).trans rfl)

theorem wrap_v102_toInt (e : Fin 2101248) : (val_main_v102 (F := F) (ix1 e)).toInt = ((srcNat e : ℕ) : ℤ) := by
  rw [wrap_v102]; exact toInt_ofNat32 _ (by have := srcNat_lt e; omega)

/-- Layer 2: the source words after the wrap of negative indices (none is negative). -/
theorem wrap_v134 (e : Fin 2101248) : val_main_v134 (F := F) (ix1 e) = BitVec.ofNat 32 (srcNat e) := by
  show Scalar.select (IntOp.cmpi .slt (val_main_v118 (F := F) (ix1 e)) (val_main_v130 (F := F) (ix1 e)))
      (IntOp.addi (val_main_v118 (F := F) (ix1 e)) (val_main_v132 (F := F) (ix1 e))) (val_main_v118 (F := F) (ix1 e)) = _
  rw [src_v118 e]
  exact wrap_ofNat _ (by have := srcNat_lt e; omega) _ _ ((val_main_v130_apply _).trans rfl)

theorem wrap_v134_toInt (e : Fin 2101248) : (val_main_v134 (F := F) (ix1 e)).toInt = ((srcNat e : ℕ) : ℤ) := by
  rw [wrap_v134]; exact toInt_ofNat32 _ (by have := srcNat_lt e; omega)

/-- Layer 2: the target words after the wrap of negative indices (none is negative). -/
theorem wrap_v141 (e : Fin 2101248) : val_main_v141 (F := F) (ix1 e) = BitVec.ofNat 32 (tgtNat e) := by
  show Scalar.select (IntOp.cmpi .slt (val_main_v119 (F := F) (ix1 e)) (val_main_v137 (F := F) (ix1 e)))
      (IntOp.addi (val_main_v119 (F := F) (ix1 e)) (val_main_v139 (F := F) (ix1 e))) (val_main_v119 (F := F) (ix1 e)) = _
  rw [tgt_v119 e]
  exact wrap_ofNat _ (by have := tgtNat_lt e; omega) _ _ ((val_main_v137_apply _).trans rfl)

theorem wrap_v141_toInt (e : Fin 2101248) : (val_main_v141 (F := F) (ix1 e)).toInt = ((tgtNat e : ℕ) : ℤ) := by
  rw [wrap_v141]; exact toInt_ofNat32 _ (by have := tgtNat_lt e; omega)

/-- Layer 2: the source words after the wrap of negative indices (none is negative). -/
theorem wrap_v149 (e : Fin 2101248) : val_main_v149 (F := F) (ix1 e) = BitVec.ofNat 32 (srcNat e) := by
  show Scalar.select (IntOp.cmpi .slt (val_main_v118 (F := F) (ix1 e)) (val_main_v145 (F := F) (ix1 e)))
      (IntOp.addi (val_main_v118 (F := F) (ix1 e)) (val_main_v147 (F := F) (ix1 e))) (val_main_v118 (F := F) (ix1 e)) = _
  rw [src_v118 e]
  exact wrap_ofNat _ (by have := srcNat_lt e; omega) _ _ ((val_main_v145_apply _).trans rfl)

theorem wrap_v149_toInt (e : Fin 2101248) : (val_main_v149 (F := F) (ix1 e)).toInt = ((srcNat e : ℕ) : ℤ) := by
  rw [wrap_v149]; exact toInt_ofNat32 _ (by have := srcNat_lt e; omega)

/-- Layer 3: the source words after the wrap of negative indices (none is negative). -/
theorem wrap_v181 (e : Fin 2101248) : val_main_v181 (F := F) (ix1 e) = BitVec.ofNat 32 (srcNat e) := by
  show Scalar.select (IntOp.cmpi .slt (val_main_v165 (F := F) (ix1 e)) (val_main_v177 (F := F) (ix1 e)))
      (IntOp.addi (val_main_v165 (F := F) (ix1 e)) (val_main_v179 (F := F) (ix1 e))) (val_main_v165 (F := F) (ix1 e)) = _
  rw [src_v165 e]
  exact wrap_ofNat _ (by have := srcNat_lt e; omega) _ _ ((val_main_v177_apply _).trans rfl)

theorem wrap_v181_toInt (e : Fin 2101248) : (val_main_v181 (F := F) (ix1 e)).toInt = ((srcNat e : ℕ) : ℤ) := by
  rw [wrap_v181]; exact toInt_ofNat32 _ (by have := srcNat_lt e; omega)

/-- Layer 3: the target words after the wrap of negative indices (none is negative). -/
theorem wrap_v188 (e : Fin 2101248) : val_main_v188 (F := F) (ix1 e) = BitVec.ofNat 32 (tgtNat e) := by
  show Scalar.select (IntOp.cmpi .slt (val_main_v166 (F := F) (ix1 e)) (val_main_v184 (F := F) (ix1 e)))
      (IntOp.addi (val_main_v166 (F := F) (ix1 e)) (val_main_v186 (F := F) (ix1 e))) (val_main_v166 (F := F) (ix1 e)) = _
  rw [tgt_v166 e]
  exact wrap_ofNat _ (by have := tgtNat_lt e; omega) _ _ ((val_main_v184_apply _).trans rfl)

theorem wrap_v188_toInt (e : Fin 2101248) : (val_main_v188 (F := F) (ix1 e)).toInt = ((tgtNat e : ℕ) : ℤ) := by
  rw [wrap_v188]; exact toInt_ofNat32 _ (by have := tgtNat_lt e; omega)

/-- Layer 3: the source words after the wrap of negative indices (none is negative). -/
theorem wrap_v196 (e : Fin 2101248) : val_main_v196 (F := F) (ix1 e) = BitVec.ofNat 32 (srcNat e) := by
  show Scalar.select (IntOp.cmpi .slt (val_main_v165 (F := F) (ix1 e)) (val_main_v192 (F := F) (ix1 e)))
      (IntOp.addi (val_main_v165 (F := F) (ix1 e)) (val_main_v194 (F := F) (ix1 e))) (val_main_v165 (F := F) (ix1 e)) = _
  rw [src_v165 e]
  exact wrap_ofNat _ (by have := srcNat_lt e; omega) _ _ ((val_main_v192_apply _).trans rfl)

theorem wrap_v196_toInt (e : Fin 2101248) : (val_main_v196 (F := F) (ix1 e)).toInt = ((srcNat e : ℕ) : ℤ) := by
  rw [wrap_v196]; exact toInt_ofNat32 _ (by have := srcNat_lt e; omega)

/-! ## The pooling scatter's index -/

/-- The graph counter repeated and flattened: at batched node q the word of q / 512. -/
theorem pool_word (q : Fin 4096) : val_main_v211 (F := F) (ix1 q) = BitVec.ofNat 32 (q.val / 512) :=
  (val_main_v211_apply _).trans ((val_main_v210_apply _).trans (val_main_v209_apply _))

/-- The same as a column, the form the scatter reads. -/
theorem pool_ids_word (q : Fin 4096) : val_main_v213 (F := F) (ix2 q (0 : Fin 1)) = BitVec.ofNat 32 (q.val / 512) := by
  refine (val_main_v213_apply _).trans ?_
  have hi : idx_main_v213 (ix2 q (0 : Fin 1)) = ix1 q := funext fun a => match a with | ⟨0, _⟩ => rfl
  rw [hi]; exact pool_word q

/-- Read signed, the pooling index at batched node q is q / 512. -/
theorem pool_ids (q : Fin 4096) : (val_main_v213 (F := F) (ix2 q (0 : Fin 1))).toInt = ((q.val / 512 : ℕ) : ℤ) := by
  rw [pool_ids_word]; exact toInt_ofNat32 _ (by have := q.isLt; omega)

/-- The pooling index at q names graph g exactly when q / 512 = g. -/
theorem pool_ids_eq_iff (q : Fin 4096) (g : ℕ) :
    (val_main_v213 (F := F) (ix2 q (0 : Fin 1))).toInt = (g : ℤ) ↔ q.val / 512 = g := by
  rw [pool_ids]; exact Int.ofNat_inj

end Cert.EdgeIndex

end
-- ==== Proof.LibScatterVec.lean ====
/-
  Entries accumulated into a vector along its one axis, read at an index.

  A segment sum of scalars adds `R` update values `upd : [R]` into the entries of an accumulator `acc : [N]`, the
  entry each value goes to named by a column of `R` entry numbers `idx : [R, 1]` (a weighted in-degree: the
  weights of the edges, accumulated at the node each edge arrives at).

  The accumulation's entry `p` is the operand's entry plus the sum, over the update positions `e` whose entry
  number `idx(e, 0)`, read as a signed integer and NOT clamped, is exactly `p`, of the update's value at `e`; an
  update whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-- The dimension numbers of the scalar accumulation `acc[idx] += upd` for `acc : [N]`, `idx : [R, 1]`,
    `upd : [R]`: the updates have no window axis, the operand's one axis is inserted and is the one the entry
    number names. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the operand's axis the window of update position `j` starts at the entry number `idx(j₀, 0)`, read signed. -/
theorem start_vecScatter_zero {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecScatter N R wf).start j idx 0 = (idx (ix2 (j 0) (0 : Fin 1))).toInt := by
  unfold ScatterDims.start
  rw [dif_pos (show (0 : Fin 1) ∈ (vecScatter N R wf).scatterDimsToOperandDims from List.mem_singleton.mpr rfl)]
  have hsi : (vecScatter N R wf).siIdx j ⟨List.idxOf (0 : Fin 1) (vecScatter N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's axis is an inserted one: the window coordinate on it is `0`. -/
theorem window_vecScatter_zero {N R : Nat}
    (wf : ScatterDims.WF ⟨1, ![N]⟩ ⟨2, ![R, 1]⟩ ⟨1, ![R]⟩ [] [0] [0] 1)
    (j : (⟨1, ![R]⟩ : Shape).Idx) :
    (vecScatter N R wf).window j 0 = 0 := by
  unfold ScatterDims.window
  rw [dif_neg (show (0 : Fin 1) ∉ (vecScatter N R wf).sKept from
    (by decide : (0 : Fin 1) ∉ (List.finRange 1).filter (· ∉ ([0] : List (Fin 1)))))]

/-- Update position `j` lands on the operand's entry `p` exactly when its entry number `idx(j₀, 0)`, read signed,
    is `p`; an entry number outside `[0, N)` lands on no entry. -/
theorem resultIdx_vecScatter {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) (p : Fin N) :
    (vecScatter N R wf).resultIdx? j idx = some (ix1 p)
      ↔ (idx (ix2 (j 0) (0 : Fin 1))).toInt = (p.val : ℤ) := by
  have hs0 := start_vecScatter_zero wf j idx
  have hw0 := window_vecScatter_zero wf j
  have hpN : p.val < N := p.isLt
  unfold ScatterDims.resultIdx?
  split
  · rename_i h
    rw [Option.some.injEq]
    constructor
    · intro hf
      have h0 : ((vecScatter N R wf).start j idx 0 + ((vecScatter N R wf).window j 0 : ℤ)).toNat = p.val :=
        congrArg Fin.val (congrFun hf 0)
      have hh0 := (h 0).1
      rw [hs0, hw0] at h0 hh0
      omega
    · intro hp
      funext a
      refine Fin.ext ?_
      match a with
      | ⟨0, _⟩ =>
        show ((vecScatter N R wf).start j idx 0 + ((vecScatter N R wf).window j 0 : ℤ)).toNat = p.val
        rw [hs0, hw0, hp]; omega
  · rename_i h
    constructor
    · intro hf; cases hf
    · intro hp
      exfalso; apply h
      intro a
      match a with
      | ⟨0, _⟩ =>
        show 0 ≤ (vecScatter N R wf).start j idx 0 + ((vecScatter N R wf).window j 0 : ℤ)
          ∧ (vecScatter N R wf).start j idx 0 + ((vecScatter N R wf).window j 0 : ℤ) < (N : ℤ)
        rw [hs0, hw0, hp]; omega

/-- The scalar accumulation at `p`: the operand's entry plus the sum of the updates' values over the update
    positions `e` whose entry number `idx(e, 0)`, read signed and not clamped, is `p`. -/
theorem scatterAdd_vecScatter_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Host.scatterAdd (F := Ideal) (φ := .f32) (vecScatter N R wf) x idx upd (ix1 p)
      = x (ix1 p)
        + ∑ e ∈ Finset.univ.filter (fun e : Fin R => (idx (ix2 e (0 : Fin 1))).toInt = (p.val : ℤ)),
            upd (ix1 e) := by
  show x (ix1 p) + ∑ j ∈ Finset.univ.filter
      (fun j => (vecScatter N R wf).resultIdx? j idx = some (ix1 p)), upd j = _
  congr 1
  symm
  refine Finset.sum_bij (fun e _ => ix1 e) ?_ ?_ ?_ ?_
  · intro e he
    rw [Finset.mem_filter] at he ⊢
    exact ⟨Finset.mem_univ _, (resultIdx_vecScatter wf (ix1 e) idx p).mpr he.2⟩
  · intro e₁ _ e₂ _ h
    exact congrFun h 0
  · intro j hj
    rw [Finset.mem_filter] at hj
    have hj' := (resultIdx_vecScatter wf j idx p).mp hj.2
    exact ⟨j 0, Finset.mem_filter.mpr ⟨Finset.mem_univ _, hj'⟩, (eq_ix1 j).symm⟩
  · intro e _
    rfl

end Cert.Lib

end
-- ==== Proof.EdgeSum.lean ====
/-
  Counting the edges that arrive at a node.

  Among the 2101248 edges, those arriving at the batched node p = g · 512 + c are exactly the 512 grid edges
  r → c of graph g (one for each local source r) and the self loop at p.  Hence a sum over the edges arriving
  at p is a sum over the 512 sources plus the self loop's term.  Likewise the batched nodes q with
  q / 512 = g are exactly the 512 nodes of graph g, so a sum over them is a sum over the local nodes.
  Everything is stated in an arbitrary commutative additive monoid.
-/
import Mathlib.Algebra.BigOperators.Group.Finset.Basic
import Mathlib.Tactic
import proofs.«181092_g44908178047564_cont_sun_c4_353_28_alg».proof.Proof.EdgeDefs

namespace Cert.Edges

open Finset

/-- Graph number of a batched node. -/
def graphOf (p : Fin 4096) : Fin 8 := ⟨p.val / 512, by omega⟩

/-- Local node number of a batched node. -/
def localOf (p : Fin 4096) : Fin 512 := ⟨p.val % 512, Nat.mod_lt _ (by norm_num)⟩

@[simp] theorem node_graphOf_localOf (p : Fin 4096) : node (graphOf p) (localOf p) = p := by
  apply Fin.ext; simp only [node, graphOf, localOf]; omega

@[simp] theorem graphOf_node (g : Fin 8) (c : Fin 512) : graphOf (node g c) = g := by
  apply Fin.ext; simp only [node, graphOf]; omega

@[simp] theorem localOf_node (g : Fin 8) (c : Fin 512) : localOf (node g c) = c := by
  apply Fin.ext; simp only [node, localOf]; omega

theorem node_val (g : Fin 8) (c : Fin 512) : (node g c).val = g.val * 512 + c.val := rfl

theorem edge_val (g : Fin 8) (r c : Fin 512) : (edge g r c).val = g.val * 262144 + r.val * 512 + c.val := rfl

theorem loop_val (p : Fin 4096) : (loop p).val = 2097152 + p.val := rfl

theorem edge_injective_left (g : Fin 8) (c : Fin 512) : Function.Injective (fun r : Fin 512 => edge g r c) := by
  intro r r' h
  have := congrArg Fin.val h
  simp only [edge] at this
  apply Fin.ext; omega

theorem node_injective (g : Fin 8) : Function.Injective (node g) := by
  intro c c' h
  have := congrArg Fin.val h
  simp only [node] at this
  apply Fin.ext; omega

/-- The edges arriving at node (g, c): the grid edges r → c of graph g, and the self loop. -/
theorem filter_tgtNat_node (g : Fin 8) (c : Fin 512) :
    (univ.filter (fun e : Fin 2101248 => tgtNat e = (node g c).val)) =
      (univ.image (fun r : Fin 512 => edge g r c)) ∪ {loop (node g c)} := by
  ext e
  simp only [mem_filter, mem_univ, true_and, mem_union, mem_image, mem_singleton]
  constructor
  · intro h
    unfold tgtNat at h
    simp only [node] at h
    by_cases he : e.val < 2097152
    · left
      rw [if_pos he] at h
      refine ⟨⟨e.val / 512 % 512, Nat.mod_lt _ (by norm_num)⟩, ?_⟩
      apply Fin.ext
      simp only [edge]
      omega
    · right
      rw [if_neg he] at h
      apply Fin.ext
      simp only [loop, node]
      omega
  · rintro (⟨r, rfl⟩ | rfl)
    · rw [tgtNat_edge]; rfl
    · rw [tgtNat_loop]

/-- A sum over the edges arriving at node (g, c) is the sum over the 512 sources plus the self loop's term. -/
theorem sum_filter_tgtNat_node {M : Type*} [AddCommMonoid M] (f : Fin 2101248 → M) (g : Fin 8) (c : Fin 512) :
    ∑ e ∈ univ.filter (fun e : Fin 2101248 => tgtNat e = (node g c).val), f e
      = (∑ r : Fin 512, f (edge g r c)) + f (loop (node g c)) := by
  rw [filter_tgtNat_node, sum_union, sum_image, sum_singleton]
  · intro r _ r' _ h; exact edge_injective_left g c h
  · rw [disjoint_singleton_right]
    simp only [mem_image, mem_univ, true_and, not_exists]
    intro r h
    have := congrArg Fin.val h
    simp only [edge, loop] at this
    omega

/-- The same at a batched node p, its graph p / 512 and local number p % 512. -/
theorem sum_filter_tgtNat {M : Type*} [AddCommMonoid M] (f : Fin 2101248 → M) (p : Fin 4096) :
    ∑ e ∈ univ.filter (fun e : Fin 2101248 => tgtNat e = p.val), f e
      = (∑ r : Fin 512, f (edge (graphOf p) r (localOf p))) + f (loop p) := by
  have h := sum_filter_tgtNat_node f (graphOf p) (localOf p)
  rw [node_graphOf_localOf] at h
  exact h

/-- The same for any decidable description of "e arrives at p". -/
theorem sum_filter_arrives {M : Type*} [AddCommMonoid M] (f : Fin 2101248 → M) (p : Fin 4096)
    (P : Fin 2101248 → Prop) [DecidablePred P] (hP : ∀ e, P e ↔ tgtNat e = p.val) :
    ∑ e ∈ univ.filter P, f e
      = (∑ r : Fin 512, f (edge (graphOf p) r (localOf p))) + f (loop p) := by
  rw [← sum_filter_tgtNat]
  refine sum_congr ?_ (fun _ _ => rfl)
  ext e; simp only [mem_filter, mem_univ, true_and]; exact hP e

/-- The same at node (g, c), for any decidable description of "e arrives at node (g, c)". -/
theorem sum_filter_arrives_node {M : Type*} [AddCommMonoid M] (f : Fin 2101248 → M) (g : Fin 8) (c : Fin 512)
    (P : Fin 2101248 → Prop) [DecidablePred P] (hP : ∀ e, P e ↔ tgtNat e = g.val * 512 + c.val) :
    ∑ e ∈ univ.filter P, f e = (∑ r : Fin 512, f (edge g r c)) + f (loop (node g c)) := by
  rw [← sum_filter_tgtNat_node]
  refine sum_congr ?_ (fun _ _ => rfl)
  ext e; simp only [mem_filter, mem_univ, true_and]; exact hP e

/-- The batched nodes of graph g are the 512 nodes (g, c). -/
theorem filter_graph (g : Fin 8) :
    (univ.filter (fun q : Fin 4096 => q.val / 512 = g.val)) = univ.image (node g) := by
  ext q
  simp only [mem_filter, mem_univ, true_and, mem_image]
  constructor
  · intro h
    refine ⟨localOf q, ?_⟩
    apply Fin.ext
    simp only [node, localOf]
    omega
  · rintro ⟨c, rfl⟩
    simp only [node]
    omega

/-- A sum over the batched nodes of graph g is the sum over its 512 local nodes. -/
theorem sum_filter_graph {M : Type*} [AddCommMonoid M] (f : Fin 4096 → M) (g : Fin 8) :
    ∑ q ∈ univ.filter (fun q : Fin 4096 => q.val / 512 = g.val), f q = ∑ c : Fin 512, f (node g c) := by
  rw [filter_graph, sum_image]
  intro c _ c' _ h; exact node_injective g h

/-- The same for any decidable description of "q is a node of graph g". -/
theorem sum_filter_inGraph {M : Type*} [AddCommMonoid M] (f : Fin 4096 → M) (g : Fin 8)
    (P : Fin 4096 → Prop) [DecidablePred P] (hP : ∀ q, P q ↔ q.val / 512 = g.val) :
    ∑ q ∈ univ.filter P, f q = ∑ c : Fin 512, f (node g c) := by
  rw [← sum_filter_graph]
  refine sum_congr ?_ (fun _ _ => rfl)
  ext q; simp only [mem_filter, mem_univ, true_and]; exact hP q

end Cert.Edges
-- ==== Proof.DegreeEntry.lean ====
/-
  The inverse square root of a degree, one entry at a time, on the extended reals.

  For a real degree `d` the entry `where(d > 0, d ^ (-1/2), 0)` is the real number `(√d)⁻¹` when `d` is
  positive and `0` otherwise: a real base raised to a real exponent is the real power, and for a positive base
  `d ^ (-1/2) = (d ^ (1/2))⁻¹ = (√d)⁻¹`.  The binary32 word `0xBF000000` (sign set, exponent field 126, no
  fraction bits) is `-(2 ^ 23) · 2 ^ (126 - 127 - 23) = -1/2`.
-/
import Idealize.ShloMosaic.PureOps.Ideal.Laws
import Mathlib.Analysis.SpecialFunctions.Pow.Real
import Mathlib.Analysis.SpecialFunctions.Sqrt

noncomputable section

namespace Cert.Degree

open Idealize.ShloMosaic

/-- The binary32 word `0xBF000000` is the real number `-1/2`. -/
theorem neg_half_word_f32 : Ideal.ofBits .f32 0xBF000000#32 = ((-1 / 2 : ℝ) : EReal) := by
  simp [Ideal.ofBits, Ideal.ieee]
  rw [← EReal.coe_mul]
  norm_num

/-- For a positive base, the power `-1/2` is the reciprocal of the square root. -/
theorem rpow_neg_half {d : ℝ} (hd : 0 < d) : Real.rpow d (-1 / 2) = (Real.sqrt d)⁻¹ := by
  show d ^ (-1 / 2 : ℝ) = (Real.sqrt d)⁻¹
  rw [Real.sqrt_eq_rpow, ← Real.rpow_neg hd.le]
  norm_num

/-- One entry of `where(deg > 0, deg ^ (-1/2), 0)` at a real degree `d`: the real `(√d)⁻¹` where `d` is
    positive, `0` elsewhere. -/
theorem dinv_entry (d : ℝ) :
    Scalar.select
        (FloatOps.cmpf (F := Ideal) (φ := .f32) .ogt ((d : ℝ) : EReal) (FloatOps.ofBits (F := Ideal) .f32 0x00000000#32))
        (FloatOps.hostPowf (F := Ideal) (φ := .f32) ((d : ℝ) : EReal) (FloatOps.ofBits (F := Ideal) .f32 0xBF000000#32))
        (FloatOps.ofBits (F := Ideal) .f32 0x00000000#32)
      = (((if 0 < d then (Real.sqrt d)⁻¹ else 0 : ℝ)) : EReal) := by
  show Scalar.select (Ideal.cmp .ogt ((d : ℝ) : EReal) (Ideal.ofBits .f32 0x00000000#32))
        (Ideal.pow ((d : ℝ) : EReal) (Ideal.ofBits .f32 0xBF000000#32)) (Ideal.ofBits .f32 0x00000000#32) = _
  rw [Ideal.ofBits_zero_f32, neg_half_word_f32, Ideal.pow_coe_coe]
  unfold Scalar.select Ideal.cmp
  by_cases hd : 0 < d
  · have h0 : ((0 : ℝ) : EReal) < (d : EReal) := EReal.coe_lt_coe_iff.mpr hd
    rw [if_pos hd, rpow_neg_half hd]
    simp [hd]
  · have h0 : ¬ ((0 : ℝ) : EReal) < (d : EReal) := fun h => hd (EReal.coe_lt_coe_iff.mp h)
    rw [if_neg hd]
    simp [hd]

end Cert.Degree

end
-- ==== Proof.DegreeGeneric.lean ====
/-
  The weighted in-degree of the batched graph and its inverse square root, over abstract edge arrays.

  The edge list has one grid edge `r → c` of weight `a g r c` for every graph `g` and pair of local nodes, and
  one self loop of weight `1` at every batched node.  Accumulating the weights at the node each edge arrives at,
  starting from zero, leaves at node `c` of graph `g` the sum of the 512 weights `a g r c` plus the loop's `1`:
  the degree `deg g c`.  All of these are real numbers, and so is `where(deg > 0, deg ^ (-1/2), 0)`: the
  inverse square root `dinv g c`.

  The arrays are abstract here: a vector of zeros, a column of target words whose signed reading is the edge's
  target node, and a vector of weights; each copy of the computation in a program supplies its own.
-/
import proofs.«181092_g44908178047564_cont_sun_c4_353_28_alg».proof.Proof.LibScatterVec
import proofs.«181092_g44908178047564_cont_sun_c4_353_28_alg».proof.Proof.LibAggLinear
import proofs.«181092_g44908178047564_cont_sun_c4_353_28_alg».proof.Proof.EdgeSum
import proofs.«181092_g44908178047564_cont_sun_c4_353_28_alg».proof.Proof.Spec
import proofs.«181092_g44908178047564_cont_sun_c4_353_28_alg».proof.Proof.DegreeEntry

noncomputable section

open scoped BigOperators

namespace Cert.Degree

open Idealize.ShloMosaic Idealize.ShloMosaic.ValueIdx Cert.Edges Cert.Lib

/-- The accumulated weights at node `c` of graph `g` are the degree: zero, plus the 512 grid edges arriving
    there, plus the self loop. -/
theorem degree_generic
    (wf : ScatterDims.WF ⟨1, ![4096]⟩ ⟨2, ![2101248, 1]⟩ ⟨1, ![2101248]⟩ [] [0] [0] 1)
    (z : (⟨1, ![4096]⟩ : Shape).Idx → EReal) (col : IVec ⟨2, ![2101248, 1]⟩ 32)
    (wts : (⟨1, ![2101248]⟩ : Shape).Idx → EReal) (a : Fin 8 → Fin 512 → Fin 512 → ℝ)
    (hz : ∀ i, z i = 0)
    (hcol : ∀ e : Fin 2101248, (col (ix2 e (0 : Fin 1))).toInt = (tgtNat e : ℤ))
    (hw : ∀ g r c, wts (ix1 (edge g r c)) = ((a g r c : ℝ) : EReal))
    (hl : ∀ p, wts (ix1 (loop p)) = 1) (g : Fin 8) (c : Fin 512) :
    Host.scatterAdd (F := Ideal) (φ := .f32) (vecScatter 4096 2101248 wf) z col wts (ix1 (node g c))
      = ((Spec.deg a g c : ℝ) : EReal) := by
  rw [scatterAdd_vecScatter_apply, hz, zero_add,
    sum_filter_arrives_node (fun e => wts (ix1 e)) g c _ (fun e => by rw [hcol e, node_val]; omega)]
  unfold Spec.deg
  rw [EReal.coe_add, ereal_coe_sum, hl, EReal.coe_one]
  congr 1
  exact Finset.sum_congr rfl fun r _ => hw g r c

/-- Where the degree vector holds the real `d` at an index, `where(deg > 0, deg ^ (-1/2), 0)` holds the real
    `(√d)⁻¹` there if `d` is positive and `0` otherwise. -/
theorem dinv_generic {s : Shape} (degv z1 nh z2 : s.Idx → EReal) (i : s.Idx) (d : ℝ)
    (hdeg : degv i = ((d : ℝ) : EReal))
    (hz1 : z1 i = FloatOps.ofBits (F := Ideal) .f32 0x00000000#32)
    (hnh : nh i = FloatOps.ofBits (F := Ideal) .f32 0xBF000000#32)
    (hz2 : z2 i = FloatOps.ofBits (F := Ideal) .f32 0x00000000#32) :
    select (cmpf (F := Ideal) (φ := .f32) .ogt degv z1) (Host.powf (F := Ideal) (φ := .f32) degv nh) z2 i
      = (((if 0 < d then (Real.sqrt d)⁻¹ else 0 : ℝ)) : EReal) := by
  show Scalar.select (FloatOps.cmpf (F := Ideal) (φ := .f32) .ogt (degv i) (z1 i))
      (FloatOps.hostPowf (F := Ideal) (φ := .f32) (degv i) (nh i)) (z2 i) = _
  rw [hdeg, hz1, hnh, hz2]
  exact dinv_entry d

end Cert.Degree

end
-- ==== Proof.Degree.lean ====
/-
  The three copies of the degree and of its inverse square root in the reference program.

  Each layer recomputes, from the same edge list, the weighted in-degree of the 4096 batched nodes (the weights
  accumulated at the node each edge arrives at, starting from zero) and `where(deg > 0, deg ^ (-1/2), 0)`.  For
  real edge weights `a` the degree at node `c` of graph `g` is the real `deg g c = (∑ r, a g r c) + 1` and the
  second vector is the real `dinv g c`.  The second and third copies are the first one's terms under other
  buffer names.
-/
import proofs.«181092_g44908178047564_cont_sun_c4_353_28_alg».proof.Proof.DegreeGeneric
import proofs.«181092_g44908178047564_cont_sun_c4_353_28_alg».proof.Proof.EdgeArrays
import proofs.«181092_g44908178047564_cont_sun_c4_353_28_alg».proof.Proof.Gen.ReferenceIdeal.Read

noncomputable section

namespace Cert.Degree

open Idealize.ShloMosaic Idealize.ShloMosaic.ValueIdx Cert.Edges Cert.Lib
open Cert.ReferenceIdeal Cert.ReferenceIdeal.Gen Cert.ReferenceIdeal.Read

/-- The column of target words read at `(e, 0)` is the vector of target words read at `e`. -/
theorem idx_main_v76_col (e : Fin 2101248) : idx_main_v76 (ix2 e (0 : Fin 1)) = ix1 e := by
  funext a
  match a with
  | ⟨0, _⟩ => rfl

variable (A : (⟨S8x512x512, .f32⟩ : BufTy).Contents (Elt Ideal)) (a : Fin 8 → Fin 512 → Fin 512 → ℝ)

/-- First copy: the degree at node `c` of graph `g`. -/
theorem deg1 (hA : ∀ g r c, A (ix3 g r c) = ((a g r c : ℝ) : EReal)) (g : Fin 8) (c : Fin 512) :
    val_main_v77 (F := Ideal) A (ix1 (node g c)) = ((Spec.deg a g c : ℝ) : EReal) := by
  unfold val_main_v77
  exact degree_generic scatter_S4096_S2101248x1_S2101248_n_0_0_1_wf _ _ _ a
    (fun i => by rw [val_main_v75_apply, val_main_cst_15_apply]; exact Ideal.ofBits_zero_f32)
    (fun e => by rw [val_main_v76_apply, idx_main_v76_col]; exact Cert.EdgeArrays.tgt_v72_toInt e)
    (fun g r c => by rw [Cert.EdgeArrays.w_v74_edge, hA])
    (fun p => Cert.EdgeArrays.w_v74_loop A p) g c

/-- First copy: the inverse square root of the degree at node `c` of graph `g`. -/
theorem dinv1 (hA : ∀ g r c, A (ix3 g r c) = ((a g r c : ℝ) : EReal)) (g : Fin 8) (c : Fin 512) :
    val_main_v82 (F := Ideal) A (ix1 (node g c)) = ((Spec.dinv a g c : ℝ) : EReal) := by
  unfold val_main_v82 val_main_v79 val_main_v81 Spec.dinv
  exact dinv_generic _ _ _ _ _ _ (deg1 A a hA g c)
    (by rw [val_main_v78_apply, val_main_cst_16_apply])
    (by rw [val_main_v80_apply, val_main_cst_17_apply])
    (by rw [val_main_call0_v1_apply, val_main_call0_v0_apply, val_main_cst_18_apply])

/-- The second and third copies of the degree are the first one's term. -/
theorem val_main_v124_eq : val_main_v124 (F := Ideal) = val_main_v77 := rfl
theorem val_main_v171_eq : val_main_v171 (F := Ideal) = val_main_v77 := rfl
/-- The second and third copies of the inverse square root are the first one's term. -/
theorem val_main_v129_eq : val_main_v129 (F := Ideal) = val_main_v82 := rfl
theorem val_main_v176_eq : val_main_v176 (F := Ideal) = val_main_v82 := rfl

/-- Second copy: the degree. -/
theorem deg2 (hA : ∀ g r c, A (ix3 g r c) = ((a g r c : ℝ) : EReal)) (g : Fin 8) (c : Fin 512) :
    val_main_v124 (F := Ideal) A (ix1 (node g c)) = ((Spec.deg a g c : ℝ) : EReal) := by
  rw [val_main_v124_eq]; exact deg1 A a hA g c
/-- Third copy: the degree. -/
theorem deg3 (hA : ∀ g r c, A (ix3 g r c) = ((a g r c : ℝ) : EReal)) (g : Fin 8) (c : Fin 512) :
    val_main_v171 (F := Ideal) A (ix1 (node g c)) = ((Spec.deg a g c : ℝ) : EReal) := by
  rw [val_main_v171_eq]; exact deg1 A a hA g c
/-- Second copy: the inverse square root of the degree. -/
theorem dinv2 (hA : ∀ g r c, A (ix3 g r c) = ((a g r c : ℝ) : EReal)) (g : Fin 8) (c : Fin 512) :
    val_main_v129 (F := Ideal) A (ix1 (node g c)) = ((Spec.dinv a g c : ℝ) : EReal) := by
  rw [val_main_v129_eq]; exact dinv1 A a hA g c
/-- Third copy: the inverse square root of the degree. -/
theorem dinv3 (hA : ∀ g r c, A (ix3 g r c) = ((a g r c : ℝ) : EReal)) (g : Fin 8) (c : Fin 512) :
    val_main_v176 (F := Ideal) A (ix1 (node g c)) = ((Spec.dinv a g c : ℝ) : EReal) := by
  rw [val_main_v176_eq]; exact dinv1 A a hA g c

/-! Every batched node `p` is node `p % 512` of graph `p / 512`: the same six facts at an arbitrary `p`. -/

theorem deg1_at (hA : ∀ g r c, A (ix3 g r c) = ((a g r c : ℝ) : EReal)) (p : Fin 4096) :
    val_main_v77 (F := Ideal) A (ix1 p) = ((Spec.deg a (graphOf p) (localOf p) : ℝ) : EReal) := by
  have h := deg1 A a hA (graphOf p) (localOf p); rwa [node_graphOf_localOf] at h
theorem deg2_at (hA : ∀ g r c, A (ix3 g r c) = ((a g r c : ℝ) : EReal)) (p : Fin 4096) :
    val_main_v124 (F := Ideal) A (ix1 p) = ((Spec.deg a (graphOf p) (localOf p) : ℝ) : EReal) := by
  have h := deg2 A a hA (graphOf p) (localOf p); rwa [node_graphOf_localOf] at h
theorem deg3_at (hA : ∀ g r c, A (ix3 g r c) = ((a g r c : ℝ) : EReal)) (p : Fin 4096) :
    val_main_v171 (F := Ideal) A (ix1 p) = ((Spec.deg a (graphOf p) (localOf p) : ℝ) : EReal) := by
  have h := deg3 A a hA (graphOf p) (localOf p); rwa [node_graphOf_localOf] at h
theorem dinv1_at (hA : ∀ g r c, A (ix3 g r c) = ((a g r c : ℝ) : EReal)) (p : Fin 4096) :
    val_main_v82 (F := Ideal) A (ix1 p) = ((Spec.dinv a (graphOf p) (localOf p) : ℝ) : EReal) := by
  have h := dinv1 A a hA (graphOf p) (localOf p); rwa [node_graphOf_localOf] at h
theorem dinv2_at (hA : ∀ g r c, A (ix3 g r c) = ((a g r c : ℝ) : EReal)) (p : Fin 4096) :
    val_main_v129 (F := Ideal) A (ix1 p) = ((Spec.dinv a (graphOf p) (localOf p) : ℝ) : EReal) := by
  have h := dinv2 A a hA (graphOf p) (localOf p); rwa [node_graphOf_localOf] at h
theorem dinv3_at (hA : ∀ g r c, A (ix3 g r c) = ((a g r c : ℝ) : EReal)) (p : Fin 4096) :
    val_main_v176 (F := Ideal) A (ix1 p) = ((Spec.dinv a (graphOf p) (localOf p) : ℝ) : EReal) := by
  have h := dinv3 A a hA (graphOf p) (localOf p); rwa [node_graphOf_localOf] at h

end Cert.Degree

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibEdgeAgg.lean ====
/-
  The weighted neighbourhood sum of a graph layer, read at an index.

  For a matrix `h : [N, D]`, two vectors of `R` row numbers `sw` (sources) and `dv` (targets) and a vector of `R`
  weights `nrm`, the layer takes the rows `h[sw]`, scales row `e` by `nrm(e)`, and adds it into row `dv(e)` of an
  all-zero `[N, D]` accumulator. The vectors travel as one-column matrices `[R, 1]`, the weights stretched to `[R, D]`.
  Entry `(p, k)` of the result is the sum, over the edges `e` whose target `dv(e)`, read as a signed integer, is `p`, of
  `h(sw(e), k) · nrm(e)`, the source row read signed and clamped into `[0, N − 1]`.
-/
import proofs.«181092_g44908178047564_cont_sun_c4_353_28_alg».proof.Proof.LibEdgeRows
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

variable {α : Type}

/-- A vector carried as a one-column matrix, read at `(e, u)`: the vector at `e`. -/
theorem col_apply {R : ℕ} (hc : (⟨1, ![R]⟩ : Shape).BroadcastsInDim ⟨2, ![R, 1]⟩ (![0] : Fin 1 → Fin 2))
    (v : (⟨1, ![R]⟩ : Shape).Idx → α) (e : Fin R) (u : Fin 1) :
    broadcastInDim ⟨2, ![R, 1]⟩ ![0] hc v (ix2 e u) = v (ix1 e) := by
  refine broadcastInDim_apply _ hc v (ix2 e u) (ix1 e) ?_
  intro a
  match a with
  | ⟨0, _⟩ =>
    show e.val = if R = 1 then 0 else e.val
    have := e.isLt
    split <;> omega

/-- A one-column matrix stretched along its rows to `D` columns, read at `(e, k)`: the column at `(e, 0)`. -/
theorem stretch_apply {R D : ℕ} (hb : (⟨2, ![R, 1]⟩ : Shape).BroadcastsInDim ⟨2, ![R, D]⟩ (![0, 1] : Fin 2 → Fin 2))
    (y : (⟨2, ![R, 1]⟩ : Shape).Idx → α) (e : Fin R) (k : Fin D) :
    broadcastInDim ⟨2, ![R, D]⟩ ![0, 1] hb y (ix2 e k) = y (ix2 e (0 : Fin 1)) := by
  refine broadcastInDim_apply _ hb y (ix2 e k) (ix2 e (0 : Fin 1)) ?_
  intro a
  match a with
  | ⟨0, _⟩ =>
    show e.val = if R = 1 then 0 else e.val
    have := e.isLt
    split <;> omega
  | ⟨1, _⟩ =>
    show (0 : ℕ) = if (1 : ℕ) = 1 then 0 else k.val
    rfl

/-- The all-zero matrix (the zero word at every entry), read at any index: the extended real `0`. -/
theorem zeros_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The weighted neighbourhood sum at `(p, k)`: over the edges `e` whose target `dv(e)` is `p`, the sum of the source
    row's entry `h(sw(e), k)` times the edge's weight `nrm(e)`. -/
theorem agg_rows_apply {N D R : ℕ} (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (h : (⟨2, ![N, D]⟩ : Shape).Idx → EReal) (sw dv : IVec ⟨1, ![R]⟩ 32)
    (nrm : (⟨1, ![R]⟩ : Shape).Idx → EReal) (p : Fin N) (k : Fin D) :
    Host.scatterAdd (F := Ideal) (φ := .f32) (rowsScatter N D R wfS)
        (broadcastInDim ⟨2, ![N, D]⟩ ![] hz (constant (F := Ideal) ⟨0, ![]⟩ .f32 0x00000000#32))
        (broadcastInDim ⟨2, ![R, 1]⟩ ![0] hc dv)
        (mulf (Host.gather (rowsTake N D R wfG) h (broadcastInDim ⟨2, ![R, 1]⟩ ![0] hc sw))
              (broadcastInDim ⟨2, ![R, D]⟩ ![0, 1] hb (broadcastInDim ⟨2, ![R, 1]⟩ ![0] hc nrm))) (ix2 p k)
      = ∑ e ∈ Finset.univ.filter (fun e : Fin R => (dv (ix1 e)).toInt = (p.val : ℤ)),
          h (ix2 (⟨min (sw (ix1 e)).toInt.toNat (N - 1), by omega⟩ : Fin N) k) * nrm (ix1 e) := by
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  refine Finset.sum_congr rfl fun e _ => ?_
  have hrow : (⟨min (broadcastInDim ⟨2, ![R, 1]⟩ ![0] hc sw (ix2 e (0 : Fin 1))).toInt.toNat (N - 1), by omega⟩ : Fin N)
      = ⟨min (sw (ix1 e)).toInt.toNat (N - 1), by omega⟩ :=
    Fin.ext (congrArg (fun z : BitVec 32 => min z.toInt.toNat (N - 1)) (col_apply hc sw e 0))
  rw [mulf_apply, gather_rowsTake_apply hN, stretch_apply, hrow, col_apply hc nrm]

end Cert.Lib

end
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.Propagate.lean ====
/-
  One normalised propagation over the explicit edge list, read at a node.

  The edge list has 2101248 edges; edge `e` leaves node `srcNat e` and arrives at node `tgtNat e` of the 4096 batched
  nodes.  A propagation takes the rows of a matrix `XW : [4096, D]` at the edges' sources, scales row `e` by the edge's
  normalised weight `NRM e`, and adds it into the row of the edge's target.  Read at node `c` of graph `g`, the edges
  arriving there are the 512 grid edges `r → c` of graph `g` and the node's self loop, so the entry is a sum over the 512
  sources `r` plus the self loop's term.  The normalised weight is the edge's weight times the two end points'
  inverse-square-root degrees, each looked up through the edge's source / target word.
-/
import proofs.«181092_g44908178047564_cont_sun_c4_353_28_alg».proof.Proof.LibEdgeAgg
import proofs.«181092_g44908178047564_cont_sun_c4_353_28_alg».proof.Proof.LibGatherRows
import proofs.«181092_g44908178047564_cont_sun_c4_353_28_alg».proof.Proof.LibAggLinear
import proofs.«181092_g44908178047564_cont_sun_c4_353_28_alg».proof.Proof.EdgeDefs
import proofs.«181092_g44908178047564_cont_sun_c4_353_28_alg».proof.Proof.EdgeSum

noncomputable section

open scoped BigOperators

namespace Cert.Propagate

open Idealize.ShloMosaic Idealize.ShloMosaic.ValueIdx Cert.Lib Cert.Edges

/-- The negative-index wrap (`w < 0 ? w + k : w`) leaves a word that reads non-negative as it is. -/
theorem wrap_id (w k : BitVec 32) (hw : 0 ≤ w.toInt) :
    Scalar.select (IntOp.cmpi .slt w 0#32) (IntOp.addi w k) w = w := by
  have h : w.slt 0#32 = false := by
    rw [BitVec.slt]
    simp only [BitVec.toInt_zero, decide_eq_false_iff_not, not_lt]
    exact hw
  unfold Scalar.select IntOp.cmpi
  simp only [h]
  rfl

/-- A source or target word that reads as a node number below 4096 names that node after the lookup's clamp. -/
theorem clamp_node (w : BitVec 32) (n : ℕ) (hn : n < 4096) (hw : w.toInt = (n : ℤ))
    (h : min w.toInt.toNat (4096 - 1) < 4096) :
    (⟨min w.toInt.toNat (4096 - 1), h⟩ : Fin 4096) = ⟨n, hn⟩ := by
  refine Fin.ext ?_
  show min w.toInt.toNat (4096 - 1) = n
  rw [hw]
  omega

/-- The same through the one-column carrier of the words. -/
theorem clamp_col (hc : (⟨1, ![2101248]⟩ : Shape).BroadcastsInDim ⟨2, ![2101248, 1]⟩ (![0] : Fin 1 → Fin 2))
    (SW : IVec ⟨1, ![2101248]⟩ 32) (e : Fin 2101248) (n : ℕ) (hn : n < 4096) (hw : (SW (ix1 e)).toInt = (n : ℤ))
    (h : min (broadcastInDim ⟨2, ![2101248, 1]⟩ ![0] hc SW (ix2 e (0 : Fin 1))).toInt.toNat (4096 - 1) < 4096) :
    (⟨min (broadcastInDim ⟨2, ![2101248, 1]⟩ ![0] hc SW (ix2 e (0 : Fin 1))).toInt.toNat (4096 - 1), h⟩ : Fin 4096)
      = ⟨n, hn⟩ := by
  refine Fin.ext ?_
  show min (broadcastInDim ⟨2, ![2101248, 1]⟩ ![0] hc SW (ix2 e (0 : Fin 1))).toInt.toNat (4096 - 1) = n
  rw [col_apply, hw]
  omega

/-- The edge's normalised weight: its weight times the inverse-square-root degrees at its two ends. -/
theorem edge_norm_apply
    (wfF : GatherDims.WF ⟨1, ![4096]⟩ ⟨2, ![2101248, 1]⟩ ⟨1, ![2101248]⟩ [] [0] [] [0] [] 1 ![1])
    (hc : (⟨1, ![2101248]⟩ : Shape).BroadcastsInDim ⟨2, ![2101248, 1]⟩ (![0] : Fin 1 → Fin 2))
    (DI : FVec Ideal ⟨1, ![4096]⟩ .f32) (SW TW : IVec ⟨1, ![2101248]⟩ 32) (EW : FVec Ideal ⟨1, ![2101248]⟩ .f32)
    (hS : ∀ e, (SW (ix1 e)).toInt = ((srcNat e : ℕ) : ℤ)) (hT : ∀ e, (TW (ix1 e)).toInt = ((tgtNat e : ℕ) : ℤ))
    (e : Fin 2101248) :
    mulf EW (mulf (Host.gather (flatTake 4096 2101248 wfF) DI (broadcastInDim ⟨2, ![2101248, 1]⟩ ![0] hc SW))
                  (Host.gather (flatTake 4096 2101248 wfF) DI (broadcastInDim ⟨2, ![2101248, 1]⟩ ![0] hc TW))) (ix1 e)
      = EW (ix1 e) * (DI (ix1 (⟨srcNat e, srcNat_lt e⟩ : Fin 4096)) * DI (ix1 (⟨tgtNat e, tgtNat_lt e⟩ : Fin 4096))) := by
  rw [mulf_apply, mulf_apply, gather_flatTake_apply (by norm_num), gather_flatTake_apply (by norm_num),
    clamp_col hc SW e _ (srcNat_lt e) (hS e), clamp_col hc TW e _ (tgtNat_lt e) (hT e)]

/-- The propagation's sum at node `c` of graph `g`: over the 512 sources of the graph, plus the self loop. -/
theorem agg_node_apply {D : ℕ}
    (wfG : GatherDims.WF ⟨2, ![4096, D]⟩ ⟨2, ![2101248, 1]⟩ ⟨2, ![2101248, D]⟩ [1] [0] [] [0] [] 1 ![1, D])
    (wfS : ScatterDims.WF ⟨2, ![4096, D]⟩ ⟨2, ![2101248, 1]⟩ ⟨2, ![2101248, D]⟩ [1] [0] [0] 1)
    (hz : (⟨0, ![]⟩ : Shape).BroadcastsInDim ⟨2, ![4096, D]⟩ (![] : Fin 0 → Fin 2))
    (hc : (⟨1, ![2101248]⟩ : Shape).BroadcastsInDim ⟨2, ![2101248, 1]⟩ (![0] : Fin 1 → Fin 2))
    (hb : (⟨2, ![2101248, 1]⟩ : Shape).BroadcastsInDim ⟨2, ![2101248, D]⟩ (![0, 1] : Fin 2 → Fin 2))
    (XW : (⟨2, ![4096, D]⟩ : Shape).Idx → EReal) (SW TW : IVec ⟨1, ![2101248]⟩ 32)
    (NRM : (⟨1, ![2101248]⟩ : Shape).Idx → EReal)
    (hS : ∀ e, (SW (ix1 e)).toInt = ((srcNat e : ℕ) : ℤ)) (hT : ∀ e, (TW (ix1 e)).toInt = ((tgtNat e : ℕ) : ℤ))
    (g : Fin 8) (c : Fin 512) (k : Fin D) :
    Host.scatterAdd (F := Ideal) (φ := .f32) (rowsScatter 4096 D 2101248 wfS)
        (broadcastInDim ⟨2, ![4096, D]⟩ ![] hz (constant (F := Ideal) ⟨0, ![]⟩ .f32 0x00000000#32))
        (broadcastInDim ⟨2, ![2101248, 1]⟩ ![0] hc TW)
        (mulf (Host.gather (rowsTake 4096 D 2101248 wfG) XW (broadcastInDim ⟨2, ![2101248, 1]⟩ ![0] hc SW))
              (broadcastInDim ⟨2, ![2101248, D]⟩ ![0, 1] hb (broadcastInDim ⟨2, ![2101248, 1]⟩ ![0] hc NRM)))
        (ix2 (node g c) k)
      = (∑ r : Fin 512, XW (ix2 (node g r) k) * NRM (ix1 (edge g r c)))
          + XW (ix2 (node g c) k) * NRM (ix1 (loop (node g c))) := by
  rw [agg_rows_apply (by norm_num)]
  rw [sum_filter_arrives_node _ g c _ (fun e => by
    rw [hT e]
    show ((tgtNat e : ℕ) : ℤ) = ((g.val * 512 + c.val : ℕ) : ℤ) ↔ _
    exact Nat.cast_inj)]
  congr 1
  · refine Finset.sum_congr rfl fun r _ => ?_
    rw [clamp_node _ _ (srcNat_lt _) (hS _)]
    congr 3
    exact Fin.ext (srcNat_edge g r c)
  · rw [clamp_node _ _ (srcNat_lt _) (hS _)]
    congr 3
    exact Fin.ext (srcNat_loop _)

end Cert.Propagate

end
-- ==== Proof.PropagateTail.lean ====
/-
  The small array operations around a propagation, read at an index.

  A bias vector `[D]` laid as one row `[1, D]` and repeated over `N` rows reads the vector's entry `k` at every `(p, k)`.
  The positive part is the entrywise maximum with an all-zero array.  The pooling adds the 4096 node rows into 8 graph
  rows, node `q` into the row its graph word names; when that word reads `q / 512`, graph `g`'s row is the sum over the
  graph's 512 nodes.
-/
import proofs.«181092_g44908178047564_cont_sun_c4_353_28_alg».proof.Proof.LibEdgeRows
import proofs.«181092_g44908178047564_cont_sun_c4_353_28_alg».proof.Proof.EdgeDefs
import proofs.«181092_g44908178047564_cont_sun_c4_353_28_alg».proof.Proof.EdgeSum
import Idealize.ShloMosaic.Lib.ValueIdx
import Idealize.ShloMosaic.Lib.Pipeline.Value
import Idealize.ShloMosaic.PureOps.Ideal.Laws

noncomputable section

open scoped BigOperators

namespace Cert.PropagateTail

open Idealize.ShloMosaic Idealize.ShloMosaic.ValueIdx Cert.Lib Cert.Edges

variable {α : Type}

/-- A vector as one row, repeated over `N` rows, read at `(p, k)`: the vector at `k`. -/
theorem biasRows_apply {N D : ℕ}
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2))
    (b : (⟨1, ![D]⟩ : Shape).Idx → α) (p : Fin N) (k : Fin D) :
    broadcastInDim ⟨2, ![N, D]⟩ ![0, 1] h2 (broadcastInDim ⟨2, ![1, D]⟩ ![1] h1 b) (ix2 p k) = b (ix1 k) := by
  refine (broadcastInDim_apply _ h2 _ (ix2 p k) (ix2 (0 : Fin 1) k) fun a => ?_).trans
    (broadcastInDim_apply _ h1 b (ix2 (0 : Fin 1) k) (ix1 k) fun a => ?_)
  · match a with
    | ⟨0, _⟩ => show (0 : ℕ) = if (1 : ℕ) = 1 then 0 else p.val; rw [if_pos rfl]
    | ⟨1, _⟩ =>
      show k.val = if D = 1 then 0 else k.val
      have hk : k.val < D := k.isLt
      split
      · omega
      · rfl
  · match a with
    | ⟨0, _⟩ =>
      show k.val = if D = 1 then 0 else k.val
      have hk : k.val < D := k.isLt
      split
      · omega
      · rfl

/-- The all-zero array of any rank-two shape, read anywhere: the extended real `0`. -/
theorem zeros2_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The positive part: the entrywise maximum with the all-zero array. -/
theorem relu_apply {N D : ℕ} (hz : (⟨0, ![]⟩ : Shape).BroadcastsInDim ⟨2, ![N, D]⟩ (![] : Fin 0 → Fin 2))
    (v : FVec Ideal ⟨2, ![N, D]⟩ .f32) (i : (⟨2, ![N, D]⟩ : Shape).Idx) :
    maximumf v (broadcastInDim ⟨2, ![N, D]⟩ ![] hz (constant (F := Ideal) ⟨0, ![]⟩ .f32 0x00000000#32)) i
      = max (v i) 0 := by
  show max (v i) (broadcastInDim ⟨2, ![N, D]⟩ ![] hz (constant (F := Ideal) ⟨0, ![]⟩ .f32 0x00000000#32) i) = _
  rw [zeros2_apply]

/-- The pooling at `(g, o)`: the sum of the node rows of graph `g`, from zero. -/
theorem pool_apply {D : ℕ}
    (wfS : ScatterDims.WF ⟨2, ![8, D]⟩ ⟨2, ![4096, 1]⟩ ⟨2, ![4096, D]⟩ [1] [0] [0] 1)
    (hz : (⟨0, ![]⟩ : Shape).BroadcastsInDim ⟨2, ![8, D]⟩ (![] : Fin 0 → Fin 2))
    (ids : IVec ⟨2, ![4096, 1]⟩ 32) (x : (⟨2, ![4096, D]⟩ : Shape).Idx → EReal)
    (hid : ∀ q : Fin 4096, (ids (ix2 q (0 : Fin 1))).toInt = ((q.val / 512 : ℕ) : ℤ))
    (g : Fin 8) (o : Fin D) :
    Host.scatterAdd (F := Ideal) (φ := .f32) (rowsScatter 8 D 4096 wfS)
        (broadcastInDim ⟨2, ![8, D]⟩ ![] hz (constant (F := Ideal) ⟨0, ![]⟩ .f32 0x00000000#32)) ids x (ix2 g o)
      = (0 : EReal) + ∑ c : Fin 512, x (ix2 (node g c) o) := by
  rw [scatterAdd_rowsScatter_apply, zeros2_apply]
  congr 1
  exact sum_filter_inGraph _ g _ (fun q => by
    rw [hid q]
    exact Nat.cast_inj)

end Cert.PropagateTail

end
-- ==== Proof.SpecMath.lean ====
/-
  The arithmetic of the specification on the extended reals.

  Every quantity the programs compute is a real number carried as an extended real.  These lemmas move the coercion
  outwards: a propagation's edge sum plus self loop plus bias is the coercion of `Cert.Spec.conv`; the positive part of
  a real is the coercion of the real positive part; a sum of 512 reals divided by 512 is the coercion of the mean; and a
  real entry divided by the length of its real row, bounded below by a positive `eps`, is the coercion of the quotient.
-/
import Idealize.ShloMosaic.PureOps.Ideal
import proofs.«181092_g44908178047564_cont_sun_c4_353_28_alg».proof.Proof.LibAggLinear
import proofs.«181092_g44908178047564_cont_sun_c4_353_28_alg».proof.Proof.Spec

noncomputable section

open scoped BigOperators

namespace Cert.SpecMath

open Idealize.ShloMosaic Cert.Lib Cert.Spec

/-- The coercion of the reals into the extended reals carries a maximum to the maximum. -/
theorem coe_max (x y : ℝ) : ((max x y : ℝ) : EReal) = max (x : EReal) (y : EReal) :=
  EReal.coe_strictMono.monotone.map_max

/-- The positive part of a real number, taken on the extended reals. -/
theorem max_zero_coe (x : ℝ) : max (x : EReal) 0 = ((max x 0 : ℝ) : EReal) := by
  rw [← EReal.coe_zero, ← coe_max]

/-- One propagation at a node: the edge sum in the reference's order of factors, the self loop (weight one) and the
    bias, all real, are the coercion of `Cert.Spec.conv`. -/
theorem conv_coe {Din Dout : ℕ} (a : Fin 8 → Fin 512 → Fin 512 → ℝ) (h : Fin 512 → Fin Din → ℝ)
    (W : Fin Din → Fin Dout → ℝ) (b : Fin Dout → ℝ) (g : Fin 8) (c : Fin 512) (k : Fin Dout) :
    (∑ r : Fin 512, ((∑ j, h r j * W j k : ℝ) : EReal)
        * (((a g r c : ℝ) : EReal) * (((dinv a g r : ℝ) : EReal) * ((dinv a g c : ℝ) : EReal))))
      + ((∑ j, h c j * W j k : ℝ) : EReal) * ((1 : EReal) * (((dinv a g c : ℝ) : EReal) * ((dinv a g c : ℝ) : EReal)))
      + ((b k : ℝ) : EReal)
    = ((conv a h W b g c k : ℝ) : EReal) := by
  rw [one_mul]
  simp only [← EReal.coe_mul]
  rw [← ereal_coe_sum, ← EReal.coe_add, ← EReal.coe_add]
  rfl

/-- The number the word `0x44000000` denotes is 512. -/
theorem word_512 : Ideal.ofBits .f32 0x44000000#32 = ((512 : ℝ) : EReal) := by
  simp [Ideal.ofBits, Ideal.ieee, -EReal.coe_mul]
  norm_num

/-- The mean over the 512 nodes of a graph: the sum from zero, divided by 512. -/
theorem mean_coe (f : Fin 512 → ℝ) :
    Ideal.div ((0 : EReal) + ∑ c : Fin 512, ((f c : ℝ) : EReal)) ((512 : ℝ) : EReal) = (((∑ c, f c) / 512 : ℝ) : EReal) := by
  rw [zero_add, ← ereal_coe_sum, Ideal.div_coe (by norm_num : (512 : ℝ) ≠ 0), ← EReal.coe_mul, mul_one_div]

/-- An entry of a real row over the row's length bounded below by a positive number. -/
theorem normalize_coe {n : ℕ} (p : Fin n → ℝ) (eps : ℝ) (heps : 0 < eps) (x : ℝ) :
    Ideal.div (x : EReal) (max (Ideal.sqrt ((0 : EReal) + ∑ o : Fin n, ((p o : ℝ) : EReal) * ((p o : ℝ) : EReal))) ((eps : ℝ) : EReal))
      = ((x / max (Real.sqrt (∑ o, p o * p o)) eps : ℝ) : EReal) := by
  have hs : (∑ o : Fin n, ((p o : ℝ) : EReal) * ((p o : ℝ) : EReal)) = ((∑ o, p o * p o : ℝ) : EReal) := by
    rw [ereal_coe_sum]
    exact Finset.sum_congr rfl fun o _ => (EReal.coe_mul _ _).symm
  have hpos : max (Real.sqrt (∑ o, p o * p o)) eps ≠ 0 := ne_of_gt (lt_of_lt_of_le heps (le_max_right _ _))
  rw [zero_add, hs, Ideal.sqrt_coe, if_neg (not_lt.2 (Finset.sum_nonneg fun o _ => mul_self_nonneg (p o))),
    ← coe_max, Ideal.div_coe hpos, ← EReal.coe_mul, mul_one_div]

end Cert.SpecMath

end
-- ==== Proof.Layer.lean ====
/-
  One whole layer of the reference at a node, as the coercion of `Cert.Spec.conv`.

  The layer's arrays: the transformed features `XW : [4096, D]`, the inverse-square-root degrees `DI : [4096]`, the
  source and target words of the 2101248 edges (each read through the negative-index wrap, which does not change
  them), the edge weights `EW` and the bias `B : [D]`.  When all of them hold real numbers — the weights the adjacency
  entries and one on the self loops, the degrees' factors `Cert.Spec.dinv`, the features `h · W` — the layer's entry at
  node `c` of graph `g` and column `k` is `Cert.Spec.conv a (h g) W b g c k`, and after the positive part its maximum
  with zero.
-/
import proofs.«181092_g44908178047564_cont_sun_c4_353_28_alg».proof.Proof.Propagate
import proofs.«181092_g44908178047564_cont_sun_c4_353_28_alg».proof.Proof.PropagateTail
import proofs.«181092_g44908178047564_cont_sun_c4_353_28_alg».proof.Proof.SpecMath

noncomputable section

open scoped BigOperators

namespace Cert.Layer

open Idealize.ShloMosaic Idealize.ShloMosaic.ValueIdx Cert.Lib Cert.Edges Cert.Propagate Cert.PropagateTail Cert.SpecMath
open Cert.Spec

/-- The layer before the positive part. -/
theorem layer_apply {Din D : ℕ}
    (wfF : GatherDims.WF ⟨1, ![4096]⟩ ⟨2, ![2101248, 1]⟩ ⟨1, ![2101248]⟩ [] [0] [] [0] [] 1 ![1])
    (wfG : GatherDims.WF ⟨2, ![4096, D]⟩ ⟨2, ![2101248, 1]⟩ ⟨2, ![2101248, D]⟩ [1] [0] [] [0] [] 1 ![1, D])
    (wfS : ScatterDims.WF ⟨2, ![4096, D]⟩ ⟨2, ![2101248, 1]⟩ ⟨2, ![2101248, D]⟩ [1] [0] [0] 1)
    (hz : (⟨0, ![]⟩ : Shape).BroadcastsInDim ⟨2, ![4096, D]⟩ (![] : Fin 0 → Fin 2))
    (hc : (⟨1, ![2101248]⟩ : Shape).BroadcastsInDim ⟨2, ![2101248, 1]⟩ (![0] : Fin 1 → Fin 2))
    (hb : (⟨2, ![2101248, 1]⟩ : Shape).BroadcastsInDim ⟨2, ![2101248, D]⟩ (![0, 1] : Fin 2 → Fin 2))
    (h1 : (⟨1, ![D]⟩ : Shape).BroadcastsInDim ⟨2, ![1, D]⟩ (![1] : Fin 1 → Fin 2))
    (h2 : (⟨2, ![1, D]⟩ : Shape).BroadcastsInDim ⟨2, ![4096, D]⟩ (![0, 1] : Fin 2 → Fin 2))
    (XW : FVec Ideal ⟨2, ![4096, D]⟩ .f32) (DI : FVec Ideal ⟨1, ![4096]⟩ .f32)
    (S1 T1 S2 T2 : IVec ⟨1, ![2101248]⟩ 32) (EW : FVec Ideal ⟨1, ![2101248]⟩ .f32) (B : FVec Ideal ⟨1, ![D]⟩ .f32)
    (a : Fin 8 → Fin 512 → Fin 512 → ℝ) (h : Fin 8 → Fin 512 → Fin Din → ℝ) (W : Fin Din → Fin D → ℝ) (b : Fin D → ℝ)
    (hS1 : ∀ e, (S1 (ix1 e)).toInt = ((srcNat e : ℕ) : ℤ)) (hT1 : ∀ e, (T1 (ix1 e)).toInt = ((tgtNat e : ℕ) : ℤ))
    (hS2 : ∀ e, (S2 (ix1 e)).toInt = ((srcNat e : ℕ) : ℤ)) (hT2 : ∀ e, (T2 (ix1 e)).toInt = ((tgtNat e : ℕ) : ℤ))
    (hEWe : ∀ g r c, EW (ix1 (edge g r c)) = ((a g r c : ℝ) : EReal)) (hEWl : ∀ p, EW (ix1 (loop p)) = (1 : EReal))
    (hDI : ∀ g c, DI (ix1 (node g c)) = ((dinv a g c : ℝ) : EReal))
    (hXW : ∀ g r k, XW (ix2 (node g r) k) = ((∑ j, h g r j * W j k : ℝ) : EReal))
    (hB : ∀ k, B (ix1 k) = ((b k : ℝ) : EReal))
    (g : Fin 8) (c : Fin 512) (k : Fin D) :
    addf (Host.scatterAdd (F := Ideal) (φ := .f32) (rowsScatter 4096 D 2101248 wfS)
            (broadcastInDim ⟨2, ![4096, D]⟩ ![] hz (constant (F := Ideal) ⟨0, ![]⟩ .f32 0x00000000#32))
            (broadcastInDim ⟨2, ![2101248, 1]⟩ ![0] hc T2)
            (mulf (Host.gather (rowsTake 4096 D 2101248 wfG) XW (broadcastInDim ⟨2, ![2101248, 1]⟩ ![0] hc S2))
              (broadcastInDim ⟨2, ![2101248, D]⟩ ![0, 1] hb (broadcastInDim ⟨2, ![2101248, 1]⟩ ![0] hc
                (mulf EW (mulf
                  (Host.gather (flatTake 4096 2101248 wfF) DI (broadcastInDim ⟨2, ![2101248, 1]⟩ ![0] hc S1))
                  (Host.gather (flatTake 4096 2101248 wfF) DI (broadcastInDim ⟨2, ![2101248, 1]⟩ ![0] hc T1))))))))
         (broadcastInDim ⟨2, ![4096, D]⟩ ![0, 1] h2 (broadcastInDim ⟨2, ![1, D]⟩ ![1] h1 B)) (ix2 (node g c) k)
      = ((conv a (h g) W b g c k : ℝ) : EReal) := by
  have dsrc : ∀ (r : Fin 512) (hh : srcNat (edge g r c) < 4096),
      DI (ix1 (⟨srcNat (edge g r c), hh⟩ : Fin 4096)) = ((dinv a g r : ℝ) : EReal) := fun r hh =>
    (congrArg (fun p : Fin 4096 => DI (ix1 p)) (Fin.ext (srcNat_edge g r c) : (⟨_, hh⟩ : Fin 4096) = node g r)).trans (hDI g r)
  have dtgt : ∀ (r : Fin 512) (hh : tgtNat (edge g r c) < 4096),
      DI (ix1 (⟨tgtNat (edge g r c), hh⟩ : Fin 4096)) = ((dinv a g c : ℝ) : EReal) := fun r hh =>
    (congrArg (fun p : Fin 4096 => DI (ix1 p)) (Fin.ext (tgtNat_edge g r c) : (⟨_, hh⟩ : Fin 4096) = node g c)).trans (hDI g c)
  have dsl : ∀ (hh : srcNat (loop (node g c)) < 4096),
      DI (ix1 (⟨srcNat (loop (node g c)), hh⟩ : Fin 4096)) = ((dinv a g c : ℝ) : EReal) := fun hh =>
    (congrArg (fun p : Fin 4096 => DI (ix1 p)) (Fin.ext (srcNat_loop (node g c)) : (⟨_, hh⟩ : Fin 4096) = node g c)).trans (hDI g c)
  have dtl : ∀ (hh : tgtNat (loop (node g c)) < 4096),
      DI (ix1 (⟨tgtNat (loop (node g c)), hh⟩ : Fin 4096)) = ((dinv a g c : ℝ) : EReal) := fun hh =>
    (congrArg (fun p : Fin 4096 => DI (ix1 p)) (Fin.ext (tgtNat_loop (node g c)) : (⟨_, hh⟩ : Fin 4096) = node g c)).trans (hDI g c)
  have hne : ∀ r : Fin 512,
      mulf EW (mulf (Host.gather (flatTake 4096 2101248 wfF) DI (broadcastInDim ⟨2, ![2101248, 1]⟩ ![0] hc S1))
                    (Host.gather (flatTake 4096 2101248 wfF) DI (broadcastInDim ⟨2, ![2101248, 1]⟩ ![0] hc T1)))
          (ix1 (edge g r c))
        = ((a g r c : ℝ) : EReal) * (((dinv a g r : ℝ) : EReal) * ((dinv a g c : ℝ) : EReal)) := fun r => by
    rw [edge_norm_apply wfF hc DI S1 T1 EW hS1 hT1, hEWe, dsrc, dtgt]
  have hnl :
      mulf EW (mulf (Host.gather (flatTake 4096 2101248 wfF) DI (broadcastInDim ⟨2, ![2101248, 1]⟩ ![0] hc S1))
                    (Host.gather (flatTake 4096 2101248 wfF) DI (broadcastInDim ⟨2, ![2101248, 1]⟩ ![0] hc T1)))
          (ix1 (loop (node g c)))
        = (1 : EReal) * (((dinv a g c : ℝ) : EReal) * ((dinv a g c : ℝ) : EReal)) := by
    rw [edge_norm_apply wfF hc DI S1 T1 EW hS1 hT1, hEWl, dsl, dtl]
  generalize mulf EW (mulf (Host.gather (flatTake 4096 2101248 wfF) DI (broadcastInDim ⟨2, ![2101248, 1]⟩ ![0] hc S1))
      (Host.gather (flatTake 4096 2101248 wfF) DI (broadcastInDim ⟨2, ![2101248, 1]⟩ ![0] hc T1))) = NRM at hne hnl ⊢
  rw [addf_apply, agg_node_apply wfG wfS hz hc hb XW S2 T2 NRM hS2 hT2, biasRows_apply, hB, hnl, hXW]
  rw [Finset.sum_congr rfl fun r _ => by rw [hne r, hXW g r k]]
  exact conv_coe a (h g) W b g c k

/-- The layer after the positive part. -/
theorem layer_relu_apply {Din D : ℕ}
    (wfF : GatherDims.WF ⟨1, ![4096]⟩ ⟨2, ![2101248, 1]⟩ ⟨1, ![2101248]⟩ [] [0] [] [0] [] 1 ![1])
    (wfG : GatherDims.WF ⟨2, ![4096, D]⟩ ⟨2, ![2101248, 1]⟩ ⟨2, ![2101248, D]⟩ [1] [0] [] [0] [] 1 ![1, D])
    (wfS : ScatterDims.WF ⟨2, ![4096, D]⟩ ⟨2, ![2101248, 1]⟩ ⟨2, ![2101248, D]⟩ [1] [0] [0] 1)
    (hz hz' : (⟨0, ![]⟩ : Shape).BroadcastsInDim ⟨2, ![4096, D]⟩ (![] : Fin 0 → Fin 2))
    (hc : (⟨1, ![2101248]⟩ : Shape).BroadcastsInDim ⟨2, ![2101248, 1]⟩ (![0] : Fin 1 → Fin 2))
    (hb : (⟨2, ![2101248, 1]⟩ : Shape).BroadcastsInDim ⟨2, ![2101248, D]⟩ (![0, 1] : Fin 2 → Fin 2))
    (h1 : (⟨1, ![D]⟩ : Shape).BroadcastsInDim ⟨2, ![1, D]⟩ (![1] : Fin 1 → Fin 2))
    (h2 : (⟨2, ![1, D]⟩ : Shape).BroadcastsInDim ⟨2, ![4096, D]⟩ (![0, 1] : Fin 2 → Fin 2))
    (XW : FVec Ideal ⟨2, ![4096, D]⟩ .f32) (DI : FVec Ideal ⟨1, ![4096]⟩ .f32)
    (S1 T1 S2 T2 : IVec ⟨1, ![2101248]⟩ 32) (EW : FVec Ideal ⟨1, ![2101248]⟩ .f32) (B : FVec Ideal ⟨1, ![D]⟩ .f32)
    (a : Fin 8 → Fin 512 → Fin 512 → ℝ) (h : Fin 8 → Fin 512 → Fin Din → ℝ) (W : Fin Din → Fin D → ℝ) (b : Fin D → ℝ)
    (hS1 : ∀ e, (S1 (ix1 e)).toInt = ((srcNat e : ℕ) : ℤ)) (hT1 : ∀ e, (T1 (ix1 e)).toInt = ((tgtNat e : ℕ) : ℤ))
    (hS2 : ∀ e, (S2 (ix1 e)).toInt = ((srcNat e : ℕ) : ℤ)) (hT2 : ∀ e, (T2 (ix1 e)).toInt = ((tgtNat e : ℕ) : ℤ))
    (hEWe : ∀ g r c, EW (ix1 (edge g r c)) = ((a g r c : ℝ) : EReal)) (hEWl : ∀ p, EW (ix1 (loop p)) = (1 : EReal))
    (hDI : ∀ g c, DI (ix1 (node g c)) = ((dinv a g c : ℝ) : EReal))
    (hXW : ∀ g r k, XW (ix2 (node g r) k) = ((∑ j, h g r j * W j k : ℝ) : EReal))
    (hB : ∀ k, B (ix1 k) = ((b k : ℝ) : EReal))
    (g : Fin 8) (c : Fin 512) (k : Fin D) :
    maximumf (addf (Host.scatterAdd (F := Ideal) (φ := .f32) (rowsScatter 4096 D 2101248 wfS)
            (broadcastInDim ⟨2, ![4096, D]⟩ ![] hz (constant (F := Ideal) ⟨0, ![]⟩ .f32 0x00000000#32))
            (broadcastInDim ⟨2, ![2101248, 1]⟩ ![0] hc T2)
            (mulf (Host.gather (rowsTake 4096 D 2101248 wfG) XW (broadcastInDim ⟨2, ![2101248, 1]⟩ ![0] hc S2))
              (broadcastInDim ⟨2, ![2101248, D]⟩ ![0, 1] hb (broadcastInDim ⟨2, ![2101248, 1]⟩ ![0] hc
                (mulf EW (mulf
                  (Host.gather (flatTake 4096 2101248 wfF) DI (broadcastInDim ⟨2, ![2101248, 1]⟩ ![0] hc S1))
                  (Host.gather (flatTake 4096 2101248 wfF) DI (broadcastInDim ⟨2, ![2101248, 1]⟩ ![0] hc T1))))))))
         (broadcastInDim ⟨2, ![4096, D]⟩ ![0, 1] h2 (broadcastInDim ⟨2, ![1, D]⟩ ![1] h1 B)))
       (broadcastInDim ⟨2, ![4096, D]⟩ ![] hz' (constant (F := Ideal) ⟨0, ![]⟩ .f32 0x00000000#32)) (ix2 (node g c) k)
      = ((max (conv a (h g) W b g c k) 0 : ℝ) : EReal) := by
  rw [relu_apply, layer_apply wfF wfG wfS hz hc hb h1 h2 XW DI S1 T1 S2 T2 EW B a h W b hS1 hT1 hS2 hT2 hEWe hEWl hDI hXW hB,
    max_zero_coe]

end Cert.Layer

end
-- ==== Proof.Layer1.lean ====
/-
  The first layer of the reference at a node: the coercion of `Cert.Spec.h1`.

  The node features are the 512 rows of `x` repeated for each of the eight graphs (batched node `g · 512 + r` carries
  row `r`), multiplied by `W1`; the propagation, the bias and the positive part follow.
-/
import proofs.«181092_g44908178047564_cont_sun_c4_353_28_alg».proof.Proof.Gen.ReferenceIdeal.Read
import proofs.«181092_g44908178047564_cont_sun_c4_353_28_alg».proof.Proof.EdgeArrays
import proofs.«181092_g44908178047564_cont_sun_c4_353_28_alg».proof.Proof.Degree
import proofs.«181092_g44908178047564_cont_sun_c4_353_28_alg».proof.Proof.EdgeIndex
import proofs.«181092_g44908178047564_cont_sun_c4_353_28_alg».proof.Proof.Layer

noncomputable section

open scoped BigOperators

namespace Cert.Layer1

open Idealize.ShloMosaic Idealize.ShloMosaic.ValueIdx Idealize.SL.Sem Cert.ReferenceIdeal Cert.ReferenceIdeal.Gen Cert.ReferenceIdeal.Read
open Cert.Edges Cert.Layer

/-- The tiled features: batched node `g · 512 + r` carries row `r` of the node features. -/
theorem tiled_apply (X : (⟨S512x3, .f32⟩ : BufTy).Contents (Elt Ideal)) (g : Fin 8) (r : Fin 512) (j : Fin 3) :
    val_main_v68 (F := Ideal) X (ix2 (node g r) j) = X (ix2 r j) := by
  rw [val_main_v68_apply, val_main_v67_apply, val_main_v66_apply]
  congr 1
  funext d
  refine Fin.ext ?_
  have hr := r.isLt
  have hj := j.isLt
  have hg := g.isLt
  match d with
  | ⟨0, _⟩ =>
    show ((((0 : ℕ) * 512 + ((g.val * 512 + r.val) * 3 + j.val) / 3 % 512) * 1 + 0) * 3
      + ((g.val * 512 + r.val) * 3 + j.val) % 3) / 3 = r.val
    omega
  | ⟨1, _⟩ =>
    show ((((0 : ℕ) * 512 + ((g.val * 512 + r.val) * 3 + j.val) / 3 % 512) * 1 + 0) * 3
      + ((g.val * 512 + r.val) * 3 + j.val) % 3) % 3 = j.val
    omega

/-- The transformed features at a node: the row of `x` times `W1`. -/
theorem xw_apply (X : (⟨S512x3, .f32⟩ : BufTy).Contents (Elt Ideal)) (W1 : (⟨S3x16, .f32⟩ : BufTy).Contents (Elt Ideal))
    (x : Fin 512 → Fin 3 → ℝ) (w1 : Fin 3 → Fin 16 → ℝ)
    (hX : ∀ r j, X (ix2 r j) = ((x r j : ℝ) : EReal)) (hW1 : ∀ j k, W1 (ix2 j k) = ((w1 j k : ℝ) : EReal))
    (g : Fin 8) (r : Fin 512) (k : Fin 16) :
    val_main_v69 (F := Ideal) X W1 (ix2 (node g r) k) = ((∑ j, x r j * w1 j k : ℝ) : EReal) := by
  rw [val_main_v69_apply, Cert.Lib.ereal_coe_sum]
  refine Finset.sum_congr rfl fun j _ => ?_
  have e1 : lidx_main_v69 (ix2 (node g r) k) j = ix2 (node g r) j := by
    funext d; refine Fin.ext ?_
    match d with
    | ⟨0, _⟩ => rfl
    | ⟨1, _⟩ => rfl
  have e2 : ridx_main_v69 (ix2 (node g r) k) j = ix2 j k := by
    funext d; refine Fin.ext ?_
    match d with
    | ⟨0, _⟩ => rfl
    | ⟨1, _⟩ => rfl
  rw [e1, e2, tiled_apply, hX, hW1, EReal.coe_mul]

/-- The first layer at node `c` of graph `g`. -/
theorem layer1_apply
    (A : (⟨S8x512x512, .f32⟩ : BufTy).Contents (Elt Ideal)) (X : (⟨S512x3, .f32⟩ : BufTy).Contents (Elt Ideal))
    (W1 : (⟨S3x16, .f32⟩ : BufTy).Contents (Elt Ideal)) (B1 : (⟨S16, .f32⟩ : BufTy).Contents (Elt Ideal))
    (a : Fin 8 → Fin 512 → Fin 512 → ℝ) (x : Fin 512 → Fin 3 → ℝ) (w1 : Fin 3 → Fin 16 → ℝ) (b1 : Fin 16 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (g : Fin 8) (c : Fin 512) (k : Fin 16) :
    val_main_v115 (F := Ideal) A X W1 B1 (ix2 (node g c) k) = ((Cert.Spec.h1 a x w1 b1 g c k : ℝ) : EReal) := by
  unfold val_main_v115 val_main_v114 val_main_v113 val_main_v112 val_main_v111 val_main_v110 val_main_v109
    val_main_v108 val_main_v107 val_main_v106 val_main_v105 val_main_v104 val_main_v103 val_main_v97 val_main_v96
    val_main_v95 val_main_v89 val_main_v88 val_main_call1_v0 val_main_call1_cst val_main_cst_25
  exact layer_relu_apply (Din := 3) (D := 16)
    gather_S4096_S2101248x1_S2101248_n_0_n_n_0_1_1.wf gather_S4096x16_S2101248x1_S2101248x16_1_0_n_n_0_1_116.wf
    scatter_S4096x16_S2101248x1_S2101248x16_1_0_0_1.wf bcast_S_S4096x16 bcast_S_S4096x16 bcast_S2101248_S2101248x1_0
    bcast_S2101248x1_S2101248x16_0_1 bcast_S16_S1x16_1 bcast_S1x16_S4096x16_0_1
    (val_main_v69 (F := Ideal) X W1) (val_main_v82 (F := Ideal) A)
    (val_main_v87 (F := Ideal)) (val_main_v94 (F := Ideal)) (val_main_v102 (F := Ideal)) (val_main_v72 (F := Ideal))
    (val_main_v74 (F := Ideal) A) B1 a (fun _ r j => x r j) w1 b1
    Cert.EdgeIndex.wrap_v87_toInt Cert.EdgeIndex.wrap_v94_toInt Cert.EdgeIndex.wrap_v102_toInt
    Cert.EdgeArrays.tgt_v72_toInt
    (fun g r c => (Cert.EdgeArrays.w_v74_edge A g r c).trans (hA g r c)) (Cert.EdgeArrays.w_v74_loop A)
    (Cert.Degree.dinv1 A a hA) (xw_apply X W1 x w1 hX hW1) hB1 g c k

end Cert.Layer1

end
-- ==== Proof.Layer2.lean ====
/-
  The second layer of the reference at a node: the coercion of `Cert.Spec.h2`.

  Its input features are the first layer's output, real at every node; they are multiplied by `W2`, propagated, the bias
  added and the positive part taken.
-/
import proofs.«181092_g44908178047564_cont_sun_c4_353_28_alg».proof.Proof.Gen.ReferenceIdeal.Read
import proofs.«181092_g44908178047564_cont_sun_c4_353_28_alg».proof.Proof.EdgeArrays
import proofs.«181092_g44908178047564_cont_sun_c4_353_28_alg».proof.Proof.EdgeIndex
import proofs.«181092_g44908178047564_cont_sun_c4_353_28_alg».proof.Proof.Degree
import proofs.«181092_g44908178047564_cont_sun_c4_353_28_alg».proof.Proof.Layer
import proofs.«181092_g44908178047564_cont_sun_c4_353_28_alg».proof.Proof.Layer1

noncomputable section

open scoped BigOperators

namespace Cert.Layer2

open Idealize.ShloMosaic Idealize.ShloMosaic.ValueIdx Idealize.SL.Sem Cert.ReferenceIdeal Cert.ReferenceIdeal.Gen Cert.ReferenceIdeal.Read
open Cert.Edges Cert.Layer

/-- The transformed features at a node: the first layer's row times `W2`. -/
theorem xw_apply (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal)) (hW2 : ∀ j k, W2 (ix2 j k) = ((w2 j k : ℝ) : EReal))
    (g : Fin 8) (r : Fin 512) (k : Fin 32) :
    val_main_v116 (F := Ideal) A X W1 B1 W2 (ix2 (node g r) k)
      = ((∑ j, Cert.Spec.h1 a x w1 b1 g r j * w2 j k : ℝ) : EReal) := by
  rw [val_main_v116_apply, Cert.Lib.ereal_coe_sum]
  refine Finset.sum_congr rfl fun j _ => ?_
  have e1 : lidx_main_v116 (ix2 (node g r) k) j = ix2 (node g r) j := by
    funext d; refine Fin.ext ?_
    match d with
    | ⟨0, _⟩ => rfl
    | ⟨1, _⟩ => rfl
  have e2 : ridx_main_v116 (ix2 (node g r) k) j = ix2 j k := by
    funext d; refine Fin.ext ?_
    match d with
    | ⟨0, _⟩ => rfl
    | ⟨1, _⟩ => rfl
  rw [e1, e2, Cert.Layer1.layer1_apply A X W1 B1 a x w1 b1 hA hX hW1 hB1, hW2, EReal.coe_mul]

/-- The second layer at node `c` of graph `g`. -/
theorem layer2_apply (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal)) (B2 : (⟨S32, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ) (b2 : Fin 32 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (hW2 : ∀ j k, W2 (ix2 j k) = ((w2 j k : ℝ) : EReal)) (hB2 : ∀ k, B2 (ix1 k) = ((b2 k : ℝ) : EReal))
    (g : Fin 8) (c : Fin 512) (k : Fin 32) :
    val_main_v162 (F := Ideal) A X W1 B1 W2 B2 (ix2 (node g c) k)
      = ((Cert.Spec.h2 a x w1 b1 w2 b2 g c k : ℝ) : EReal) := by
  unfold val_main_v162 val_main_v161 val_main_v160 val_main_v159 val_main_v158 val_main_v157 val_main_v156
    val_main_v155 val_main_v154 val_main_v153 val_main_v152 val_main_v151 val_main_v150 val_main_v144 val_main_v143
    val_main_v142 val_main_v136 val_main_v135 val_main_call3_v0 val_main_call3_cst val_main_cst_37
  exact layer_relu_apply (Din := 16) (D := 32)
    gather_S4096_S2101248x1_S2101248_n_0_n_n_0_1_1.wf gather_S4096x32_S2101248x1_S2101248x32_1_0_n_n_0_1_132.wf
    scatter_S4096x32_S2101248x1_S2101248x32_1_0_0_1.wf bcast_S_S4096x32 bcast_S_S4096x32 bcast_S2101248_S2101248x1_0
    bcast_S2101248x1_S2101248x32_0_1 bcast_S32_S1x32_1 bcast_S1x32_S4096x32_0_1
    (val_main_v116 (F := Ideal) A X W1 B1 W2) (val_main_v129 (F := Ideal) A)
    (val_main_v134 (F := Ideal)) (val_main_v141 (F := Ideal)) (val_main_v149 (F := Ideal)) (val_main_v119 (F := Ideal))
    (val_main_v121 (F := Ideal) A) B2 a (Cert.Spec.h1 a x w1 b1) w2 b2
    Cert.EdgeIndex.wrap_v134_toInt Cert.EdgeIndex.wrap_v141_toInt Cert.EdgeIndex.wrap_v149_toInt
    Cert.EdgeArrays.tgt_v119_toInt
    (fun g r c => (Cert.EdgeArrays.w_v121_edge A g r c).trans (hA g r c)) (Cert.EdgeArrays.w_v121_loop A)
    (Cert.Degree.dinv2 A a hA) (xw_apply A X W1 B1 W2 a x w1 b1 w2 hA hX hW1 hB1 hW2) hB2 g c k

end Cert.Layer2

end
-- ==== Proof.Layer3.lean ====
/-
  The third layer of the reference at a node: the coercion of `Cert.Spec.x3`.

  Its input features are the second layer's output; they are multiplied by `W3`, propagated and the bias added; there
  is no positive part.
-/
import proofs.«181092_g44908178047564_cont_sun_c4_353_28_alg».proof.Proof.Gen.ReferenceIdeal.Read
import proofs.«181092_g44908178047564_cont_sun_c4_353_28_alg».proof.Proof.EdgeArrays
import proofs.«181092_g44908178047564_cont_sun_c4_353_28_alg».proof.Proof.EdgeIndex
import proofs.«181092_g44908178047564_cont_sun_c4_353_28_alg».proof.Proof.Degree
import proofs.«181092_g44908178047564_cont_sun_c4_353_28_alg».proof.Proof.Layer
import proofs.«181092_g44908178047564_cont_sun_c4_353_28_alg».proof.Proof.Layer2

noncomputable section

open scoped BigOperators

namespace Cert.Layer3

open Idealize.ShloMosaic Idealize.ShloMosaic.ValueIdx Idealize.SL.Sem Cert.ReferenceIdeal Cert.ReferenceIdeal.Gen Cert.ReferenceIdeal.Read
open Cert.Edges Cert.Layer

/-- The transformed features at a node: the second layer's row times `W3`. -/
theorem xw_apply (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal)) (B2 : (⟨S32, .f32⟩ : BufTy).Contents (Elt Ideal)) (W3 : (⟨S32x64, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ) (b2 : Fin 32 → ℝ) (w3 : Fin 32 → Fin 64 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (hW2 : ∀ j k, W2 (ix2 j k) = ((w2 j k : ℝ) : EReal)) (hB2 : ∀ k, B2 (ix1 k) = ((b2 k : ℝ) : EReal)) (hW3 : ∀ j k, W3 (ix2 j k) = ((w3 j k : ℝ) : EReal))
    (g : Fin 8) (r : Fin 512) (k : Fin 64) :
    val_main_v163 (F := Ideal) A X W1 B1 W2 B2 W3 (ix2 (node g r) k)
      = ((∑ j, Cert.Spec.h2 a x w1 b1 w2 b2 g r j * w3 j k : ℝ) : EReal) := by
  rw [val_main_v163_apply, Cert.Lib.ereal_coe_sum]
  refine Finset.sum_congr rfl fun j _ => ?_
  have e1 : lidx_main_v163 (ix2 (node g r) k) j = ix2 (node g r) j := by
    funext d; refine Fin.ext ?_
    match d with
    | ⟨0, _⟩ => rfl
    | ⟨1, _⟩ => rfl
  have e2 : ridx_main_v163 (ix2 (node g r) k) j = ix2 j k := by
    funext d; refine Fin.ext ?_
    match d with
    | ⟨0, _⟩ => rfl
    | ⟨1, _⟩ => rfl
  rw [e1, e2, Cert.Layer2.layer2_apply A X W1 B1 W2 B2 a x w1 b1 w2 b2 hA hX hW1 hB1 hW2 hB2, hW3, EReal.coe_mul]

/-- The third layer at node `c` of graph `g`. -/
theorem layer3_apply (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal)) (B2 : (⟨S32, .f32⟩ : BufTy).Contents (Elt Ideal)) (W3 : (⟨S32x64, .f32⟩ : BufTy).Contents (Elt Ideal)) (B3 : (⟨S64, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ) (b2 : Fin 32 → ℝ) (w3 : Fin 32 → Fin 64 → ℝ) (b3 : Fin 64 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (hW2 : ∀ j k, W2 (ix2 j k) = ((w2 j k : ℝ) : EReal)) (hB2 : ∀ k, B2 (ix1 k) = ((b2 k : ℝ) : EReal))
    (hW3 : ∀ j k, W3 (ix2 j k) = ((w3 j k : ℝ) : EReal)) (hB3 : ∀ k, B3 (ix1 k) = ((b3 k : ℝ) : EReal))
    (g : Fin 8) (c : Fin 512) (k : Fin 64) :
    val_main_v208 (F := Ideal) A X W1 B1 W2 B2 W3 B3 (ix2 (node g c) k)
      = ((Cert.Spec.x3 a x w1 b1 w2 b2 w3 b3 g c k : ℝ) : EReal) := by
  unfold val_main_v208 val_main_v207 val_main_v206 val_main_v205 val_main_v204 val_main_v203
    val_main_v202 val_main_v201 val_main_v200 val_main_v199 val_main_v198 val_main_v197 val_main_v191 val_main_v190
    val_main_v189 val_main_v183 val_main_v182 val_main_cst_49
  exact layer_apply (Din := 32) (D := 64)
    gather_S4096_S2101248x1_S2101248_n_0_n_n_0_1_1.wf gather_S4096x64_S2101248x1_S2101248x64_1_0_n_n_0_1_164.wf
    scatter_S4096x64_S2101248x1_S2101248x64_1_0_0_1.wf bcast_S_S4096x64 bcast_S2101248_S2101248x1_0
    bcast_S2101248x1_S2101248x64_0_1 bcast_S64_S1x64_1 bcast_S1x64_S4096x64_0_1
    (val_main_v163 (F := Ideal) A X W1 B1 W2 B2 W3) (val_main_v176 (F := Ideal) A)
    (val_main_v181 (F := Ideal)) (val_main_v188 (F := Ideal)) (val_main_v196 (F := Ideal)) (val_main_v166 (F := Ideal))
    (val_main_v168 (F := Ideal) A) B3 a (Cert.Spec.h2 a x w1 b1 w2 b2) w3 b3
    Cert.EdgeIndex.wrap_v181_toInt Cert.EdgeIndex.wrap_v188_toInt Cert.EdgeIndex.wrap_v196_toInt
    Cert.EdgeArrays.tgt_v166_toInt
    (fun g r c => (Cert.EdgeArrays.w_v168_edge A g r c).trans (hA g r c)) (Cert.EdgeArrays.w_v168_loop A)
    (Cert.Degree.dinv3 A a hA) (xw_apply A X W1 B1 W2 B2 W3 a x w1 b1 w2 b2 w3 hA hX hW1 hB1 hW2 hB2 hW3) hB3 g c k

end Cert.Layer3

end
-- ==== Proof.RefValue.lean ====
/-
  The reference's value: at graph `g` and output feature `o`, the real number `Cert.Spec.out`.

  After the three layers every node row is real.  The pooling adds the 512 node rows of each graph and divides by 512:
  the mean `Cert.Spec.pooled`.  The last step divides each graph's 64 means by their Euclidean length, the square root of
  the sum of their squares, bounded below by the positive number `eps`.
-/
import proofs.«181092_g44908178047564_cont_sun_c4_353_28_alg».proof.Proof.Gen.ReferenceIdeal.Read
import proofs.«181092_g44908178047564_cont_sun_c4_353_28_alg».proof.Proof.EdgeArrays
import proofs.«181092_g44908178047564_cont_sun_c4_353_28_alg».proof.Proof.EdgeIndex
import proofs.«181092_g44908178047564_cont_sun_c4_353_28_alg».proof.Proof.Degree
import proofs.«181092_g44908178047564_cont_sun_c4_353_28_alg».proof.Proof.Layer
import proofs.«181092_g44908178047564_cont_sun_c4_353_28_alg».proof.Proof.Layer3
import proofs.«181092_g44908178047564_cont_sun_c4_353_28_alg».proof.Proof.Eps

noncomputable section

open scoped BigOperators

namespace Cert.RefValue

open Idealize.ShloMosaic Idealize.ShloMosaic.ValueIdx Idealize.SL.Sem Cert.ReferenceIdeal Cert.ReferenceIdeal.Gen Cert.ReferenceIdeal.Read
open Cert.Edges Cert.Layer
open Cert.PropagateTail Cert.SpecMath Cert.Eps

/-- The pooled means: graph `g`'s row of node sums divided by 512. -/
theorem pooled_apply (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal)) (B2 : (⟨S32, .f32⟩ : BufTy).Contents (Elt Ideal)) (W3 : (⟨S32x64, .f32⟩ : BufTy).Contents (Elt Ideal)) (B3 : (⟨S64, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ) (b2 : Fin 32 → ℝ) (w3 : Fin 32 → Fin 64 → ℝ) (b3 : Fin 64 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (hW2 : ∀ j k, W2 (ix2 j k) = ((w2 j k : ℝ) : EReal)) (hB2 : ∀ k, B2 (ix1 k) = ((b2 k : ℝ) : EReal))
    (hW3 : ∀ j k, W3 (ix2 j k) = ((w3 j k : ℝ) : EReal)) (hB3 : ∀ k, B3 (ix1 k) = ((b3 k : ℝ) : EReal))
    (g : Fin 8) (o : Fin 64) :
    val_main_v216 (F := Ideal) A X W1 B1 W2 B2 W3 B3 (ix2 g o)
      = ((Cert.Spec.pooled a x w1 b1 w2 b2 w3 b3 g o : ℝ) : EReal) := by
  have h214 : val_main_v214 (F := Ideal) A X W1 B1 W2 B2 W3 B3 (ix2 g o)
      = (0 : EReal) + ∑ c : Fin 512, ((Cert.Spec.x3 a x w1 b1 w2 b2 w3 b3 g c o : ℝ) : EReal) := by
    unfold val_main_v214 val_main_v212 val_main_cst_50
    refine (pool_apply scatter_S8x64_S4096x1_S4096x64_1_0_0_1.wf bcast_S_S8x64 (val_main_v213 (F := Ideal))
      (val_main_v208 (F := Ideal) A X W1 B1 W2 B2 W3 B3) Cert.EdgeIndex.pool_ids g o).trans ?_
    refine congrArg (fun s : EReal => (0 : EReal) + s) ?_
    exact Finset.sum_congr rfl fun c _ =>
      Cert.Layer3.layer3_apply A X W1 B1 W2 B2 W3 B3 a x w1 b1 w2 b2 w3 b3 hA hX hW1 hB1 hW2 hB2 hW3 hB3 g c o
  rw [val_main_v216_apply, val_main_v215_apply, val_main_cst_51_apply, h214]
  rw [Ideal.hostDivf_def, Ideal.ofBits_def, word_512]
  exact mean_coe _

theorem ref_value (A : (⟨S8x512x512, .f32⟩ : BufTy).Contents (Elt Ideal)) (X : (⟨S512x3, .f32⟩ : BufTy).Contents (Elt Ideal)) (W1 : (⟨S3x16, .f32⟩ : BufTy).Contents (Elt Ideal)) (B1 : (⟨S16, .f32⟩ : BufTy).Contents (Elt Ideal)) (W2 : (⟨S16x32, .f32⟩ : BufTy).Contents (Elt Ideal)) (B2 : (⟨S32, .f32⟩ : BufTy).Contents (Elt Ideal)) (W3 : (⟨S32x64, .f32⟩ : BufTy).Contents (Elt Ideal)) (B3 : (⟨S64, .f32⟩ : BufTy).Contents (Elt Ideal))
    (a : Fin 8 → Fin 512 → Fin 512 → ℝ) (x : Fin 512 → Fin 3 → ℝ) (w1 : Fin 3 → Fin 16 → ℝ) (b1 : Fin 16 → ℝ) (w2 : Fin 16 → Fin 32 → ℝ) (b2 : Fin 32 → ℝ) (w3 : Fin 32 → Fin 64 → ℝ) (b3 : Fin 64 → ℝ)
    (hA : ∀ g r c, A (ix3 g r c) = ((a g r c : ℝ) : EReal)) (hX : ∀ r j, X (ix2 r j) = ((x r j : ℝ) : EReal))
    (hW1 : ∀ j k, W1 (ix2 j k) = ((w1 j k : ℝ) : EReal)) (hB1 : ∀ k, B1 (ix1 k) = ((b1 k : ℝ) : EReal))
    (hW2 : ∀ j k, W2 (ix2 j k) = ((w2 j k : ℝ) : EReal)) (hB2 : ∀ k, B2 (ix1 k) = ((b2 k : ℝ) : EReal))
    (hW3 : ∀ j k, W3 (ix2 j k) = ((w3 j k : ℝ) : EReal)) (hB3 : ∀ k, B3 (ix1 k) = ((b3 k : ℝ) : EReal))
    (g : Fin 8) (o : Fin 64) :
    val_main_v221 (F := Ideal) A X W1 B1 W2 B2 W3 B3 (ix2 g o)
      = ((Cert.Spec.out a x w1 b1 w2 b2 w3 b3 eps g o : ℝ) : EReal) := by
  have hidx : ∀ k : Fin 64, idx_main_call5_v1 (idx_main_call5_v2 (idx_main_v220 (ix2 g o))) k = ix2 g k := by
    intro k
    funext d
    refine Fin.ext ?_
    match d with
    | ⟨0, _⟩ => rfl
    | ⟨1, _⟩ => rfl
  rw [val_main_v221_apply, val_main_v220_apply, val_main_v219_apply, val_main_v217_apply, val_main_call5_v2_apply,
    val_main_call5_v1_apply, val_main_v218_apply, val_main_cst_52_apply, val_main_call5_cst_apply]
  simp only [val_main_call5_v0_apply, hidx,
    pooled_apply A X W1 B1 W2 B2 W3 B3 a x w1 b1 w2 b2 w3 b3 hA hX hW1 hB1 hW2 hB2 hW3 hB3]
  simp only [Ideal.hostDivf_def, Ideal.maximumf_def, Ideal.hostUnary_sqrt_def, Ideal.ofBits_def, Ideal.mulf_def,
    Ideal.ofBits_zero_f32, eps_word]
  exact normalize_coe (fun o' => Cert.Spec.pooled a x w1 b1 w2 b2 w3 b3 g o') eps eps_pos _

end Cert.RefValue

end
-- ==== Proof.RefRun.lean ====
/-
  The reference's run ends with the specification: the run with its result stated as the specification, fed with
  the value of the reference's last stage at every graph and output feature.
-/
import proofs.«181092_g44908178047564_cont_sun_c4_353_28_alg».proof.Proof.RefRunOf
import proofs.«181092_g44908178047564_cont_sun_c4_353_28_alg».proof.Proof.RefValue

noncomputable section

namespace Cert.RefRun

open Idealize.ShloMosaic Idealize.ShloMosaic.TcCoe Idealize.SL.Sem Idealize.ShloMosaic.ValueIdx
open Cert.ReferenceIdeal Cert.ReferenceIdeal.Gen

/-- From memories whose arguments are arrays of reals, the reference runs and ends with the specification in its
    result buffer and its arguments unchanged. -/
theorem ref_run (m : (ℓ : Loc nD τ sig) → Buf (Elt Ideal) ℓ) (ρ : Dev nD → PrngReg)
    (a : Dev nD → Fin 8 → Fin 512 → Fin 512 → ℝ) (x : Dev nD → Fin 512 → Fin 3 → ℝ)
    (w1 : Dev nD → Fin 3 → Fin 16 → ℝ) (b1 : Dev nD → Fin 16 → ℝ) (w2 : Dev nD → Fin 16 → Fin 32 → ℝ) (b2 : Dev nD → Fin 32 → ℝ)
    (w3 : Dev nD → Fin 32 → Fin 64 → ℝ) (b3 : Dev nD → Fin 64 → ℝ)
    (hA : ∀ (c : Dev nD) (g : Fin 8) (r cc : Fin 512), (m ((c.tc : Thread nD τ).loc main_arg0) : (⟨S8x512x512, .f32⟩ : BufTy).Contents (Elt Ideal)) (ix3 g r cc) = ((a c g r cc : ℝ) : EReal))
    (hX : ∀ (c : Dev nD) (r : Fin 512) (j : Fin 3), (m ((c.tc : Thread nD τ).loc main_arg1) : (⟨S512x3, .f32⟩ : BufTy).Contents (Elt Ideal)) (ix2 r j) = ((x c r j : ℝ) : EReal))
    (hW1 : ∀ (c : Dev nD) (j : Fin 3) (k : Fin 16), (m ((c.tc : Thread nD τ).loc main_arg2) : (⟨S3x16, .f32⟩ : BufTy).Contents (Elt Ideal)) (ix2 j k) = ((w1 c j k : ℝ) : EReal))
    (hB1 : ∀ (c : Dev nD) (k : Fin 16), (m ((c.tc : Thread nD τ).loc main_arg3) : (⟨S16, .f32⟩ : BufTy).Contents (Elt Ideal)) (ix1 k) = ((b1 c k : ℝ) : EReal))
    (hW2 : ∀ (c : Dev nD) (j : Fin 16) (k : Fin 32), (m ((c.tc : Thread nD τ).loc main_arg4) : (⟨S16x32, .f32⟩ : BufTy).Contents (Elt Ideal)) (ix2 j k) = ((w2 c j k : ℝ) : EReal))
    (hB2 : ∀ (c : Dev nD) (k : Fin 32), (m ((c.tc : Thread nD τ).loc main_arg5) : (⟨S32, .f32⟩ : BufTy).Contents (Elt Ideal)) (ix1 k) = ((b2 c k : ℝ) : EReal))
    (hW3 : ∀ (c : Dev nD) (j : Fin 32) (k : Fin 64), (m ((c.tc : Thread nD τ).loc main_arg6) : (⟨S32x64, .f32⟩ : BufTy).Contents (Elt Ideal)) (ix2 j k) = ((w3 c j k : ℝ) : EReal))
    (hB3 : ∀ (c : Dev nD) (k : Fin 64), (m ((c.tc : Thread nD τ).loc main_arg7) : (⟨S64, .f32⟩ : BufTy).Contents (Elt Ideal)) (ix1 k) = ((b3 c k : ℝ) : EReal)) :
    θ_run (Cert.ReferenceIdeal.defs (F := Ideal)) (onTc (τ := τ) (Cert.ReferenceIdeal.main (F := Ideal))) ⟨m, fun _ => 0, ρ⟩
      (fun r => ∀ c : Dev nD,
      r.2.mem ((c.tc : Thread nD τ).loc main_v221) = (fun i : S8x64.Idx => ((Cert.Spec.out (a c) (x c) (w1 c) (b1 c) (w2 c) (b2 c) (w3 c) (b3 c) Cert.Eps.eps (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ref_run_of_value m ρ a x w1 b1 w2 b2 w3 b3 (fun c g o =>
    Cert.RefValue.ref_value _ _ _ _ _ _ _ _ (a c) (x c) (w1 c) (b1 c) (w2 c) (b2 c) (w3 c) (b3 c)
      (hA c) (hX c) (hW1 c) (hB1 c) (hW2 c) (hB2 c) (hW3 c) (hB3 c) g o)

end Cert.RefRun

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Finite.lean ====
/-
  From the finiteness precondition to real entries.

  The precondition computes, for each of the eight arguments, whether every entry's absolute value lies below +∞,
  and joins the eight answers by "and".  If the joined answer is one then each answer is one, and an array all of
  whose entries have absolute value below +∞ is an array of (coercions of) real numbers.  A choice of those real
  numbers, entry by entry, turns each argument into a real-valued function whose coercion it is.
-/
import proofs.«181092_g44908178047564_cont_sun_c4_353_28_alg».proof.Proof.Gen.Pre_finite_inputs
import proofs.«181092_g44908178047564_cont_sun_c4_353_28_alg».proof.Proof.LibRealEntries
import Idealize.ShloMosaic.Lib.ReduceAll
import Idealize.ShloMosaic.Lib.ValueIdx
import Idealize.ShloMosaic.Lib.Pipeline.Value

noncomputable section

namespace Cert.Finite

open Idealize.ShloMosaic Cert.Pre_finite_inputs Cert.Lib

/-- The scalar shape has one index. -/
instance subsingleton_scalar_idx : Subsingleton S_.Idx := ⟨fun _ _ => funext fun d => d.elim0⟩

/-- One argument: if "every |x| < +∞" answers one, the argument is an array of reals. -/
theorem allReal_of_answer {s : Shape} (x : FVec Ideal s .f32)
    (hb : S_.BroadcastsInDim s (![] : Fin 0 → Fin s.rank)) {axes : List (Fin s.rank)} (hr : s.ReducesTo axes S_)
    (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) : AllReal x :=
  allReal_of_all_abs_lt x (broadcastInDim s ![] hb (constant (F := Ideal) S_ .f32 0x7F800000#32))
    (fun i => (broadcastInDim_apply _ hb _ i ValueIdx.ix0 (fun a => a.elim0)).trans rfl) hr (constantI S_ 1 1#1) hu ValueIdx.ix0 e

/-- The precondition makes every entry of every argument a real number. -/
theorem real_args (x0 : FVec Ideal S8x512x512 .f32) (x1 : FVec Ideal S512x3 .f32) (x2 : FVec Ideal S3x16 .f32) (x3 : FVec Ideal S16 .f32) (x4 : FVec Ideal S16x32 .f32) (x5 : FVec Ideal S32 .f32) (x6 : FVec Ideal S32x64 .f32) (x7 : FVec Ideal S64 .f32)
    (h : Cert.Pre_finite_inputs.fn (F := Ideal) x0 x1 x2 x3 x4 x5 x6 x7 = fun _ => 1#1) :
    AllReal x0 ∧ AllReal x1 ∧ AllReal x2 ∧ AllReal x3 ∧ AllReal x4 ∧ AllReal x5 ∧ AllReal x6 ∧ AllReal x7 := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_answer x0 _ _ _ e0, allReal_of_answer x1 _ _ _ e1, allReal_of_answer x2 _ _ _ e2,
    allReal_of_answer x3 _ _ _ e3, allReal_of_answer x4 _ _ _ e4, allReal_of_answer x5 _ _ _ e5,
    allReal_of_answer x6 _ _ _ e6, allReal_of_answer x7 _ _ _ e7⟩

/-- The real numbers behind an array of reals. -/
def realPart {ι : Type} (x : ι → EReal) (hx : AllReal x) : ι → ℝ := fun i => Classical.choose (hx i)

/-- An array of reals is the coercion of its real numbers. -/
theorem coe_realPart {ι : Type} (x : ι → EReal) (hx : AllReal x) (i : ι) : x i = ((realPart x hx i : ℝ) : EReal) :=
  Classical.choose_spec (hx i)

/-- An array of reals is, as a function, the coercion of a real-valued function. -/
theorem AllReal.exists_real {ι : Type} {x : ι → EReal} (hx : AllReal x) : ∃ a : ι → ℝ, ∀ i, x i = ((a i : ℝ) : EReal) :=
  ⟨realPart x hx, coe_realPart x hx⟩

end Cert.Finite

end
-- ==== Proof.Algebraic.lean ====
/-
  The two idealized programs agree.

  Under the precondition every entry of every argument is a real number, so each core's eight argument arrays are the
  coercions of real arrays.  For real arrays the idealized kernel's result and the idealized reference's result are both
  the coercion of the same real function of them, graph by graph and channel by channel: the unit-length pooled means of
  the three-layer normalised propagation.
-/
import proofs.«181092_g44908178047564_cont_sun_c4_353_28_alg».proof.Defs
import proofs.«181092_g44908178047564_cont_sun_c4_353_28_alg».proof.Proof.KValue
import proofs.«181092_g44908178047564_cont_sun_c4_353_28_alg».proof.Proof.RefRun
import proofs.«181092_g44908178047564_cont_sun_c4_353_28_alg».proof.Proof.Finite

noncomputable section

namespace Cert.Proof.Algebraic

open Idealize.ShloMosaic Idealize.ShloMosaic.TcCoe Idealize.ShloMosaic.ValueIdx Idealize.SL.Sem

/-- The real arrays behind one core's arguments, from the precondition. -/
def realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KValue.RealArgs m c :=
  have h := Cert.Finite.real_args _ _ _ _ _ _ _ _ (hpre c)
  { a := fun g r cc => Cert.Finite.realPart _ h.1 (ix3 g r cc)
    x := fun r j => Cert.Finite.realPart _ h.2.1 (ix2 r j)
    w1 := fun j k => Cert.Finite.realPart _ h.2.2.1 (ix2 j k)
    b1 := fun k => Cert.Finite.realPart _ h.2.2.2.1 (ix1 k)
    w2 := fun j k => Cert.Finite.realPart _ h.2.2.2.2.1 (ix2 j k)
    b2 := fun k => Cert.Finite.realPart _ h.2.2.2.2.2.1 (ix1 k)
    w3 := fun j k => Cert.Finite.realPart _ h.2.2.2.2.2.2.1 (ix2 j k)
    b3 := fun k => Cert.Finite.realPart _ h.2.2.2.2.2.2.2 (ix1 k)
    ha := fun g r cc => Cert.Finite.coe_realPart _ h.1 (ix3 g r cc)
    hx := fun r j => Cert.Finite.coe_realPart _ h.2.1 (ix2 r j)
    hw1 := fun j k => Cert.Finite.coe_realPart _ h.2.2.1 (ix2 j k)
    hb1 := fun k => Cert.Finite.coe_realPart _ h.2.2.2.1 (ix1 k)
    hw2 := fun j k => Cert.Finite.coe_realPart _ h.2.2.2.2.1 (ix2 j k)
    hb2 := fun k => Cert.Finite.coe_realPart _ h.2.2.2.2.2.1 (ix1 k)
    hw3 := fun j k => Cert.Finite.coe_realPart _ h.2.2.2.2.2.2.1 (ix2 j k)
    hb3 := fun k => Cert.Finite.coe_realPart _ h.2.2.2.2.2.2.2 (ix1 k) }

/-- Both runs end with the specification of the real arrays behind the arguments. -/
theorem algebraic : Cert.algebraic_KernelIdeal_ReferenceIdeal := by
  intro m ρ m' ρ' hpre hagree
  refine ⟨fun c => Cert.KernelIdeal.KValue.G2 (realArgs m hpre c),
    Cert.KernelIdeal.KValue.run m ρ (realArgs m hpre), ?_⟩
  exact Cert.RefRun.ref_run m' ρ'
    (fun c => (realArgs m hpre c).a) (fun c => (realArgs m hpre c).x) (fun c => (realArgs m hpre c).w1)
    (fun c => (realArgs m hpre c).b1) (fun c => (realArgs m hpre c).w2) (fun c => (realArgs m hpre c).b2)
    (fun c => (realArgs m hpre c).w3) (fun c => (realArgs m hpre c).b3)
    (fun c g r cc => by rw [(hagree c).1]; exact (realArgs m hpre c).ha g r cc)
    (fun c r j => by rw [(hagree c).2.1]; exact (realArgs m hpre c).hx r j)
    (fun c j k => by rw [(hagree c).2.2.1]; exact (realArgs m hpre c).hw1 j k)
    (fun c k => by rw [(hagree c).2.2.2.1]; exact (realArgs m hpre c).hb1 k)
    (fun c j k => by rw [(hagree c).2.2.2.2.1]; exact (realArgs m hpre c).hw2 j k)
    (fun c k => by rw [(hagree c).2.2.2.2.2.1]; exact (realArgs m hpre c).hb2 k)
    (fun c j k => by rw [(hagree c).2.2.2.2.2.2.1]; exact (realArgs m hpre c).hw3 j k)
    (fun c k => by rw [(hagree c).2.2.2.2.2.2.2]; exact (realArgs m hpre c).hb3 k)

end Cert.Proof.Algebraic

end
-- ==== Proof.lean ====
/-
  Two programs compute, for eight graphs on 512 nodes, a three-layer graph convolution with symmetric degree
  normalisation, the mean over each graph's nodes and a scaling of each graph's 64 means to unit length.  The reference
  lists every edge of the complete grid (and a self loop per node) and runs each layer by gathering, weighting and
  scatter-adding over that list; the kernel keeps each graph's adjacency block in place and runs each layer as dense
  products, folding the last layer and the mean into one weighted column sum.

  Over the extended reals, for inputs whose entries are all real (the precondition), both results are the coercion of one
  real-valued specification (Proof/Spec.lean): the reference by reading its edge list in closed form and turning each sum
  over the edges arriving at a node into a sum over the 512 sources plus the self loop; the kernel by reading its dense
  products entry by entry and, over the reals, moving the normalising factors inside the sums and exchanging the order of
  the two sums of the last layer.  The three frames are the generated frame runs (the reference's is its generated run with
  the result dropped); the idealized kernel is the kernel's own text read on the extended reals, so nothing is owed for it.
-/
import proofs.«181092_g44908178047564_cont_sun_c4_353_28_alg».proof.Defs
import proofs.«181092_g44908178047564_cont_sun_c4_353_28_alg».proof.Proof.Gen.Kernel
import proofs.«181092_g44908178047564_cont_sun_c4_353_28_alg».proof.Proof.Gen.Kernel.Skeleton
import proofs.«181092_g44908178047564_cont_sun_c4_353_28_alg».proof.Proof.Gen.Kernel.Launch
import proofs.«181092_g44908178047564_cont_sun_c4_353_28_alg».proof.Proof.Gen.Kernel.Points
import proofs.«181092_g44908178047564_cont_sun_c4_353_28_alg».proof.Proof.Gen.Kernel.Frame
import proofs.«181092_g44908178047564_cont_sun_c4_353_28_alg».proof.Proof.Gen.KernelIdeal
import proofs.«181092_g44908178047564_cont_sun_c4_353_28_alg».proof.Proof.Gen.KernelIdeal.Skeleton
import proofs.«181092_g44908178047564_cont_sun_c4_353_28_alg».proof.Proof.Gen.KernelIdeal.Launch
import proofs.«181092_g44908178047564_cont_sun_c4_353_28_alg».proof.Proof.Gen.KernelIdeal.Points
import proofs.«181092_g44908178047564_cont_sun_c4_353_28_alg».proof.Proof.Gen.KernelIdeal.Frame
import proofs.«181092_g44908178047564_cont_sun_c4_353_28_alg».proof.Proof.Gen.ReferenceIdeal
import proofs.«181092_g44908178047564_cont_sun_c4_353_28_alg».proof.Proof.Gen.ReferenceIdeal.Run
import proofs.«181092_g44908178047564_cont_sun_c4_353_28_alg».proof.Proof.Gen.ReferenceIdeal.Read
import proofs.«181092_g44908178047564_cont_sun_c4_353_28_alg».proof.Proof.Gen.Pre_finite_inputs
import proofs.«181092_g44908178047564_cont_sun_c4_353_28_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.RefRun.frame_ri,
  trivial,
  Cert.Proof.Algebraic.algebraic⟩

end Cert.Proof

end
